-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S5000x128 : Shape := ⟨2, ![5000, 128]⟩
abbrev S1x40 : Shape := ⟨2, ![1, 40]⟩
abbrev S50000x40 : Shape := ⟨2, ![50000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 139
  | .vmem => 18
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S1x800000, .i32⟩
  | 9 => ⟨S800000, .i32⟩
  | 10 => ⟨S1x800000, .i32⟩
  | 11 => ⟨S800000, .i32⟩
  | 12 => ⟨S_, .f32⟩
  | 13 => ⟨S50000, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S_, .f32⟩
  | 23 => ⟨S800000, .f32⟩
  | 24 => ⟨S50000, .f32⟩
  | 25 => ⟨S_, .f32⟩
  | 26 => ⟨S50000, .f32⟩
  | 27 => ⟨S50000, .f32⟩
  | 28 => ⟨S50000, .f32⟩
  | 29 => ⟨S_, .f32⟩
  | 30 => ⟨S50000, .f32⟩
  | 31 => ⟨S50000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S50000, .f32⟩
  | 52 => ⟨S800000x1, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S800000x128, .f32⟩
  | 63 => ⟨S800000x128, .f32⟩
  | 64 => ⟨S_, .f32⟩
  | 65 => ⟨S50000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S50000x128, .f32⟩
  | 75 => ⟨S50000x1, .f32⟩
  | 76 => ⟨S50000x128, .f32⟩
  | 77 => ⟨S50000x128, .f32⟩
  | 78 => ⟨S50000x128, .f32⟩
  | 79 => ⟨S1x128, .f32⟩
  | 80 => ⟨S50000x128, .f32⟩
  | 81 => ⟨S800000x1, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x128, .f32⟩
  | 91 => ⟨S800000x128, .f32⟩
  | 92 => ⟨S800000x128, .f32⟩
  | 93 => ⟨S_, .f32⟩
  | 94 => ⟨S50000x128, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S50000x128, .f32⟩
  | 104 => ⟨S50000x1, .f32⟩
  | 105 => ⟨S50000x128, .f32⟩
  | 106 => ⟨S50000x128, .f32⟩
  | 107 => ⟨S50000x128, .f32⟩
  | 108 => ⟨S1x128, .f32⟩
  | 109 => ⟨S50000x128, .f32⟩
  | 110 => ⟨S800000x1, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S800000x128, .f32⟩
  | 121 => ⟨S800000x128, .f32⟩
  | 122 => ⟨S_, .f32⟩
  | 123 => ⟨S50000x128, .f32⟩
  | 124 => ⟨S_, .i32⟩
  | 125 => ⟨S800000, .i32⟩
  | 126 => ⟨S800000, .i1⟩
  | 127 => ⟨S_, .i32⟩
  | _ => ⟨S50000x128, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S50000x128, .f32⟩
  | 5 => ⟨S50000x1, .f32⟩
  | 6 => ⟨S50000x128, .f32⟩
  | 7 => ⟨S50000x128, .f32⟩
  | 8 => ⟨S50000x128, .f32⟩
  | 9 => ⟨S1x40, .f32⟩
  | 10 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x40, .f32⟩
  | .local _ .vmem, ⟨15, _⟩ => ⟨S1x40, .f32⟩
  | .local _ .vmem, ⟨16, _⟩ => ⟨S5000x40, .f32⟩
  | .local _ .vmem, ⟨17, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_c_11 : Ref sig .tc := ⟨.hbm, 66, rfl⟩
abbrev main_v45 : Ref sig .tc := ⟨.hbm, 67, rfl⟩
abbrev main_v46 : Ref sig .tc := ⟨.hbm, 68, rfl⟩
abbrev main_c_12 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_c_14 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_c_16 : Ref sig .tc := ⟨.hbm, 95, rfl⟩
abbrev main_v69 : Ref sig .tc := ⟨.hbm, 96, rfl⟩
abbrev main_v70 : Ref sig .tc := ⟨.hbm, 97, rfl⟩
abbrev main_c_17 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_c_18 : Ref sig .tc := ⟨.hbm, 111, rfl⟩
abbrev main_v83 : Ref sig .tc := ⟨.hbm, 112, rfl⟩
abbrev main_v84 : Ref sig .tc := ⟨.hbm, 113, rfl⟩
abbrev main_c_19 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_20 : Ref sig .tc := ⟨.hbm, 122, rfl⟩
abbrev main_v92 : Ref sig .tc := ⟨.hbm, 123, rfl⟩
abbrev main_c_21 : Ref sig .tc := ⟨.hbm, 124, rfl⟩
abbrev main_v93 : Ref sig .tc := ⟨.hbm, 125, rfl⟩
abbrev main_v94 : Ref sig .tc := ⟨.hbm, 126, rfl⟩
abbrev main_c_22 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S50000x40.size a
  hwx2_3 : ∀ i : grid2.Coords, EltTy.bits .f32 = 32 ∨ (Rect.block (s := S50000x40) S5000x40.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v55) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v56) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v57) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v79) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v80) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v81) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v103) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v104) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v105) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x40 : Shape := ⟨2, ![50000, 40]⟩
abbrev S800000x40 : Shape := ⟨2, ![800000, 40]⟩
abbrev S1x40 : Shape := ⟨2, ![1, 40]⟩

abbrev nBuf : Space → Nat
  | .hbm => 246
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S1x800000, .i32⟩
  | 9 => ⟨S800000, .i32⟩
  | 10 => ⟨S1x800000, .i32⟩
  | 11 => ⟨S800000, .i32⟩
  | 12 => ⟨S_, .f32⟩
  | 13 => ⟨S50000, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S_, .f32⟩
  | 23 => ⟨S800000, .f32⟩
  | 24 => ⟨S50000, .f32⟩
  | 25 => ⟨S_, .f32⟩
  | 26 => ⟨S50000, .f32⟩
  | 27 => ⟨S50000, .f32⟩
  | 28 => ⟨S50000, .f32⟩
  | 29 => ⟨S_, .f32⟩
  | 30 => ⟨S50000, .f32⟩
  | 31 => ⟨S50000, .f32⟩
  | 32 => ⟨S50000x128, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000, .f32⟩
  | 51 => ⟨S800000, .f32⟩
  | 52 => ⟨S_, .f32⟩
  | 53 => ⟨S50000x128, .f32⟩
  | 54 => ⟨S800000x1, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S800000x128, .f32⟩
  | 65 => ⟨S800000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S50000x128, .f32⟩
  | 75 => ⟨S50000, .f32⟩
  | 76 => ⟨S50000x1, .f32⟩
  | 77 => ⟨S50000x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S_, .f32⟩
  | 87 => ⟨S50000, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S_, .f32⟩
  | 97 => ⟨S800000, .f32⟩
  | 98 => ⟨S50000, .f32⟩
  | 99 => ⟨S_, .f32⟩
  | 100 => ⟨S50000, .f32⟩
  | 101 => ⟨S50000, .f32⟩
  | 102 => ⟨S50000, .f32⟩
  | 103 => ⟨S_, .f32⟩
  | 104 => ⟨S50000, .f32⟩
  | 105 => ⟨S50000, .f32⟩
  | 106 => ⟨S50000x128, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000, .f32⟩
  | 125 => ⟨S800000, .f32⟩
  | 126 => ⟨S_, .f32⟩
  | 127 => ⟨S50000x128, .f32⟩
  | _ => ⟨S50000x128, .f32⟩

abbrev hbmTy0_1 (i : Nat) : BufTy := match i % 128 with
  | 0 => ⟨S800000x1, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x128, .f32⟩
  | 10 => ⟨S800000x128, .f32⟩
  | 11 => ⟨S800000x128, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S50000x128, .f32⟩
  | 21 => ⟨S50000, .f32⟩
  | 22 => ⟨S50000x1, .f32⟩
  | 23 => ⟨S50000x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S_, .f32⟩
  | 33 => ⟨S50000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S_, .f32⟩
  | 43 => ⟨S800000, .f32⟩
  | 44 => ⟨S50000, .f32⟩
  | 45 => ⟨S_, .f32⟩
  | 46 => ⟨S50000, .f32⟩
  | 47 => ⟨S50000, .f32⟩
  | 48 => ⟨S50000, .f32⟩
  | 49 => ⟨S_, .f32⟩
  | 50 => ⟨S50000, .f32⟩
  | 51 => ⟨S50000, .f32⟩
  | 52 => ⟨S50000x40, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000, .f32⟩
  | 71 => ⟨S800000, .f32⟩
  | 72 => ⟨S_, .f32⟩
  | 73 => ⟨S50000x40, .f32⟩
  | 74 => ⟨S800000x1, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x40, .f32⟩
  | 84 => ⟨S800000x40, .f32⟩
  | 85 => ⟨S800000x40, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S50000x40, .f32⟩
  | 95 => ⟨S50000, .f32⟩
  | 96 => ⟨S50000x1, .f32⟩
  | 97 => ⟨S50000x40, .f32⟩
  | 98 => ⟨S50000x40, .f32⟩
  | 99 => ⟨S50000x40, .f32⟩
  | 100 => ⟨S1x40, .f32⟩
  | 101 => ⟨S50000x40, .f32⟩
  | 102 => ⟨S50000x40, .f32⟩
  | 103 => ⟨S_, .f32⟩
  | 104 => ⟨S50000, .f32⟩
  | 105 => ⟨S_, .f32⟩
  | 106 => ⟨S50000, .f32⟩
  | 107 => ⟨S50000, .f32⟩
  | 108 => ⟨S50000x1, .f32⟩
  | 109 => ⟨S50000x40, .f32⟩
  | 110 => ⟨S50000x40, .f32⟩
  | 111 => ⟨S50000x40, .f32⟩
  | 112 => ⟨S_, .f32⟩
  | 113 => ⟨S50000, .f32⟩
  | 114 => ⟨S50000x1, .f32⟩
  | 115 => ⟨S50000x1, .f32⟩
  | 116 => ⟨S50000x40, .f32⟩
  | 117 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_11 : Ref sig .tc := ⟨.hbm, 66, rfl⟩
abbrev main_v45 : Ref sig .tc := ⟨.hbm, 67, rfl⟩
abbrev main_v46 : Ref sig .tc := ⟨.hbm, 68, rfl⟩
abbrev main_c_12 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call0_cst : Ref sig .tc := ⟨.hbm, 83, rfl⟩
abbrev main_call0_v0 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_c_14 : Ref sig .tc := ⟨.hbm, 88, rfl⟩
abbrev main_v62 : Ref sig .tc := ⟨.hbm, 89, rfl⟩
abbrev main_v63 : Ref sig .tc := ⟨.hbm, 90, rfl⟩
abbrev main_c_15 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_16 : Ref sig .tc := ⟨.hbm, 96, rfl⟩
abbrev main_v68 : Ref sig .tc := ⟨.hbm, 97, rfl⟩
abbrev main_v69 : Ref sig .tc := ⟨.hbm, 98, rfl⟩
abbrev main_cst_17 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_18 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_19 : Ref sig .tc := ⟨.hbm, 107, rfl⟩
abbrev main_v76 : Ref sig .tc := ⟨.hbm, 108, rfl⟩
abbrev main_v77 : Ref sig .tc := ⟨.hbm, 109, rfl⟩
abbrev main_c_20 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_21 : Ref sig .tc := ⟨.hbm, 116, rfl⟩
abbrev main_v83 : Ref sig .tc := ⟨.hbm, 117, rfl⟩
abbrev main_v84 : Ref sig .tc := ⟨.hbm, 118, rfl⟩
abbrev main_c_22 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_23 : Ref sig .tc := ⟨.hbm, 126, rfl⟩
abbrev main_v91 : Ref sig .tc := ⟨.hbm, 127, rfl⟩
abbrev main_v92 : Ref sig .tc := ⟨.hbm, 128, rfl⟩
abbrev main_c_24 : Ref sig .tc := ⟨.hbm, 129, rfl⟩
abbrev main_v93 : Ref sig .tc := ⟨.hbm, 130, rfl⟩
abbrev main_v94 : Ref sig .tc := ⟨.hbm, 131, rfl⟩
abbrev main_c_25 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_c_26 : Ref sig .tc := ⟨.hbm, 140, rfl⟩
abbrev main_v102 : Ref sig .tc := ⟨.hbm, 141, rfl⟩
abbrev main_v103 : Ref sig .tc := ⟨.hbm, 142, rfl⟩
abbrev main_c_27 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_call1_cst : Ref sig .tc := ⟨.hbm, 157, rfl⟩
abbrev main_call1_v0 : Ref sig .tc := ⟨.hbm, 158, rfl⟩
abbrev main_v117 : Ref sig .tc := ⟨.hbm, 159, rfl⟩
abbrev main_cst_28 : Ref sig .tc := ⟨.hbm, 160, rfl⟩
abbrev main_v118 : Ref sig .tc := ⟨.hbm, 161, rfl⟩
abbrev main_c_29 : Ref sig .tc := ⟨.hbm, 162, rfl⟩
abbrev main_v119 : Ref sig .tc := ⟨.hbm, 163, rfl⟩
abbrev main_v120 : Ref sig .tc := ⟨.hbm, 164, rfl⟩
abbrev main_c_30 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_cst_31 : Ref sig .tc := ⟨.hbm, 170, rfl⟩
abbrev main_v125 : Ref sig .tc := ⟨.hbm, 171, rfl⟩
abbrev main_v126 : Ref sig .tc := ⟨.hbm, 172, rfl⟩
abbrev main_cst_32 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_cst_33 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_c_34 : Ref sig .tc := ⟨.hbm, 181, rfl⟩
abbrev main_v133 : Ref sig .tc := ⟨.hbm, 182, rfl⟩
abbrev main_v134 : Ref sig .tc := ⟨.hbm, 183, rfl⟩
abbrev main_c_35 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_c_36 : Ref sig .tc := ⟨.hbm, 190, rfl⟩
abbrev main_v140 : Ref sig .tc := ⟨.hbm, 191, rfl⟩
abbrev main_v141 : Ref sig .tc := ⟨.hbm, 192, rfl⟩
abbrev main_c_37 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_cst_38 : Ref sig .tc := ⟨.hbm, 200, rfl⟩
abbrev main_v148 : Ref sig .tc := ⟨.hbm, 201, rfl⟩
abbrev main_v149 : Ref sig .tc := ⟨.hbm, 202, rfl⟩
abbrev main_c_39 : Ref sig .tc := ⟨.hbm, 203, rfl⟩
abbrev main_v150 : Ref sig .tc := ⟨.hbm, 204, rfl⟩
abbrev main_v151 : Ref sig .tc := ⟨.hbm, 205, rfl⟩
abbrev main_c_40 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_c_41 : Ref sig .tc := ⟨.hbm, 214, rfl⟩
abbrev main_v159 : Ref sig .tc := ⟨.hbm, 215, rfl⟩
abbrev main_v160 : Ref sig .tc := ⟨.hbm, 216, rfl⟩
abbrev main_c_42 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_call2_cst : Ref sig .tc := ⟨.hbm, 231, rfl⟩
abbrev main_call2_v0 : Ref sig .tc := ⟨.hbm, 232, rfl⟩
abbrev main_call2_cst_0 : Ref sig .tc := ⟨.hbm, 233, rfl⟩
abbrev main_call2_v1 : Ref sig .tc := ⟨.hbm, 234, rfl⟩
abbrev main_call2_v2 : Ref sig .tc := ⟨.hbm, 235, rfl⟩
abbrev main_call2_v3 : Ref sig .tc := ⟨.hbm, 236, rfl⟩
abbrev main_call2_v4 : Ref sig .tc := ⟨.hbm, 237, rfl⟩
abbrev main_call2_v5 : Ref sig .tc := ⟨.hbm, 238, rfl⟩
abbrev main_call2_v6 : Ref sig .tc := ⟨.hbm, 239, rfl⟩
abbrev main_call2_cst_1 : Ref sig .tc := ⟨.hbm, 240, rfl⟩
abbrev main_call2_v7 : Ref sig .tc := ⟨.hbm, 241, rfl⟩
abbrev main_call2_v8 : Ref sig .tc := ⟨.hbm, 242, rfl⟩
abbrev main_call2_v9 : Ref sig .tc := ⟨.hbm, 243, rfl⟩
abbrev main_call2_v10 : Ref sig .tc := ⟨.hbm, 244, rfl⟩
abbrev main_v174 : Ref sig .tc := ⟨.hbm, 245, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S800000x1_S800000x128_0_1 : S800000x1.BroadcastsInDim S800000x128 (![0, 1] : Fin 2 → Fin S800000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x40 : S_.BroadcastsInDim S50000x40 (![] : Fin 0 → Fin S50000x40.rank)
  bcast_S800000x1_S800000x40_0_1 : S800000x1.BroadcastsInDim S800000x40 (![0, 1] : Fin 2 → Fin S800000x40.rank)
  bcast_S50000x1_S50000x40_0_1 : S50000x1.BroadcastsInDim S50000x40 (![0, 1] : Fin 2 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.KRun.lean ====
/-
  The idealized kernel's run with its RESULT named.

  @main is three dense-layer regions among stretches of host operations. Its execution is the chain of six
  segments the frame is proved over; the last thread state holds every unscoped buffer at the contents `W6`
  the chain ends with. Reading that state at the result buffer as well as at the arguments gives: every weakly
  fair execution terminates with the result array at `W6 … main_v105` and the arguments as launched.
-/
import proofs.«103093_j44641890074931_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run_main : θ_run defs (onTc (τ := τ) (main (F := F))) ⟨m, fun _ => 0, ρ⟩ (fun r => ∀ c : Dev nD,
      r.2.mem ((c.tc : Thread nD τ).loc main_v105) = W6 m ρ c (Proc.devRef .tc main_v105)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v105 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.RunValue

end
-- ==== Proof.LibScatterRows.lean ====
/-
  Row scatter-add read at an element.

  A segment sum over rows — operand [N, C] (or [N, B, C]), one signed row number per update row
  (scatter indices [E, 1]), updates [E, C] (or [E, B, C]) — adds update row e into operand row
  idx[e, 0] and drops it when that row number is outside [0, N). Read at element (n, o) of the
  result this is the operand's element plus the sum, over the update rows e whose row number is n,
  of the update's element (e, o). All sizes and the index width are arbitrary.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace ScatterRows

/-! ## A scatter's result index, by its coordinates -/

/-- An update index lands on operand index i exactly when, on every operand axis, the window's
    start plus the window coordinate is i's coordinate (as integers): being inside the operand is
    then automatic, and the landing index is determined axis by axis. -/
theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  constructor
  · intro h a
    split_ifs at h with hin
    have hi := Option.some.inj h
    have := congrArg (fun f => (f a).val) hi
    simp only at this
    have h0 := (hin a).1
    omega
  · intro h
    have hin : ∀ a, 0 ≤ d.start j idx a + d.window j a ∧ d.start j idx a + d.window j a < s.size a := by
      intro a
      have := h a
      have hlt := (i a).isLt
      omega
    rw [dif_pos hin]
    congr 1
    funext a
    refine Fin.ext ?_
    have := h a
    show (d.start j idx a + d.window j a).toNat = (i a).val
    omega

/-! ## Rank 2: operand [N, C], row numbers [E, 1], updates [E, C] -/

/-- The dimension numbers of a row scatter over a rank-2 operand: the updates' axis 1 is the window
    axis and goes to the operand's axis 1; the operand's axis 0 is inserted and is the one the row
    number addresses; the row number is the length-1 vector on the scatter indices' axis 1. -/
abbrev rows2Dims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

section Rows2
variable {N E C w : Nat} (wf : ScatterDims.WF ⟨2, ![N, C]⟩ ⟨2, ![E, 1]⟩ ⟨2, ![E, C]⟩ [1] [0] [0] 1)

/-- On operand axis 0 the window of update (e, o) starts at the row number idx[e, 0], read signed. -/
theorem rows2_start0 (idx : IVec ⟨2, ![E, 1]⟩ w) (e : Fin E) (o : Fin C) :
    (rows2Dims N E C wf).start (ix2 e o) idx 0 = (idx (ix2 e (0 : Fin 1))).toInt := by
  unfold ScatterDims.start
  rw [dif_pos (show (0 : Fin 2) ∈ (rows2Dims N E C wf).scatterDimsToOperandDims from List.mem_singleton.mpr rfl)]
  have hsi : (rows2Dims N E C wf).siIdx (ix2 e o) ⟨List.idxOf (0 : Fin 2) (rows2Dims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the row number does not address, the window starts at 0. -/
theorem rows2_start1 (idx : IVec ⟨2, ![E, 1]⟩ w) (e : Fin E) (o : Fin C) :
    (rows2Dims N E C wf).start (ix2 e o) idx 1 = 0 := by
  unfold ScatterDims.start
  have h : ¬ (1 : Fin 2) ∈ (rows2Dims N E C wf).scatterDimsToOperandDims := (show (1 : Fin 2) ∉ ([0] : List (Fin 2)) by decide)
  rw [dif_neg h]

/-- On the inserted operand axis 0 the window coordinate is 0. -/
theorem rows2_window0 (e : Fin E) (o : Fin C) : (rows2Dims N E C wf).window (ix2 e o) 0 = 0 := by
  unfold ScatterDims.window
  have h : ¬ (0 : Fin 2) ∈ (rows2Dims N E C wf).sKept := (show (0 : Fin 2) ∉ ([1] : List (Fin 2)) by decide)
  rw [dif_neg h]

/-- On operand axis 1 the window coordinate of update (e, o) is the column o. -/
theorem rows2_window1 (e : Fin E) (o : Fin C) : (rows2Dims N E C wf).window (ix2 e o) 1 = o.val := by
  unfold ScatterDims.window
  have h : (1 : Fin 2) ∈ (rows2Dims N E C wf).sKept := (show (1 : Fin 2) ∈ ([1] : List (Fin 2)) by decide)
  rw [dif_pos h]
  rfl

/-- Update (e, o') lands on operand element (n, o) exactly when its row number idx[e, 0], read
    signed, is n and its column o' is o. -/
theorem rows2_resultIdx?_iff (idx : IVec ⟨2, ![E, 1]⟩ w) (e : Fin E) (o' : Fin C) (n : Fin N) (o : Fin C) :
    (rows2Dims N E C wf).resultIdx? (ix2 e o') idx = some (ix2 n o) ↔
      (idx (ix2 e (0 : Fin 1))).toInt = (n.val : ℤ) ∧ o' = o := by
  rw [resultIdx?_eq_some_iff, Fin.forall_fin_two, rows2_start0, rows2_window0, rows2_start1, rows2_window1]
  show ((idx (ix2 e (0 : Fin 1))).toInt + ((0 : ℕ) : ℤ) = (n.val : ℤ) ∧ (0 : ℤ) + ((o'.val : ℕ) : ℤ) = (o.val : ℤ)) ↔ _
  rw [Fin.ext_iff]
  omega

/-- THE ROW SCATTER-ADD READ AT (n, o): the operand's element plus the sum of the updates' elements
    (e, o) over the update rows e whose row number idx[e, 0], read signed, is n. A row number outside
    [0, N) equals no n, so that update row is dropped. -/
theorem scatterAdd_rows2_apply (x : (⟨2, ![N, C]⟩ : Shape).Idx → EReal) (idx : IVec ⟨2, ![E, 1]⟩ w)
    (u : (⟨2, ![E, C]⟩ : Shape).Idx → EReal) (n : Fin N) (o : Fin C) :
    Host.scatterAdd (F := Ideal) (φ := .f32) (rows2Dims N E C wf) x idx u (ix2 n o) =
      x (ix2 n o) + ∑ e : Fin E, if (idx (ix2 e (0 : Fin 1))).toInt = (n.val : ℤ) then u (ix2 e o) else 0 := by
  show Ideal.hostScatterAdd (rows2Dims N E C wf) x idx u (ix2 n o) = _
  unfold Ideal.hostScatterAdd
  congr 1
  rw [Finset.sum_filter, sum_idx2]
  refine Finset.sum_congr rfl fun e _ => ?_
  simp only [rows2_resultIdx?_iff]
  by_cases ht : (idx (ix2 e (0 : Fin 1))).toInt = (n.val : ℤ)
  · simp only [ht, true_and, if_true]
    exact Finset.sum_ite_eq' Finset.univ o _ |>.trans (if_pos (Finset.mem_univ o))
  · simp only [ht, false_and, if_false, Finset.sum_const_zero]

/-- The same reading for ANY record of dimension numbers whose four lists are those of a row scatter
    (each hypothesis is closed by reflexivity on a record written out field by field). -/
theorem scatterAdd_rows2_apply_of_dims (D : ScatterDims ⟨2, ![N, C]⟩ ⟨2, ![E, 1]⟩ ⟨2, ![E, C]⟩)
    (h1 : D.updateWindowDims = [1]) (h2 : D.insertedWindowDims = [0]) (h3 : D.scatterDimsToOperandDims = [0])
    (h4 : D.indexVectorDim = 1) (x : (⟨2, ![N, C]⟩ : Shape).Idx → EReal) (idx : IVec ⟨2, ![E, 1]⟩ w)
    (u : (⟨2, ![E, C]⟩ : Shape).Idx → EReal) (n : Fin N) (o : Fin C) :
    Host.scatterAdd (F := Ideal) (φ := .f32) D x idx u (ix2 n o) =
      x (ix2 n o) + ∑ e : Fin E, if (idx (ix2 e (0 : Fin 1))).toInt = (n.val : ℤ) then u (ix2 e o) else 0 := by
  obtain ⟨uw, iw, sd, iv, wf'⟩ := D
  simp only at h1 h2 h3 h4
  subst h1 h2 h3 h4
  exact scatterAdd_rows2_apply wf' x idx u n o

end Rows2

/-! ## Rank 3: operand [N, B, C], row numbers [E, 1], updates [E, B, C] -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A statement about every one of three axes is the statement about axis 0, axis 1 and axis 2. -/
theorem forall_fin3 {P : Fin 3 → Prop} : (∀ a, P a) ↔ P 0 ∧ P 1 ∧ P 2 := by
  constructor
  · intro h; exact ⟨h 0, h 1, h 2⟩
  · rintro ⟨h0, h1, h2⟩ a
    match a with
    | ⟨0, _⟩ => exact h0
    | ⟨1, _⟩ => exact h1
    | ⟨2, _⟩ => exact h2

/-- The dimension numbers of a row scatter over a rank-3 operand: the updates' axes 1 and 2 are the
    window axes and go to the operand's axes 1 and 2; the operand's axis 0 is inserted and is the
    one the row number addresses; the row number is the length-1 vector on the scatter indices'
    axis 1. -/
abbrev rows3Dims (N E B C : Nat)
    (wf : ScatterDims.WF ⟨3, ![N, B, C]⟩ ⟨2, ![E, 1]⟩ ⟨3, ![E, B, C]⟩ [1, 2] [0] [0] 1) :
    ScatterDims ⟨3, ![N, B, C]⟩ ⟨2, ![E, 1]⟩ ⟨3, ![E, B, C]⟩ :=
  { updateWindowDims := [1, 2], insertedWindowDims := [0], scatterDimsToOperandDims := [0], indexVectorDim := 1, wf := wf }

section Rows3
variable {N E B C w : Nat} (wf : ScatterDims.WF ⟨3, ![N, B, C]⟩ ⟨2, ![E, 1]⟩ ⟨3, ![E, B, C]⟩ [1, 2] [0] [0] 1)

/-- On operand axis 0 the window of update (e, b, d) starts at the row number idx[e, 0], read signed. -/
theorem rows3_start0 (idx : IVec ⟨2, ![E, 1]⟩ w) (e : Fin E) (b : Fin B) (d : Fin C) :
    (rows3Dims N E B C wf).start (ix3 e b d) idx 0 = (idx (ix2 e (0 : Fin 1))).toInt := by
  unfold ScatterDims.start
  rw [dif_pos (show (0 : Fin 3) ∈ (rows3Dims N E B C wf).scatterDimsToOperandDims from List.mem_singleton.mpr rfl)]
  have hsi : (rows3Dims N E B C wf).siIdx (ix3 e b d) ⟨List.idxOf (0 : Fin 3) (rows3Dims N E B C wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- On operand axis 1, which the row number does not address, the window starts at 0. -/
theorem rows3_start1 (idx : IVec ⟨2, ![E, 1]⟩ w) (e : Fin E) (b : Fin B) (d : Fin C) :
    (rows3Dims N E B C wf).start (ix3 e b d) idx 1 = 0 := by
  unfold ScatterDims.start
  have h : ¬ (1 : Fin 3) ∈ (rows3Dims N E B C wf).scatterDimsToOperandDims := (show (1 : Fin 3) ∉ ([0] : List (Fin 3)) by decide)
  rw [dif_neg h]

/-- On operand axis 2, which the row number does not address, the window starts at 0. -/
theorem rows3_start2 (idx : IVec ⟨2, ![E, 1]⟩ w) (e : Fin E) (b : Fin B) (d : Fin C) :
    (rows3Dims N E B C wf).start (ix3 e b d) idx 2 = 0 := by
  unfold ScatterDims.start
  have h : ¬ (2 : Fin 3) ∈ (rows3Dims N E B C wf).scatterDimsToOperandDims := (show (2 : Fin 3) ∉ ([0] : List (Fin 3)) by decide)
  rw [dif_neg h]

/-- On the inserted operand axis 0 the window coordinate is 0. -/
theorem rows3_window0 (e : Fin E) (b : Fin B) (d : Fin C) : (rows3Dims N E B C wf).window (ix3 e b d) 0 = 0 := by
  unfold ScatterDims.window
  have h : ¬ (0 : Fin 3) ∈ (rows3Dims N E B C wf).sKept := (show (0 : Fin 3) ∉ ([1, 2] : List (Fin 3)) by decide)
  rw [dif_neg h]

/-- On operand axis 1 the window coordinate of update (e, b, d) is b. -/
theorem rows3_window1 (e : Fin E) (b : Fin B) (d : Fin C) : (rows3Dims N E B C wf).window (ix3 e b d) 1 = b.val := by
  unfold ScatterDims.window
  have h : (1 : Fin 3) ∈ (rows3Dims N E B C wf).sKept := (show (1 : Fin 3) ∈ ([1, 2] : List (Fin 3)) by decide)
  rw [dif_pos h]
  rfl

/-- On operand axis 2 the window coordinate of update (e, b, d) is d. -/
theorem rows3_window2 (e : Fin E) (b : Fin B) (d : Fin C) : (rows3Dims N E B C wf).window (ix3 e b d) 2 = d.val := by
  unfold ScatterDims.window
  have h : (2 : Fin 3) ∈ (rows3Dims N E B C wf).sKept := (show (2 : Fin 3) ∈ ([1, 2] : List (Fin 3)) by decide)
  rw [dif_pos h]
  rfl

/-- Update (e, b', d') lands on operand element (n, b, d) exactly when its row number idx[e, 0], read
    signed, is n and its two window coordinates are (b, d). -/
theorem rows3_resultIdx?_iff (idx : IVec ⟨2, ![E, 1]⟩ w) (e : Fin E) (b' : Fin B) (d' : Fin C) (n : Fin N)
    (b : Fin B) (d : Fin C) :
    (rows3Dims N E B C wf).resultIdx? (ix3 e b' d') idx = some (ix3 n b d) ↔
      (idx (ix2 e (0 : Fin 1))).toInt = (n.val : ℤ) ∧ b' = b ∧ d' = d := by
  rw [resultIdx?_eq_some_iff, forall_fin3, rows3_start0, rows3_window0, rows3_start1, rows3_window1,
    rows3_start2, rows3_window2]
  show ((idx (ix2 e (0 : Fin 1))).toInt + ((0 : ℕ) : ℤ) = (n.val : ℤ) ∧ (0 : ℤ) + ((b'.val : ℕ) : ℤ) = (b.val : ℤ) ∧
    (0 : ℤ) + ((d'.val : ℕ) : ℤ) = (d.val : ℤ)) ↔ _
  rw [Fin.ext_iff, Fin.ext_iff]
  omega

/-- THE ROW SCATTER-ADD READ AT (n, b, d): the operand's element plus the sum of the updates' elements
    (e, b, d) over the update rows e whose row number idx[e, 0], read signed, is n. A row number
    outside [0, N) equals no n, so that update row is dropped. -/
theorem scatterAdd_rows3_apply (x : (⟨3, ![N, B, C]⟩ : Shape).Idx → EReal) (idx : IVec ⟨2, ![E, 1]⟩ w)
    (u : (⟨3, ![E, B, C]⟩ : Shape).Idx → EReal) (n : Fin N) (b : Fin B) (d : Fin C) :
    Host.scatterAdd (F := Ideal) (φ := .f32) (rows3Dims N E B C wf) x idx u (ix3 n b d) =
      x (ix3 n b d) + ∑ e : Fin E, if (idx (ix2 e (0 : Fin 1))).toInt = (n.val : ℤ) then u (ix3 e b d) else 0 := by
  show Ideal.hostScatterAdd (rows3Dims N E B C wf) x idx u (ix3 n b d) = _
  unfold Ideal.hostScatterAdd
  congr 1
  rw [Finset.sum_filter, sum_idx3]
  refine Finset.sum_congr rfl fun e _ => ?_
  simp only [rows3_resultIdx?_iff]
  by_cases ht : (idx (ix2 e (0 : Fin 1))).toInt = (n.val : ℤ)
  · simp only [ht, true_and, if_true]
    have hin : ∀ b' : Fin B, (∑ d' : Fin C, if b' = b ∧ d' = d then u (ix3 e b' d') else 0) =
        if b' = b then u (ix3 e b' d) else 0 := by
      intro b'
      by_cases hb : b' = b
      · simp only [hb, true_and, if_true]
        exact (Finset.sum_ite_eq' Finset.univ d _).trans (if_pos (Finset.mem_univ d))
      · simp only [hb, false_and, if_false, Finset.sum_const_zero]
    simp only [hin]
    exact (Finset.sum_ite_eq' Finset.univ b _).trans (if_pos (Finset.mem_univ b))
  · simp only [ht, false_and, if_false, Finset.sum_const_zero]

/-- The same reading for ANY record of dimension numbers whose four lists are those of a row scatter
    (each hypothesis is closed by reflexivity on a record written out field by field). -/
theorem scatterAdd_rows3_apply_of_dims (D : ScatterDims ⟨3, ![N, B, C]⟩ ⟨2, ![E, 1]⟩ ⟨3, ![E, B, C]⟩)
    (h1 : D.updateWindowDims = [1, 2]) (h2 : D.insertedWindowDims = [0]) (h3 : D.scatterDimsToOperandDims = [0])
    (h4 : D.indexVectorDim = 1) (x : (⟨3, ![N, B, C]⟩ : Shape).Idx → EReal) (idx : IVec ⟨2, ![E, 1]⟩ w)
    (u : (⟨3, ![E, B, C]⟩ : Shape).Idx → EReal) (n : Fin N) (b : Fin B) (d : Fin C) :
    Host.scatterAdd (F := Ideal) (φ := .f32) D x idx u (ix3 n b d) =
      x (ix3 n b d) + ∑ e : Fin E, if (idx (ix2 e (0 : Fin 1))).toInt = (n.val : ℤ) then u (ix3 e b d) else 0 := by
  obtain ⟨uw, iw, sd, iv, wf'⟩ := D
  simp only at h1 h2 h3 h4
  subst h1 h2 h3 h4
  exact scatterAdd_rows3_apply wf' x idx u n b d

end Rows3

end ScatterRows

end
-- ==== Proof.LibSegments.lean ====
/-
  Segment sums, row gathers and appended self-loops, read at an element.

  (1) A rank-1 scatter-add — operand [N], one signed position per update (scatter indices [E, 1]),
      updates [E] — read at position n is the operand's element plus the sum of the updates whose
      position is n.
  (2) A row gather — operand [N, C], one signed row number per result row (start indices [E, 1]),
      result [E, C] — read at (e, o) is the operand at (the row number clamped into [0, N - 1], o).
  (3) A vector of E0 positions followed by 0, 1, …, N - 1 reads n at place E0 + n.
  (4) A count of the updates landing on a position that at least one update lands on is a real
      number at least one, and the inverse square root of such a number is real.
  All sizes and the index width are arbitrary.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

open scoped BigOperators
open Idealize.ShloMosaic Idealize.ShloMosaic.ValueIdx

namespace Segments

/-! ## A scatter's result index, by its coordinates -/

/-- An update index lands on operand index i exactly when, on every operand axis, the window's
    start plus the window coordinate is i's coordinate (as integers): being inside the operand is
    then automatic, and the landing index is determined axis by axis. -/
theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  constructor
  · intro h a
    split_ifs at h with hin
    have hi := Option.some.inj h
    have := congrArg (fun f => (f a).val) hi
    simp only at this
    have h0 := (hin a).1
    omega
  · intro h
    have hin : ∀ a, 0 ≤ d.start j idx a + d.window j a ∧ d.start j idx a + d.window j a < s.size a := by
      intro a
      have := h a
      have hlt := (i a).isLt
      omega
    rw [dif_pos hin]
    congr 1
    funext a
    refine Fin.ext ?_
    have := h a
    show (d.start j idx a + d.window j a).toNat = (i a).val
    omega

/-- A rank-1 index set is its one coordinate range … -/
def idxEquiv1 {n0 : Nat} : (⟨1, ![n0]⟩ : Shape).Idx ≃ Fin n0 where
  toFun i := i 0
  invFun p := ix1 p
  left_inv i := (eq_ix1 i).symm
  right_inv _ := rfl

/-- … so a sum over it is the sum over the coordinate. -/
theorem sum_idx1 {M : Type*} [AddCommMonoid M] {n0 : Nat} (f : (⟨1, ![n0]⟩ : Shape).Idx → M) :
    ∑ i, f i = ∑ a : Fin n0, f (ix1 a) := by
  rw [← Equiv.sum_comp (idxEquiv1 (n0 := n0)).symm f]
  rfl

/-! ## Rank 1: operand [N], positions [E, 1], updates [E] -/

/-- The dimension numbers of a scatter of scalars into a rank-1 operand: the updates have no window
    axis; the operand's axis 0 is inserted and is the one the position addresses; the position is
    the length-1 vector on the scatter indices' axis 1. -/
abbrev rows1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

section Rows1
variable {N E w : Nat} (wf : ScatterDims.WF ⟨1, ![N]⟩ ⟨2, ![E, 1]⟩ ⟨1, ![E]⟩ [] [0] [0] 1)

/-- On operand axis 0 the window of update e starts at the position idx[e, 0], read signed. -/
theorem rows1_start0 (idx : IVec ⟨2, ![E, 1]⟩ w) (e : Fin E) :
    (rows1Dims N E wf).start (ix1 e) idx 0 = (idx (ix2 e (0 : Fin 1))).toInt := by
  unfold ScatterDims.start
  rw [dif_pos (show (0 : Fin 1) ∈ (rows1Dims N E wf).scatterDimsToOperandDims from List.mem_singleton.mpr rfl)]
  have hsi : (rows1Dims N E wf).siIdx (ix1 e) ⟨List.idxOf (0 : Fin 1) (rows1Dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the inserted operand axis 0 the window coordinate is 0. -/
theorem rows1_window0 (e : Fin E) : (rows1Dims N E wf).window (ix1 e) 0 = 0 := by
  unfold ScatterDims.window
  have h : ¬ (0 : Fin 1) ∈ (rows1Dims N E wf).sKept := (show (0 : Fin 1) ∉ ([] : List (Fin 1)) by decide)
  rw [dif_neg h]

/-- Update e lands on operand element n exactly when its position idx[e, 0], read signed, is n. -/
theorem rows1_resultIdx?_iff (idx : IVec ⟨2, ![E, 1]⟩ w) (e : Fin E) (n : Fin N) :
    (rows1Dims N E wf).resultIdx? (ix1 e) idx = some (ix1 n) ↔
      (idx (ix2 e (0 : Fin 1))).toInt = (n.val : ℤ) := by
  rw [resultIdx?_eq_some_iff, Fin.forall_fin_one, rows1_start0, rows1_window0]
  show ((idx (ix2 e (0 : Fin 1))).toInt + ((0 : ℕ) : ℤ) = (n.val : ℤ)) ↔ _
  omega

/-- THE RANK-1 SCATTER-ADD READ AT n: the operand's element plus the sum of the updates e whose
    position idx[e, 0], read signed, is n. A position outside [0, N) equals no n, so that update is
    dropped. -/
theorem scatterAdd_rows1_apply (x : (⟨1, ![N]⟩ : Shape).Idx → EReal) (idx : IVec ⟨2, ![E, 1]⟩ w)
    (u : (⟨1, ![E]⟩ : Shape).Idx → EReal) (n : Fin N) :
    Host.scatterAdd (F := Ideal) (φ := .f32) (rows1Dims N E wf) x idx u (ix1 n) =
      x (ix1 n) + ∑ e : Fin E, if (idx (ix2 e (0 : Fin 1))).toInt = (n.val : ℤ) then u (ix1 e) else 0 := by
  show Ideal.hostScatterAdd (rows1Dims N E wf) x idx u (ix1 n) = _
  unfold Ideal.hostScatterAdd
  congr 1
  rw [Finset.sum_filter, sum_idx1]
  refine Finset.sum_congr rfl fun e _ => ?_
  simp only [rows1_resultIdx?_iff]

/-- The same reading for ANY record of dimension numbers whose four lists are those of a rank-1
    scatter of scalars (each hypothesis is closed by reflexivity on a record written out field by
    field). -/
theorem scatterAdd_rows1_apply_of_dims (D : ScatterDims ⟨1, ![N]⟩ ⟨2, ![E, 1]⟩ ⟨1, ![E]⟩)
    (h1 : D.updateWindowDims = []) (h2 : D.insertedWindowDims = [0]) (h3 : D.scatterDimsToOperandDims = [0])
    (h4 : D.indexVectorDim = 1) (x : (⟨1, ![N]⟩ : Shape).Idx → EReal) (idx : IVec ⟨2, ![E, 1]⟩ w)
    (u : (⟨1, ![E]⟩ : Shape).Idx → EReal) (n : Fin N) :
    Host.scatterAdd (F := Ideal) (φ := .f32) D x idx u (ix1 n) =
      x (ix1 n) + ∑ e : Fin E, if (idx (ix2 e (0 : Fin 1))).toInt = (n.val : ℤ) then u (ix1 e) else 0 := by
  obtain ⟨uw, iw, sd, iv, wf'⟩ := D
  simp only at h1 h2 h3 h4
  subst h1 h2 h3 h4
  exact scatterAdd_rows1_apply wf' x idx u n

end Rows1

/-! ## Row gather: operand [N, C], row numbers [E, 1], result [E, C] -/

section GatherRows
variable {α : Type}

/-- The dimension numbers of a row gather from a rank-2 operand: the result's axis 1 is the offset
    axis and reads the operand's axis 1 in full (slice sizes [1, C]); the operand's axis 0 is
    collapsed and is the one the row number addresses; the row number is the length-1 vector on the
    start indices' axis 1. -/
abbrev rowsGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, o): the operand at row idx[e, 0], read signed and clamped into
    [0, N - 1], and column o. The row read depends neither on o nor on the row length C. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (rowsGatherDims N E C wf) x idx (ix2 e o) =
      x (ix2 (⟨min (idx (ix2 e (0 : Fin 1))).toInt.toNat (N - 1), by omega⟩ : Fin N) o) := by
  unfold Host.gather
  congr 1
  funext a
  refine Fin.ext ?_
  match a with
  | ⟨0, _⟩ =>
    -- axis 0: the clamped row number; no batching coordinate; collapsed, so no offset coordinate
    show (rowsGatherDims N E C wf).start (ix2 e o) idx 0 + (rowsGatherDims N E C wf).batchCoord (ix2 e o) 0 +
      (rowsGatherDims N E C wf).offCoord (ix2 e o) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGatherDims N E C wf).startIndexMap from List.mem_singleton.mpr rfl)]
    have hsi : (rowsGatherDims N E C wf).siIdx (ix2 e o) ⟨List.idxOf (0 : Fin 2) (rowsGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: not addressed by the row number, so the slice starts at 0; the offset coordinate is o
    show (rowsGatherDims N E C wf).start (ix2 e o) idx 1 + (rowsGatherDims N E C wf).batchCoord (ix2 e o) 1 +
      (rowsGatherDims N E C wf).offCoord (ix2 e o) 1 = o.val
    rw [GatherDims.batchCoord_eq_zero _ _ _ List.not_mem_nil]
    have hs : (rowsGatherDims N E C wf).start (ix2 e o) idx 1 = 0 := by
      unfold GatherDims.start
      have h : ¬ (1 : Fin 2) ∈ (rowsGatherDims N E C wf).startIndexMap := (show (1 : Fin 2) ∉ ([0] : List (Fin 2)) by decide)
      rw [dif_neg h]
    have ho : (rowsGatherDims N E C wf).offCoord (ix2 e o) 1 = o.val := by
      unfold GatherDims.offCoord
      have h : (1 : Fin 2) ∈ (rowsGatherDims N E C wf).sKept := (show (1 : Fin 2) ∈ ([1] : List (Fin 2)) by decide)
      rw [dif_pos h]
      rfl
    rw [hs, ho]
    omega

/-- The same reading for ANY record of dimension numbers whose seven fields are those of a row
    gather (each hypothesis is closed by reflexivity on a record written out field by field). -/
theorem gather_rows_apply_of_dims {N E C w : Nat} (hN : 0 < N)
    (D : GatherDims ⟨2, ![N, C]⟩ ⟨2, ![E, 1]⟩ ⟨2, ![E, C]⟩)
    (h1 : D.offsetDims = [1]) (h2 : D.collapsedSliceDims = [0]) (h3 : D.operandBatchingDims = [])
    (h4 : D.startIndicesBatchingDims = []) (h5 : D.startIndexMap = [0]) (h6 : D.indexVectorDim = 1)
    (h7 : D.sliceSizes = ![1, C])
    (x : (⟨2, ![N, C]⟩ : Shape).Idx → α) (idx : IVec ⟨2, ![E, 1]⟩ w) (e : Fin E) (o : Fin C) :
    Host.gather D x idx (ix2 e o) =
      x (ix2 (⟨min (idx (ix2 e (0 : Fin 1))).toInt.toNat (N - 1), by omega⟩ : Fin N) o) := by
  obtain ⟨od, cd, ob, sb, sm, iv, ss, wf'⟩ := D
  simp only at h1 h2 h3 h4 h5 h6 h7
  subst h1 h2 h3 h4 h5 h6 h7
  exact gather_rows_apply hN wf' x idx e o

end GatherRows

/-! ## Positions followed by 0, 1, …, N - 1 -/

/-- A 32-bit word holding a natural number below 2 ^ 31 reads that number when read signed. -/
theorem toInt_ofNat32 (k : Nat) (hk : k < 2 ^ 31) : (BitVec.ofNat 32 k).toInt = (k : ℤ) := by
  rw [BitVec.toInt_eq_toNat_cond, BitVec.toNat_ofNat]
  have h : k % 2 ^ 32 = k := Nat.mod_eq_of_lt (by omega)
  rw [h, if_pos (by omega)]

/-- A vector of E0 positions with 0, 1, …, N - 1 appended, laid out as a column [E0 + N, 1], reads
    n at place E0 + n, as a signed integer: the appended part is every position once. -/
theorem selfloop_toInt (E0 N Et : Nat) (hEt : E0 + N = Et) (hN31 : N < 2 ^ 31) (a : IVec ⟨1, ![E0]⟩ 32)
    (hc : Shape.Concatenates [(⟨1, ![E0]⟩ : Shape), ⟨1, ![N]⟩] ⟨1, ![Et]⟩ 0)
    (hb : (⟨1, ![Et]⟩ : Shape).BroadcastsInDim ⟨2, ![Et, 1]⟩ ![0]) (n : Fin N) :
    (broadcastInDim ⟨2, ![Et, 1]⟩ ![0] hb
      (concatenate ⟨1, ![Et]⟩ 0 [⟨⟨1, ![E0]⟩, a⟩, ⟨⟨1, ![N]⟩, iotaInDim ⟨1, ![N]⟩ 32 0⟩] hc)
      (ix2 (⟨E0 + n.val, by omega⟩ : Fin Et) (0 : Fin 1))).toInt = (n.val : ℤ) := by
  have hn := n.isLt
  have e1 := broadcastInDim_apply (s := ⟨1, ![Et]⟩) (t := ⟨2, ![Et, 1]⟩) ![0] hb
    (concatenate ⟨1, ![Et]⟩ 0 [⟨⟨1, ![E0]⟩, a⟩, ⟨⟨1, ![N]⟩, iotaInDim ⟨1, ![N]⟩ 32 0⟩] hc)
    (ix2 (⟨E0 + n.val, by omega⟩ : Fin Et) (0 : Fin 1)) (ix1 (⟨E0 + n.val, by omega⟩ : Fin Et)) (fun b => by
      obtain rfl : b = 0 := Subsingleton.elim _ _
      show E0 + n.val = if Et = 1 then 0 else E0 + n.val
      split_ifs with h1
      · omega
      · rfl)
  have e2 := concatenate_pair_apply_right (t := ⟨1, ![Et]⟩) (s₁ := ⟨1, ![E0]⟩) (s₂ := ⟨1, ![N]⟩) (0 : Fin 1)
    a (iotaInDim ⟨1, ![N]⟩ 32 0) hc (ix1 (⟨E0 + n.val, by omega⟩ : Fin Et)) rfl rfl (ix1 n)
    (fun b hb' => absurd (Subsingleton.elim _ _) hb')
    (by show n.val + E0 = E0 + n.val; omega)
  rw [e1, e2, iotaInDim_apply]
  exact toInt_ofNat32 n.val (by omega)

/-! ## Counting the updates that land on a position -/

/-- The coercion from the reals to the extended reals goes through a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The number of updates whose position is n — the scatter-add of ones into zeros read at n —
    is a real number, and at least one as soon as some update's position is n. -/
theorem degree_real_pos {N E w : Nat} (idx : IVec ⟨2, ![E, 1]⟩ w) (n : Fin N)
    (hself : ∃ e : Fin E, (idx (ix2 e (0 : Fin 1))).toInt = (n.val : ℤ)) :
    ∃ r : ℝ, 1 ≤ r ∧
      (0 : EReal) + ∑ e : Fin E, (if (idx (ix2 e (0 : Fin 1))).toInt = (n.val : ℤ) then (1 : EReal) else 0) = (r : EReal) := by
  obtain ⟨e0, he0⟩ := hself
  refine ⟨∑ e : Fin E, (if (idx (ix2 e (0 : Fin 1))).toInt = (n.val : ℤ) then (1 : ℝ) else 0), ?_, ?_⟩
  · have hnn : ∀ e ∈ (Finset.univ : Finset (Fin E)),
        (0 : ℝ) ≤ (if (idx (ix2 e (0 : Fin 1))).toInt = (n.val : ℤ) then (1 : ℝ) else 0) := by
      intro e _
      split_ifs
      · exact zero_le_one
      · exact le_refl _
    have h := Finset.single_le_sum hnn (Finset.mem_univ e0)
    rw [if_pos he0] at h
    exact h
  · rw [zero_add, coe_finset_sum]
    refine Finset.sum_congr rfl fun e _ => ?_
    split_ifs
    · exact EReal.coe_one.symm
    · exact EReal.coe_zero.symm

/-- The inverse square root of a real number at least one is a real number. -/
theorem rsqrt_real_of_pos (r : ℝ) (hr : 1 ≤ r) : ∃ s : ℝ, Ideal.rsqrt (r : EReal) = (s : EReal) := by
  refine ⟨(Real.sqrt r)⁻¹, ?_⟩
  rw [Ideal.rsqrt_coe, if_neg (by linarith), if_neg (by linarith)]

end Segments

end
-- ==== Proof.LibRowLayers.lean ====
/-
  The dense layers of a two-convolution graph network, entry by entry over the extended reals.

  Every layer here maps an array of `n` rows to an array of `n` rows, and entry `(r, q)` of the result reads row `r` of
  the input only. So a layer of the whole array, restricted to a block of rows, is the same layer of that block: that is
  why a kernel that walks the rows block by block computes the whole-array layer. A bias is carried as a one-row array.
    * `affineLinear x A a B`   : `(x · A + a) · B`                              (two products, no nonlinearity between);
    * `reluLinear y b W`       : `max (y + b) 0 · W`;
    * `reluAffine y b W c`     : `max (y + b) 0 · W + c`;
    * `logSoftmaxRows z`       : `(z − max_j z) − log Σ_j exp (z − max_j z)`, the maximum and the sum along each row.
-/
import Idealize.ShloMosaic.PureOps.Ideal.Laws
import Idealize.ShloMosaic.Lib.ValueIdx

noncomputable section

open scoped BigOperators

namespace Gcn.Layers

open Idealize.ShloMosaic Idealize.ShloMosaic.ValueIdx

variable {n K H C : ℕ}

/-- `(x · A + a) · B` at entry `(r, q)`: `Σ_k (Σ_l x[r,l] · A[l,k] + a[0,k]) · B[k,q]`. -/
def affineLinear (x : (⟨2, ![n, K]⟩ : Shape).Idx → EReal) (A : (⟨2, ![K, H]⟩ : Shape).Idx → EReal)
    (a : (⟨2, ![1, H]⟩ : Shape).Idx → EReal) (B : (⟨2, ![H, C]⟩ : Shape).Idx → EReal) :
    (⟨2, ![n, C]⟩ : Shape).Idx → EReal :=
  fun i => ∑ k : Fin H, (∑ l : Fin K, x (ix2 (i 0) l) * A (ix2 l k) + a (ix2 (0 : Fin 1) k)) * B (ix2 k (i 1))

/-- `max (y + b) 0 · W` at entry `(r, q)`: `Σ_k max (y[r,k] + b[0,k]) 0 · W[k,q]`. -/
def reluLinear (y : (⟨2, ![n, H]⟩ : Shape).Idx → EReal) (b : (⟨2, ![1, H]⟩ : Shape).Idx → EReal)
    (W : (⟨2, ![H, C]⟩ : Shape).Idx → EReal) : (⟨2, ![n, C]⟩ : Shape).Idx → EReal :=
  fun i => ∑ k : Fin H, max (y (ix2 (i 0) k) + b (ix2 (0 : Fin 1) k)) 0 * W (ix2 k (i 1))

/-- `max (y + b) 0 · W + c`. -/
def reluAffine (y : (⟨2, ![n, H]⟩ : Shape).Idx → EReal) (b : (⟨2, ![1, H]⟩ : Shape).Idx → EReal)
    (W : (⟨2, ![H, C]⟩ : Shape).Idx → EReal) (c : (⟨2, ![1, C]⟩ : Shape).Idx → EReal) :
    (⟨2, ![n, C]⟩ : Shape).Idx → EReal :=
  fun i => reluLinear y b W i + c (ix2 (0 : Fin 1) (i 1))

/-- The largest entry of row `r`. -/
def rowMax (z : (⟨2, ![n, C]⟩ : Shape).Idx → EReal) (r : Fin n) : EReal :=
  (Finset.univ : Finset (Fin C)).sup fun j => z (ix2 r j)

/-- The logarithm of a row's softmax: each entry less the row's maximum, less the logarithm of the row's sum of the
    exponentials of those differences. -/
def logSoftmaxRows (z : (⟨2, ![n, C]⟩ : Shape).Idx → EReal) : (⟨2, ![n, C]⟩ : Shape).Idx → EReal :=
  fun i => (z i - rowMax z (i 0)) - Ideal.log (∑ j : Fin C, Ideal.exp (z (ix2 (i 0) j) - rowMax z (i 0)))

/-! ## A layer reads one row -/

theorem affineLinear_apply (x : (⟨2, ![n, K]⟩ : Shape).Idx → EReal) (A : (⟨2, ![K, H]⟩ : Shape).Idx → EReal)
    (a : (⟨2, ![1, H]⟩ : Shape).Idx → EReal) (B : (⟨2, ![H, C]⟩ : Shape).Idx → EReal) (r : Fin n) (q : Fin C) :
    affineLinear x A a B (ix2 r q)
      = ∑ k : Fin H, (∑ l : Fin K, x (ix2 r l) * A (ix2 l k) + a (ix2 (0 : Fin 1) k)) * B (ix2 k q) := rfl

theorem reluLinear_apply (y : (⟨2, ![n, H]⟩ : Shape).Idx → EReal) (b : (⟨2, ![1, H]⟩ : Shape).Idx → EReal)
    (W : (⟨2, ![H, C]⟩ : Shape).Idx → EReal) (r : Fin n) (q : Fin C) :
    reluLinear y b W (ix2 r q) = ∑ k : Fin H, max (y (ix2 r k) + b (ix2 (0 : Fin 1) k)) 0 * W (ix2 k q) := rfl

theorem reluAffine_apply (y : (⟨2, ![n, H]⟩ : Shape).Idx → EReal) (b : (⟨2, ![1, H]⟩ : Shape).Idx → EReal)
    (W : (⟨2, ![H, C]⟩ : Shape).Idx → EReal) (c : (⟨2, ![1, C]⟩ : Shape).Idx → EReal) (r : Fin n) (q : Fin C) :
    reluAffine y b W c (ix2 r q)
      = (∑ k : Fin H, max (y (ix2 r k) + b (ix2 (0 : Fin 1) k)) 0 * W (ix2 k q)) + c (ix2 (0 : Fin 1) q) := rfl

theorem logSoftmaxRows_apply (z : (⟨2, ![n, C]⟩ : Shape).Idx → EReal) (r : Fin n) (q : Fin C) :
    logSoftmaxRows z (ix2 r q)
      = (z (ix2 r q) - rowMax z r) - Ideal.log (∑ j : Fin C, Ideal.exp (z (ix2 r j) - rowMax z r)) := rfl

/-! ## Rows of a block are rows of the array

  If block `X` of `m` rows holds rows `o, o + 1, …` of the array `x` (`hX`), then a layer of the block at `(p, q)` is
  the layer of the array at `(o + p, q)`. -/

section Blocks

variable {m : ℕ}

theorem affineLinear_block (x : (⟨2, ![n, K]⟩ : Shape).Idx → EReal) (X : (⟨2, ![m, K]⟩ : Shape).Idx → EReal)
    (A : (⟨2, ![K, H]⟩ : Shape).Idx → EReal) (a : (⟨2, ![1, H]⟩ : Shape).Idx → EReal)
    (B : (⟨2, ![H, C]⟩ : Shape).Idx → EReal) (p : Fin m) (r : Fin n) (hX : ∀ l : Fin K, X (ix2 p l) = x (ix2 r l))
    (q : Fin C) : affineLinear X A a B (ix2 p q) = affineLinear x A a B (ix2 r q) := by
  rw [affineLinear_apply, affineLinear_apply]
  refine Finset.sum_congr rfl fun k _ => ?_
  refine congrArg (fun s => (s + a (ix2 (0 : Fin 1) k)) * B (ix2 k q)) ?_
  exact Finset.sum_congr rfl fun l _ => by rw [hX l]

theorem reluLinear_block (y : (⟨2, ![n, H]⟩ : Shape).Idx → EReal) (Y : (⟨2, ![m, H]⟩ : Shape).Idx → EReal)
    (b : (⟨2, ![1, H]⟩ : Shape).Idx → EReal) (W : (⟨2, ![H, C]⟩ : Shape).Idx → EReal) (p : Fin m) (r : Fin n)
    (hY : ∀ k : Fin H, Y (ix2 p k) = y (ix2 r k)) (q : Fin C) :
    reluLinear Y b W (ix2 p q) = reluLinear y b W (ix2 r q) := by
  rw [reluLinear_apply, reluLinear_apply]
  exact Finset.sum_congr rfl fun k _ => by rw [hY k]

theorem reluAffine_block (y : (⟨2, ![n, H]⟩ : Shape).Idx → EReal) (Y : (⟨2, ![m, H]⟩ : Shape).Idx → EReal)
    (b : (⟨2, ![1, H]⟩ : Shape).Idx → EReal) (W : (⟨2, ![H, C]⟩ : Shape).Idx → EReal)
    (c : (⟨2, ![1, C]⟩ : Shape).Idx → EReal) (p : Fin m) (r : Fin n)
    (hY : ∀ k : Fin H, Y (ix2 p k) = y (ix2 r k)) (q : Fin C) :
    reluAffine Y b W c (ix2 p q) = reluAffine y b W c (ix2 r q) :=
  congrArg (· + c (ix2 (0 : Fin 1) q)) (reluLinear_block y Y b W p r hY q)

theorem rowMax_block (z : (⟨2, ![n, C]⟩ : Shape).Idx → EReal) (Z : (⟨2, ![m, C]⟩ : Shape).Idx → EReal) (p : Fin m)
    (r : Fin n) (hZ : ∀ j : Fin C, Z (ix2 p j) = z (ix2 r j)) : rowMax Z p = rowMax z r := by
  unfold rowMax
  exact congrArg (fun f => (Finset.univ : Finset (Fin C)).sup f) (funext hZ)

theorem logSoftmaxRows_block (z : (⟨2, ![n, C]⟩ : Shape).Idx → EReal) (Z : (⟨2, ![m, C]⟩ : Shape).Idx → EReal)
    (p : Fin m) (r : Fin n) (hZ : ∀ j : Fin C, Z (ix2 p j) = z (ix2 r j)) (q : Fin C) :
    logSoftmaxRows Z (ix2 p q) = logSoftmaxRows z (ix2 r q) := by
  rw [logSoftmaxRows_apply, logSoftmaxRows_apply, rowMax_block z Z p r hZ, hZ q]
  refine congrArg (fun s => (z (ix2 r q) - rowMax z r) - Ideal.log s) ?_
  exact Finset.sum_congr rfl fun j _ => by rw [hZ j]

end Blocks

end Gcn.Layers

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«103093_j44641890074931_1_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.LibSegSup.lean ====
/-
  The supremum of an extended-real function of the natural numbers over a run of consecutive positions,
  `segSup f a n = sup { f (a + k) | k < n }` (the bottom element when the run is empty), and the one law a
  pooling argument needs of it: a run of `n + n'` positions is its first `n` positions followed by the next
  `n'`, so its supremum is the larger of the two parts' suprema. Only the order structure is used — the supremum
  of a finite family does not depend on how the family is cut or grouped, and holds at the infinities as anywhere
  else. Also: a left fold of `max` from the bottom element over a finite family is that family's supremum, and a
  supremum over `Fin n` is the supremum over the run of `n` positions.
-/
import Mathlib.Data.EReal.Basic
import Mathlib.Order.Interval.Finset.Nat

namespace SegSup

/-- The supremum of `f` over the `n` consecutive positions `a, a + 1, …, a + n - 1`. -/
noncomputable def segSup (f : ℕ → EReal) (a n : ℕ) : EReal := (Finset.range n).sup fun k => f (a + k)

theorem segSup_zero (f : ℕ → EReal) (a : ℕ) : segSup f a 0 = ⊥ := by
  unfold segSup; rw [Finset.range_zero, Finset.sup_empty]

theorem segSup_succ (f : ℕ → EReal) (a n : ℕ) : segSup f a (n + 1) = segSup f a n ⊔ f (a + n) := by
  unfold segSup; rw [Finset.range_add_one, Finset.sup_insert, sup_comm]

/-- A run of `n + n'` positions is a run of `n` followed by a run of `n'`. -/
theorem segSup_add (f : ℕ → EReal) (a n n' : ℕ) : segSup f a (n + n') = segSup f a n ⊔ segSup f (a + n) n' := by
  induction n' with
  | zero => rw [Nat.add_zero, segSup_zero, sup_bot_eq]
  | succ k ih => rw [← Nat.add_assoc, segSup_succ, ih, segSup_succ, sup_assoc, Nat.add_assoc]

/-- Two runs of equal length whose entries agree position by position have one supremum. -/
theorem segSup_congr {f g : ℕ → EReal} {a b n : ℕ} (h : ∀ k, k < n → f (a + k) = g (b + k)) : segSup f a n = segSup g b n := by
  unfold segSup; exact Finset.sup_congr rfl fun k hk => h k (Finset.mem_range.1 hk)

/-- The supremum over `Fin n` of the entries at `a + k` is the supremum over the run. -/
theorem sup_univ_fin (f : ℕ → EReal) (a n : ℕ) : (Finset.univ : Finset (Fin n)).sup (fun k => f (a + k.val)) = segSup f a n := by
  unfold segSup
  apply le_antisymm
  · exact Finset.sup_le fun k _ => Finset.le_sup (f := fun k => f (a + k)) (Finset.mem_range.2 k.isLt)
  · exact Finset.sup_le fun k hk =>
      Finset.le_sup (f := fun k : Fin n => f (a + k.val)) (Finset.mem_univ (⟨k, Finset.mem_range.1 hk⟩ : Fin n))

/-- Folding `max` from the bottom element over a finite family gives its supremum. -/
theorem fold_max_bot {ι : Type*} (s : Finset ι) (g : ι → EReal) : s.fold max ⊥ g = s.sup g := rfl

end SegSup
-- ==== Proof.LibHostMax.lean ====
/-
  A host reduction with a maximum body, started from the bottom element (the pattern of −∞), read at an index over the
  extended reals: reducing the LAST axis of an [n, w] array gives at row `r` the supremum of that row's `w` entries, and
  reducing the last axis of an [n, q, w] array gives at (r, i) the supremum of the `w` entries of group `i` of row `r`. The
  reduction is a fold of `max` over the reduced axis's coordinates in some order; a fold of `max` from the bottom element
  over a finite family is the family's supremum, whatever the order. The same for a lane reduction of an [n, w] vector
  (`multiReduction_rows`), and a vector cast to one column read back (`shapeCast_col_apply`). Also: two arrays of `q` columns and of one column set
  side by side, read at column `j`, give the first array's column `j` when `j < q` and the second's only column otherwise.
-/
import Idealize.ShloMosaic.Lib.ValueIdx
import Idealize.ShloMosaic.Lib.Pipeline.Value
import Idealize.ShloMosaic.PureOps.Ideal.Laws
import proofs.«103093_j44641890074931_1_alg».proof.Proof.LibSegSup

noncomputable section

namespace HostMax

open Idealize.ShloMosaic Idealize.ShloMosaic.ValueIdx SegSup

/-- The pattern of −∞ denotes the bottom element of the extended reals. -/
theorem ofBits_neg_inf : Ideal.ofBits .f32 0xFF800000#32 = (⊥ : EReal) := by
  simp [Ideal.ofBits, Ideal.ieee]

/-- Row `r` of an [n, w] array with coordinate `k` put back on the reduced (last) axis is (r, k). -/
theorem lift_rows {n w : ℕ} (h : (⟨2, ![n, w]⟩ : Shape).Reduces [1] (⟨1, ![n]⟩ : Shape)) (r : Fin n)
    (k : Fin ((⟨2, ![n, w]⟩ : Shape).size 1)) : h.lift (ix1 r) k = ix2 r (⟨k.val, k.isLt⟩ : Fin w) := by
  funext c; apply Fin.ext
  fin_cases c <;> rfl

/-- Group (r, i) of an [n, q, w] array with coordinate `k` put back on the reduced (last) axis is (r, i, k). -/
theorem lift_groups {n q w : ℕ} (h : (⟨3, ![n, q, w]⟩ : Shape).Reduces [2] (⟨2, ![n, q]⟩ : Shape)) (r : Fin n) (i : Fin q)
    (k : Fin ((⟨3, ![n, q, w]⟩ : Shape).size 2)) : h.lift (ix2 r i) k = ix3 r i (⟨k.val, k.isLt⟩ : Fin w) := by
  funext c; apply Fin.ext
  fin_cases c <;> rfl

/-- From −∞ the host's maximum over the last axis of an [n, w] array, at row `r`, is the supremum of the row. -/
theorem reduce_rows {n w : ℕ} (v : FVec Ideal ⟨2, ![n, w]⟩ .f32) (init : (⟨0, ![]⟩ : Shape).Idx → Ideal .f32)
    (hinit : ∀ i, init i = (⊥ : EReal))
    (h' : (⟨2, ![n, w]⟩ : Shape).ReducesTo [1] (⟨1, ![n]⟩ : Shape)) (h : (⟨2, ![n, w]⟩ : Shape).Reduces [1] (⟨1, ![n]⟩ : Shape))
    (hu : 0 < (⟨0, ![]⟩ : Shape).numel) (r : Fin n) :
    Host.reduce FloatOps.maximumf v init h' hu (ix1 r) = (Finset.univ : Finset (Fin w)).sup fun k => v (ix2 r k) := by
  rw [Host.reduce_eq_fold_single FloatOps.maximumf v init h' h hu, hinit]
  have hf : (v ∘ h.lift (ix1 r)) = fun k : Fin w => v (ix2 r k) := funext fun k => congrArg v (lift_rows h r k)
  exact congrArg (fun f => Finset.fold max (⊥ : EReal) f (Finset.univ : Finset (Fin w))) hf

/-- From −∞ the host's maximum over the last axis of an [n, q, w] array, at (r, i), is the supremum of that group. -/
theorem reduce_groups {n q w : ℕ} (v : FVec Ideal ⟨3, ![n, q, w]⟩ .f32) (init : (⟨0, ![]⟩ : Shape).Idx → Ideal .f32)
    (hinit : ∀ i, init i = (⊥ : EReal))
    (h' : (⟨3, ![n, q, w]⟩ : Shape).ReducesTo [2] (⟨2, ![n, q]⟩ : Shape))
    (h : (⟨3, ![n, q, w]⟩ : Shape).Reduces [2] (⟨2, ![n, q]⟩ : Shape))
    (hu : 0 < (⟨0, ![]⟩ : Shape).numel) (r : Fin n) (i : Fin q) :
    Host.reduce FloatOps.maximumf v init h' hu (ix2 r i) = (Finset.univ : Finset (Fin w)).sup fun k => v (ix3 r i k) := by
  rw [Host.reduce_eq_fold_single FloatOps.maximumf v init h' h hu, hinit]
  have hf : (v ∘ h.lift (ix2 r i)) = fun k : Fin w => v (ix3 r i k) := funext fun k => congrArg v (lift_groups h r i k)
  exact congrArg (fun f => Finset.fold max (⊥ : EReal) f (Finset.univ : Finset (Fin w))) hf

/-- From −∞ a lane reduction with a maximum body over the last axis of an [n, w] vector, at row `r`, is the supremum of
    the row: the kernel-side reading of the same fold. -/
theorem multiReduction_rows {n w : ℕ} (P : FVec Ideal ⟨2, ![n, w]⟩ .f32)
    (h : (⟨2, ![n, w]⟩ : Shape).Reduces [1] (⟨1, ![n]⟩ : Shape)) (hφ : FKind.Formats .f32)
    (hacc : (0xFF800000#32 : BitVec FTy.f32.bits) = FKind.maximumf.neutral .f32 hφ) (r : Fin n) :
    multiReduction (F := Ideal) .maximumf [1] (⟨1, ![n]⟩ : Shape) P 0xFF800000#32 h hφ hacc (ix1 r)
      = (Finset.univ : Finset (Fin w)).sup fun k => P (ix2 r k) := by
  refine (Ideal.multiReduction_maximumf_single (φ := .f32) P 0xFF800000#32 h hφ hacc (ix1 r)).trans ?_
  have hf : (P ∘ h.lift (ix1 r)) = fun k : Fin w => P (ix2 r k) := funext fun k => congrArg P (lift_rows h r k)
  have hb : FloatOps.ofBits (F := Ideal) .f32 0xFF800000#32 = (⊥ : EReal) := ofBits_neg_inf
  rw [hb]
  exact congrArg (fun f => Finset.fold max (⊥ : EReal) f (Finset.univ : Finset (Fin w))) hf

/-- A vector of `n` entries cast to one column, read at (r, 0), is entry `r`. -/
theorem shapeCast_col_apply {α : Type} {n : ℕ} (v : (⟨1, ![n]⟩ : Shape).Idx → α)
    (h : (⟨1, ![n]⟩ : Shape).ShapeCasts (⟨2, ![n, 1]⟩ : Shape)) (y : (⟨2, ![n, 1]⟩ : Shape).Idx) (r : Fin n)
    (hy : (y 0).val = r.val) : shapeCast (⟨2, ![n, 1]⟩ : Shape) v h y = v (ix1 r) := by
  refine shapeCast_apply v h y (ix1 r) ?_
  rw [Shape.rowMajor_val_one, Shape.rowMajor_val_two]
  have h1 : (y 1).val < 1 := (y 1).isLt
  show r.val = (y 0).val * 1 + (y 1).val
  omega

/-- An array of `q` columns and an array of one column set side by side: column `j` of the join is the first array's
    column `j` when `j < q`, and otherwise (`j = q`) the second array's only column. -/
theorem join_cols {α : Type} {n q : ℕ} (A : (⟨2, ![n, q]⟩ : Shape).Idx → α) (B : (⟨2, ![n, 1]⟩ : Shape).Idx → α)
    (h : Shape.Concatenates [(⟨2, ![n, q]⟩ : Shape), (⟨2, ![n, 1]⟩ : Shape)] (⟨2, ![n, q + 1]⟩ : Shape) (1 : Fin 2))
    (r : Fin n) (j : Fin (q + 1)) :
    concatenate (⟨2, ![n, q + 1]⟩ : Shape) (1 : Fin 2) [⟨(⟨2, ![n, q]⟩ : Shape), A⟩, ⟨(⟨2, ![n, 1]⟩ : Shape), B⟩] h (ix2 r j)
      = if hj : j.val < q then A (ix2 r ⟨j.val, hj⟩) else B (ix2 r (0 : Fin 1)) := by
  split
  · rename_i hj
    exact concatenate_pair_apply_left (1 : Fin 2) A B h (ix2 r j) rfl (ix2 r ⟨j.val, hj⟩) (fun b => by fin_cases b <;> rfl)
  · rename_i hj
    refine concatenate_pair_apply_right (1 : Fin 2) A B h (ix2 r j) rfl rfl (ix2 r (0 : Fin 1)) (fun b hb => ?_) ?_
    · fin_cases b
      · rfl
      · exact absurd rfl hb
    · show 0 + q = j.val
      have := j.isLt; omega

end HostMax

end
-- ==== Proof.LibLaneRows.lean ====
/-
  Two readings of an [n, w] vector over the extended reals, row by row.

  A lane reduction with an addition body over the last axis, from the neutral accumulator, holds at row `r` the plain sum of that
  row's `w` entries: the reduction sums the entries whose index drops to `r`, and those are exactly (r, 0), …, (r, w − 1).
  A one-column array [n, 1] broadcast to [n, w] holds at (r, t) the column's entry of row `r`, whatever `t`.
-/
import Idealize.ShloMosaic.Lib.ValueIdx
import Idealize.ShloMosaic.Lib.Pipeline.Value
import Idealize.ShloMosaic.PureOps.Ideal.Laws
import proofs.«103093_j44641890074931_1_alg».proof.Proof.LibHostMax

noncomputable section

open scoped BigOperators

namespace LaneRows

open Idealize.ShloMosaic Idealize.ShloMosaic.ValueIdx

/-- From the neutral accumulator, a lane sum over the last axis of an [n, w] vector, at row `r`, is the sum of the row. -/
theorem multiReduction_add_rows {n w : ℕ} (P : FVec Ideal ⟨2, ![n, w]⟩ .f32) (acc : BitVec FTy.f32.bits)
    (h : (⟨2, ![n, w]⟩ : Shape).Reduces [1] (⟨1, ![n]⟩ : Shape)) (hφ : FKind.Formats .f32)
    (hacc : acc = FKind.add.neutral .f32 hφ) (r : Fin n) :
    multiReduction (F := Ideal) .add [1] (⟨1, ![n]⟩ : Shape) P acc h hφ hacc (ix1 r) = ∑ k : Fin w, P (ix2 r k) := by
  refine (Ideal.multiReduction_add_single (φ := .f32) P acc h hφ hacc (ix1 r)).trans ?_
  have hf : (P ∘ h.lift (ix1 r)) = fun k : Fin w => P (ix2 r k) :=
    funext fun k => congrArg P (HostMax.lift_rows h r k)
  exact congrArg (fun f => ∑ k : Fin w, f k) hf

/-- One column broadcast across `w` columns: entry (r, t) is the column's entry of row `r`. -/
theorem broadcastTo_col_apply {α : Type} {n w : ℕ} (v : (⟨2, ![n, 1]⟩ : Shape).Idx → α)
    (h : (⟨2, ![n, 1]⟩ : Shape).Broadcasts ⟨2, ![n, w]⟩) (r : Fin n) (t : Fin w) :
    broadcastTo ⟨2, ![n, w]⟩ v h (ix2 r t) = v (ix2 r (0 : Fin 1)) := by
  refine broadcastTo_apply v h (ix2 r t) (ix2 r (0 : Fin 1)) fun ax => ?_
  match ax with
  | ⟨0, _⟩ =>
    show r.val = if n = 1 then 0 else r.val
    split
    · have := r.isLt; omega
    · rfl
  | ⟨1, _⟩ =>
    show (0 : ℕ) = if (1 : ℕ) = 1 then 0 else t.val
    rw [if_pos rfl]

end LaneRows

end
-- ==== Proof.LibRowLayerOps.lean ====
/-
  Each dense layer of the network (LibRowLayers.lean) as the two programs spell it, for any number of rows.

  A kernel body spells a layer with vector operations on a block — `tpu.matmul` into the zero accumulator, a one-row bias
  broadcast over the rows, a maximum with the splat of the float zero, lane reductions that keep their axis —, rounding to a
  narrower float format on the way into each product; the host spells it with `dot_general`, `broadcast_in_dim`, `reduce`.
  Over the extended reals a change of float format is the identity, a product into the zero accumulator is the plain sum of
  products, and both spellings of a layer are the entry-by-entry function of LibRowLayers.lean. Nothing here needs the entries to
  be finite: no term is moved across a sum.
-/
import proofs.«103093_j44641890074931_1_alg».proof.Proof.LibRowLayers
import proofs.«103093_j44641890074931_1_alg».proof.Proof.LibDotCols
import proofs.«103093_j44641890074931_1_alg».proof.Proof.LibDotColsHost
import proofs.«103093_j44641890074931_1_alg».proof.Proof.LibHostMax
import proofs.«103093_j44641890074931_1_alg».proof.Proof.LibLaneRows
import Idealize.ShloMosaic.Lib.ValueLayout
import Idealize.ShloMosaic.Lib.Pipeline.Value

noncomputable section

open scoped BigOperators

namespace Gcn.LayerOps

open Idealize.ShloMosaic Idealize.ShloMosaic.ValueIdx Gcn.Layers Cert.Lib.DotCols Cert.Lib.DotColsHost

variable {n K H C : ℕ}

/-! ## Small readings -/

/-- The float zero word denotes zero. -/
theorem ofBits_zero : FloatOps.ofBits (F := Ideal) .f32 0x00000000#32 = (0 : EReal) := Ideal.ofBits_zero_f32

/-- The word of −∞ denotes the bottom element. -/
theorem ofBits_neg_inf : FloatOps.ofBits (F := Ideal) .f32 0xFF800000#32 = (⊥ : EReal) := HostMax.ofBits_neg_inf

/-- A vector of `H` entries as a one-row array. -/
def row (a : (⟨1, ![H]⟩ : Shape).Idx → EReal) : (⟨2, ![1, H]⟩ : Shape).Idx → EReal := fun i => a (ix1 (i 1))

/-- Reshaping a vector to one row is `row`. -/
theorem shapeCast_row (a : (⟨1, ![H]⟩ : Shape).Idx → EReal) (h : (⟨1, ![H]⟩ : Shape).ShapeCasts ⟨2, ![1, H]⟩) :
    shapeCast ⟨2, ![1, H]⟩ a h = row a := by
  funext i
  obtain ⟨u, k, rfl⟩ : ∃ (u : Fin 1) (k : Fin H), i = ix2 u k := ⟨i 0, i 1, eq_ix2 i⟩
  exact shapeCast_a_1a_apply a h u k

/-- The host's bias: a vector set as one row (`dims = [1]`), the row repeated over `n` rows (`dims = [0, 1]`); at
    `(p, k)` it is the vector's entry `k`. -/
theorem bias_rows_apply (a : (⟨1, ![H]⟩ : Shape).Idx → EReal)
    (h1 : (⟨1, ![H]⟩ : Shape).BroadcastsInDim ⟨2, ![1, H]⟩ ![1])
    (h2 : (⟨2, ![1, H]⟩ : Shape).BroadcastsInDim ⟨2, ![n, H]⟩ ![0, 1]) (p : Fin n) (k : Fin H) :
    broadcastInDim ⟨2, ![n, H]⟩ ![0, 1] h2 (broadcastInDim ⟨2, ![1, H]⟩ ![1] h1 a) (ix2 p k) = row a (ix2 (0 : Fin 1) k) := by
  refine (broadcastInDim_apply _ h2 _ (ix2 p k) (ix2 (0 : Fin 1) k) fun ax => ?_).trans ?_
  · match ax with
    | ⟨0, _⟩ => show (0 : ℕ) = if (1 : ℕ) = 1 then 0 else p.val; rw [if_pos rfl]
    | ⟨1, _⟩ =>
      show k.val = if H = 1 then 0 else k.val
      split
      · have := k.isLt; omega
      · rfl
  · refine broadcastInDim_apply _ h1 a (ix2 (0 : Fin 1) k) (ix1 k) fun ax => ?_
    match ax with
    | ⟨0, _⟩ =>
      show k.val = if H = 1 then 0 else k.val
      split
      · have := k.isLt; omega
      · rfl

/-- The host's splat of the float zero over an array. -/
theorem zeros_apply (s : Shape) (h : (⟨0, ![]⟩ : Shape).BroadcastsInDim s ![]) (i : s.Idx) :
    broadcastInDim s ![] h (constant (F := Ideal) ⟨0, ![]⟩ .f32 0x00000000#32) i = (0 : EReal) :=
  (broadcastInDim_apply _ h _ i ix0 fun ax => ax.elim0).trans ofBits_zero

/-! ## `(x · A + a) · B` -/

/-- The kernel's spelling on a block: round, product, bias row over the rows, round, product, round. -/
theorem kernel_affineLinear (D1 : DotDims ⟨2, ![n, K]⟩ ⟨2, ![K, H]⟩ ⟨2, ![n, H]⟩) (hD1 : D1 = DotDims.plain n K H)
    (D2 : DotDims ⟨2, ![n, H]⟩ ⟨2, ![H, C]⟩ ⟨2, ![n, C]⟩) (hD2 : D2 = DotDims.plain n H C)
    (hlt : FTy.bits .bf16 < FTy.bits .f32) (hb : (⟨2, ![1, H]⟩ : Shape).Broadcasts ⟨2, ![n, H]⟩)
    (x : FVec Ideal ⟨2, ![n, K]⟩ .f32) (A : FVec Ideal ⟨2, ![K, H]⟩ .bf16) (a : FVec Ideal ⟨2, ![1, H]⟩ .f32)
    (B : FVec Ideal ⟨2, ![H, C]⟩ .bf16) :
    truncf .bf16 (matmul D2 none
        (truncf .bf16 (addf (matmul D1 none (truncf .bf16 x hlt) A (constant ⟨2, ![n, H]⟩ .f32 0x00000000#32))
          (broadcastTo ⟨2, ![n, H]⟩ a hb)) hlt)
        B (constant ⟨2, ![n, C]⟩ .f32 0x00000000#32)) hlt
      = affineLinear x A a B := by
  funext j
  obtain ⟨p, q, rfl⟩ : ∃ (p : Fin n) (q : Fin C), j = ix2 p q := ⟨j 0, j 1, eq_ix2 j⟩
  rw [affineLinear_apply]
  refine (matmul_cols_apply D2 hD2 none _ B p q).trans ?_
  refine Finset.sum_congr rfl fun k _ => congrArg (· * B (ix2 k q)) ?_
  exact congrArg₂ (· + ·) (matmul_cols_apply D1 hD1 none _ A p k) (broadcastTo_1b_ab_apply a hb p k)

/-- The host's spelling on the whole array: product, bias, product. -/
theorem host_affineLinear (D1 : DotDims ⟨2, ![n, K]⟩ ⟨2, ![K, H]⟩ ⟨2, ![n, H]⟩) (hD1 : D1 = DotDims.plain n K H)
    (D2 : DotDims ⟨2, ![n, H]⟩ ⟨2, ![H, C]⟩ ⟨2, ![n, C]⟩) (hD2 : D2 = DotDims.plain n H C)
    (h1 : (⟨1, ![H]⟩ : Shape).BroadcastsInDim ⟨2, ![1, H]⟩ ![1])
    (h2 : (⟨2, ![1, H]⟩ : Shape).BroadcastsInDim ⟨2, ![n, H]⟩ ![0, 1])
    (x : FVec Ideal ⟨2, ![n, K]⟩ .f32) (A : FVec Ideal ⟨2, ![K, H]⟩ .f32) (a : FVec Ideal ⟨1, ![H]⟩ .f32)
    (B : FVec Ideal ⟨2, ![H, C]⟩ .f32) :
    Host.dotGeneral D2 none
        (addf (Host.dotGeneral D1 none x A)
          (broadcastInDim ⟨2, ![n, H]⟩ ![0, 1] h2 (broadcastInDim ⟨2, ![1, H]⟩ ![1] h1 a))) B
      = affineLinear x A (row a) B := by
  funext j
  obtain ⟨p, q, rfl⟩ : ∃ (p : Fin n) (q : Fin C), j = ix2 p q := ⟨j 0, j 1, eq_ix2 j⟩
  rw [affineLinear_apply]
  refine (dotGeneral_cols_apply D2 hD2 none .single _ B p q).trans ?_
  refine Finset.sum_congr rfl fun k _ => congrArg (· * B (ix2 k q)) ?_
  exact congrArg₂ (· + ·) (dotGeneral_cols_apply D1 hD1 none .single x A p k) (bias_rows_apply a h1 h2 p k)

/-! ## `max (y + b) 0 · W` and `max (y + b) 0 · W + c` -/

/-- The kernel's spelling on a block: bias row, maximum with the splat of the float zero, round, product, round. -/
theorem kernel_reluLinear (D : DotDims ⟨2, ![n, H]⟩ ⟨2, ![H, C]⟩ ⟨2, ![n, C]⟩) (hD : D = DotDims.plain n H C)
    (hlt : FTy.bits .bf16 < FTy.bits .f32) (hb : (⟨2, ![1, H]⟩ : Shape).Broadcasts ⟨2, ![n, H]⟩)
    (y : FVec Ideal ⟨2, ![n, H]⟩ .f32) (b : FVec Ideal ⟨2, ![1, H]⟩ .f32) (W : FVec Ideal ⟨2, ![H, C]⟩ .bf16) :
    truncf .bf16 (matmul D none
        (truncf .bf16 (maximumf (addf y (broadcastTo ⟨2, ![n, H]⟩ b hb))
          (broadcast ⟨2, ![n, H]⟩ (FloatOps.ofBits (F := Ideal) .f32 0x00000000#32))) hlt)
        W (constant ⟨2, ![n, C]⟩ .f32 0x00000000#32)) hlt
      = reluLinear y b W := by
  funext j
  obtain ⟨p, q, rfl⟩ : ∃ (p : Fin n) (q : Fin C), j = ix2 p q := ⟨j 0, j 1, eq_ix2 j⟩
  rw [reluLinear_apply]
  refine (matmul_cols_apply D hD none _ W p q).trans ?_
  refine Finset.sum_congr rfl fun k _ => congrArg (· * W (ix2 k q)) ?_
  show max (y (ix2 p k) + broadcastTo ⟨2, ![n, H]⟩ b hb (ix2 p k)) (FloatOps.ofBits (F := Ideal) .f32 0x00000000#32) = _
  rw [broadcastTo_1b_ab_apply b hb p k, ofBits_zero]

/-- The kernel's spelling with the output bias: the same, then the output's bias row over the rows. -/
theorem kernel_reluAffine (D : DotDims ⟨2, ![n, H]⟩ ⟨2, ![H, C]⟩ ⟨2, ![n, C]⟩) (hD : D = DotDims.plain n H C)
    (hlt : FTy.bits .bf16 < FTy.bits .f32) (hb : (⟨2, ![1, H]⟩ : Shape).Broadcasts ⟨2, ![n, H]⟩)
    (hc : (⟨2, ![1, C]⟩ : Shape).Broadcasts ⟨2, ![n, C]⟩)
    (y : FVec Ideal ⟨2, ![n, H]⟩ .f32) (b : FVec Ideal ⟨2, ![1, H]⟩ .f32) (W : FVec Ideal ⟨2, ![H, C]⟩ .bf16)
    (c : FVec Ideal ⟨2, ![1, C]⟩ .f32) :
    addf (matmul D none
        (truncf .bf16 (maximumf (addf y (broadcastTo ⟨2, ![n, H]⟩ b hb))
          (broadcast ⟨2, ![n, H]⟩ (FloatOps.ofBits (F := Ideal) .f32 0x00000000#32))) hlt)
        W (constant ⟨2, ![n, C]⟩ .f32 0x00000000#32)) (broadcastTo ⟨2, ![n, C]⟩ c hc)
      = reluAffine y b W c := by
  funext j
  obtain ⟨p, q, rfl⟩ : ∃ (p : Fin n) (q : Fin C), j = ix2 p q := ⟨j 0, j 1, eq_ix2 j⟩
  rw [reluAffine_apply]
  refine congrArg₂ (· + ·) ?_ (broadcastTo_1b_ab_apply c hc p q)
  exact congrFun (kernel_reluLinear D hD hlt hb y b W) (ix2 p q)

/-- The host's spelling: bias, maximum with a splat of the float zero, product. -/
theorem host_reluLinear (D : DotDims ⟨2, ![n, H]⟩ ⟨2, ![H, C]⟩ ⟨2, ![n, C]⟩) (hD : D = DotDims.plain n H C)
    (h1 : (⟨1, ![H]⟩ : Shape).BroadcastsInDim ⟨2, ![1, H]⟩ ![1])
    (h2 : (⟨2, ![1, H]⟩ : Shape).BroadcastsInDim ⟨2, ![n, H]⟩ ![0, 1])
    (h0 : (⟨0, ![]⟩ : Shape).BroadcastsInDim ⟨2, ![n, H]⟩ ![])
    (y : FVec Ideal ⟨2, ![n, H]⟩ .f32) (b : FVec Ideal ⟨1, ![H]⟩ .f32) (W : FVec Ideal ⟨2, ![H, C]⟩ .f32) :
    Host.dotGeneral D none
        (maximumf (addf y (broadcastInDim ⟨2, ![n, H]⟩ ![0, 1] h2 (broadcastInDim ⟨2, ![1, H]⟩ ![1] h1 b)))
          (broadcastInDim ⟨2, ![n, H]⟩ ![] h0 (constant (F := Ideal) ⟨0, ![]⟩ .f32 0x00000000#32))) W
      = reluLinear y (row b) W := by
  funext j
  obtain ⟨p, q, rfl⟩ : ∃ (p : Fin n) (q : Fin C), j = ix2 p q := ⟨j 0, j 1, eq_ix2 j⟩
  rw [reluLinear_apply]
  refine (dotGeneral_cols_apply D hD none .single _ W p q).trans ?_
  refine Finset.sum_congr rfl fun k _ => congrArg (· * W (ix2 k q)) ?_
  show max (y (ix2 p k) + broadcastInDim ⟨2, ![n, H]⟩ ![0, 1] h2 (broadcastInDim ⟨2, ![1, H]⟩ ![1] h1 b) (ix2 p k))
      (broadcastInDim ⟨2, ![n, H]⟩ ![] h0 (constant (F := Ideal) ⟨0, ![]⟩ .f32 0x00000000#32) (ix2 p k)) = _
  rw [bias_rows_apply b h1 h2 p k, zeros_apply]

/-- The host's spelling with the output bias. -/
theorem host_reluAffine (D : DotDims ⟨2, ![n, H]⟩ ⟨2, ![H, C]⟩ ⟨2, ![n, C]⟩) (hD : D = DotDims.plain n H C)
    (h1 : (⟨1, ![H]⟩ : Shape).BroadcastsInDim ⟨2, ![1, H]⟩ ![1])
    (h2 : (⟨2, ![1, H]⟩ : Shape).BroadcastsInDim ⟨2, ![n, H]⟩ ![0, 1])
    (h0 : (⟨0, ![]⟩ : Shape).BroadcastsInDim ⟨2, ![n, H]⟩ ![])
    (g1 : (⟨1, ![C]⟩ : Shape).BroadcastsInDim ⟨2, ![1, C]⟩ ![1])
    (g2 : (⟨2, ![1, C]⟩ : Shape).BroadcastsInDim ⟨2, ![n, C]⟩ ![0, 1])
    (y : FVec Ideal ⟨2, ![n, H]⟩ .f32) (b : FVec Ideal ⟨1, ![H]⟩ .f32) (W : FVec Ideal ⟨2, ![H, C]⟩ .f32)
    (c : FVec Ideal ⟨1, ![C]⟩ .f32) :
    addf (Host.dotGeneral D none
        (maximumf (addf y (broadcastInDim ⟨2, ![n, H]⟩ ![0, 1] h2 (broadcastInDim ⟨2, ![1, H]⟩ ![1] h1 b)))
          (broadcastInDim ⟨2, ![n, H]⟩ ![] h0 (constant (F := Ideal) ⟨0, ![]⟩ .f32 0x00000000#32))) W)
        (broadcastInDim ⟨2, ![n, C]⟩ ![0, 1] g2 (broadcastInDim ⟨2, ![1, C]⟩ ![1] g1 c))
      = reluAffine y (row b) W (row c) := by
  funext j
  obtain ⟨p, q, rfl⟩ : ∃ (p : Fin n) (q : Fin C), j = ix2 p q := ⟨j 0, j 1, eq_ix2 j⟩
  rw [reluAffine_apply]
  refine congrArg₂ (· + ·) ?_ (bias_rows_apply c g1 g2 p q)
  exact congrFun (host_reluLinear D hD h1 h2 h0 y b W) (ix2 p q)

end Gcn.LayerOps

end
-- ==== Proof.LibLogSoftmaxRows.lean ====
/-
  The logarithm of a row softmax as the two programs spell it, for any number of rows and columns.

  Both take each row's maximum from −∞ (the kernel by a lane reduction that keeps its axis as one column, the host by a
  `reduce` followed by a maximum with a splat of −∞, which changes nothing), subtract it, exponentiate, sum along the row
  from zero, take the logarithm and subtract it. A fold of `max` from the bottom element over a row is the row's supremum,
  in any order; a sum from zero is the row's sum. So both are `Layers.logSoftmaxRows`.
-/
import proofs.«103093_j44641890074931_1_alg».proof.Proof.LibRowLayerOps

noncomputable section

open scoped BigOperators

namespace Gcn.SoftmaxOps

open Idealize.ShloMosaic Idealize.ShloMosaic.ValueIdx Gcn.Layers Gcn.LayerOps

variable {n C : ℕ}

/-- Whatever spells them: if `M` holds each row's maximum on every column and `T` the logarithm of the row's sum of
    `exp (z − M)`, then `(z − M) − T` is the logarithm of the row softmax. -/
theorem logSoftmax_of_parts (z M T : (⟨2, ![n, C]⟩ : Shape).Idx → EReal)
    (hM : ∀ (p : Fin n) (q : Fin C), M (ix2 p q) = rowMax z p)
    (hT : ∀ (p : Fin n) (q : Fin C), T (ix2 p q) = Ideal.log (∑ j : Fin C, Ideal.exp (z (ix2 p j) - M (ix2 p j)))) :
    subf (F := Ideal) (φ := .f32) (subf (F := Ideal) (φ := .f32) z M) T = logSoftmaxRows z := by
  funext j
  obtain ⟨p, q, rfl⟩ : ∃ (p : Fin n) (q : Fin C), j = ix2 p q := ⟨j 0, j 1, eq_ix2 j⟩
  rw [logSoftmaxRows_apply]
  show (z (ix2 p q) - M (ix2 p q)) - T (ix2 p q) = _
  rw [hM p q, hT p q]
  refine congrArg (fun s => (z (ix2 p q) - rowMax z p) - Ideal.log s) (Finset.sum_congr rfl fun j _ => ?_)
  rw [hM p j]

/-! ## The kernel's spelling -/

/-- A vector of per-row values kept as one column and spread over the columns: entry `(p, q)` is row `p`'s value. -/
theorem column_spread_apply (v : (⟨1, ![n]⟩ : Shape).Idx → EReal) (hsc : (⟨1, ![n]⟩ : Shape).ShapeCasts ⟨2, ![n, 1]⟩)
    (hbc : (⟨2, ![n, 1]⟩ : Shape).Broadcasts ⟨2, ![n, C]⟩) (p : Fin n) (q : Fin C) :
    broadcastTo ⟨2, ![n, C]⟩ (shapeCast ⟨2, ![n, 1]⟩ v hsc) hbc (ix2 p q) = v (ix1 p) :=
  (LaneRows.broadcastTo_col_apply _ hbc p q).trans (HostMax.shapeCast_col_apply v hsc (ix2 p (0 : Fin 1)) p rfl)

/-- The kernel's logarithm of a row softmax on a block. -/
theorem kernel_logSoftmaxRows (hr : (⟨2, ![n, C]⟩ : Shape).Reduces [1] ⟨1, ![n]⟩) (hφ : FKind.Formats .f32)
    (hmax : (0xFF800000#32 : BitVec FTy.f32.bits) = FKind.maximumf.neutral .f32 hφ)
    (hadd : (0x00000000#32 : BitVec FTy.f32.bits) = FKind.add.neutral .f32 hφ)
    (hsc : (⟨1, ![n]⟩ : Shape).ShapeCasts ⟨2, ![n, 1]⟩) (hbc : (⟨2, ![n, 1]⟩ : Shape).Broadcasts ⟨2, ![n, C]⟩)
    (z : FVec Ideal ⟨2, ![n, C]⟩ .f32) :
    subf (subf z (broadcastTo ⟨2, ![n, C]⟩
        (shapeCast ⟨2, ![n, 1]⟩ (multiReduction .maximumf [1] ⟨1, ![n]⟩ z 0xFF800000#32 hr hφ hmax) hsc) hbc))
      (broadcastTo ⟨2, ![n, C]⟩ (log (shapeCast ⟨2, ![n, 1]⟩ (multiReduction .add [1] ⟨1, ![n]⟩
        (exp (subf z (broadcastTo ⟨2, ![n, C]⟩
          (shapeCast ⟨2, ![n, 1]⟩ (multiReduction .maximumf [1] ⟨1, ![n]⟩ z 0xFF800000#32 hr hφ hmax) hsc) hbc)))
        0x00000000#32 hr hφ hadd) hsc)) hbc)
      = logSoftmaxRows z := by
  refine logSoftmax_of_parts z _ _ (fun p q => ?_) (fun p q => ?_)
  · exact (column_spread_apply _ hsc hbc p q).trans (HostMax.multiReduction_rows z hr hφ hmax p)
  · refine (LaneRows.broadcastTo_col_apply _ hbc p q).trans ?_
    show Ideal.log (shapeCast ⟨2, ![n, 1]⟩ _ hsc (ix2 p (0 : Fin 1))) = _
    rw [HostMax.shapeCast_col_apply _ hsc (ix2 p (0 : Fin 1)) p rfl, LaneRows.multiReduction_add_rows _ _ hr hφ hadd p]
    rfl

/-! ## The host's spelling -/

/-- A vector of per-row values set as one column (`dims = [0]`) and repeated over the columns (`dims = [0, 1]`). -/
theorem column_bcast_apply (v : (⟨1, ![n]⟩ : Shape).Idx → EReal)
    (b1 : (⟨1, ![n]⟩ : Shape).BroadcastsInDim ⟨2, ![n, 1]⟩ ![0])
    (b2 : (⟨2, ![n, 1]⟩ : Shape).BroadcastsInDim ⟨2, ![n, C]⟩ ![0, 1]) (p : Fin n) (q : Fin C) :
    broadcastInDim ⟨2, ![n, C]⟩ ![0, 1] b2 (broadcastInDim ⟨2, ![n, 1]⟩ ![0] b1 v) (ix2 p q) = v (ix1 p) := by
  refine (broadcastInDim_apply _ b2 _ (ix2 p q) (ix2 p (0 : Fin 1)) fun ax => ?_).trans ?_
  · match ax with
    | ⟨0, _⟩ =>
      show p.val = if n = 1 then 0 else p.val
      split
      · have := p.isLt; omega
      · rfl
    | ⟨1, _⟩ => show (0 : ℕ) = if (1 : ℕ) = 1 then 0 else q.val; rw [if_pos rfl]
  · refine broadcastInDim_apply _ b1 v (ix2 p (0 : Fin 1)) (ix1 p) fun ax => ?_
    match ax with
    | ⟨0, _⟩ =>
      show p.val = if n = 1 then 0 else p.val
      split
      · have := p.isLt; omega
      · rfl

/-- The host's sum along each row, from zero. -/
theorem host_rowSum (x : FVec Ideal ⟨2, ![n, C]⟩ .f32) (hred : (⟨2, ![n, C]⟩ : Shape).ReducesTo [1] ⟨1, ![n]⟩)
    (hr : (⟨2, ![n, C]⟩ : Shape).Reduces [1] ⟨1, ![n]⟩) (hu : 0 < (⟨0, ![]⟩ : Shape).numel) (p : Fin n) :
    Host.reduceAdd x (constant (F := Ideal) ⟨0, ![]⟩ .f32 0x00000000#32) hred hu (ix1 p) = ∑ k : Fin C, x (ix2 p k) := by
  refine (Ideal.hostReduceAdd_single hred hr x _ (ix1 p)).trans ?_
  have hf : (x ∘ hr.lift (ix1 p)) = fun k : Fin C => x (ix2 p k) :=
    funext fun k => congrArg x (HostMax.lift_rows hr p k)
  rw [show constant (F := Ideal) ⟨0, ![]⟩ .f32 0x00000000#32 (Shape.Idx.first hu) = (0 : EReal) from ofBits_zero, zero_add]
  exact congrArg (fun f => ∑ k : Fin C, f k) hf

/-- The host's maximum along each row, from −∞, then once more against a splat of −∞: the row's supremum. -/
theorem host_rowMax (z : FVec Ideal ⟨2, ![n, C]⟩ .f32) (hred : (⟨2, ![n, C]⟩ : Shape).ReducesTo [1] ⟨1, ![n]⟩)
    (hr : (⟨2, ![n, C]⟩ : Shape).Reduces [1] ⟨1, ![n]⟩) (hu : 0 < (⟨0, ![]⟩ : Shape).numel)
    (b0 : (⟨0, ![]⟩ : Shape).BroadcastsInDim ⟨1, ![n]⟩ ![]) (p : Fin n) :
    maximumf (broadcastInDim ⟨1, ![n]⟩ ![] b0 (constant (F := Ideal) ⟨0, ![]⟩ .f32 0xFF800000#32))
        (Host.reduce FloatOps.maximumf z (constant (F := Ideal) ⟨0, ![]⟩ .f32 0xFF800000#32) hred hu) (ix1 p)
      = rowMax z p := by
  show max (broadcastInDim ⟨1, ![n]⟩ ![] b0 (constant (F := Ideal) ⟨0, ![]⟩ .f32 0xFF800000#32) (ix1 p))
      (Host.reduce FloatOps.maximumf z (constant (F := Ideal) ⟨0, ![]⟩ .f32 0xFF800000#32) hred hu (ix1 p)) = _
  rw [HostMax.reduce_rows z (constant (F := Ideal) ⟨0, ![]⟩ .f32 0xFF800000#32) (fun _ => ofBits_neg_inf) hred hr hu p,
    (broadcastInDim_apply _ b0 _ (ix1 p) ix0 fun ax => ax.elim0).trans ofBits_neg_inf]
  exact max_eq_right bot_le

/-- The host's logarithm of a row softmax on the whole array. -/
theorem host_logSoftmaxRows (hred : (⟨2, ![n, C]⟩ : Shape).ReducesTo [1] ⟨1, ![n]⟩)
    (hr : (⟨2, ![n, C]⟩ : Shape).Reduces [1] ⟨1, ![n]⟩) (hu : 0 < (⟨0, ![]⟩ : Shape).numel)
    (b0 : (⟨0, ![]⟩ : Shape).BroadcastsInDim ⟨1, ![n]⟩ ![])
    (b1 : (⟨1, ![n]⟩ : Shape).BroadcastsInDim ⟨2, ![n, 1]⟩ ![0])
    (b2 : (⟨2, ![n, 1]⟩ : Shape).BroadcastsInDim ⟨2, ![n, C]⟩ ![0, 1])
    (z : FVec Ideal ⟨2, ![n, C]⟩ .f32) :
    subf (subf z (broadcastInDim ⟨2, ![n, C]⟩ ![0, 1] b2 (broadcastInDim ⟨2, ![n, 1]⟩ ![0] b1
        (maximumf (broadcastInDim ⟨1, ![n]⟩ ![] b0 (constant (F := Ideal) ⟨0, ![]⟩ .f32 0xFF800000#32))
          (Host.reduce FloatOps.maximumf z (constant (F := Ideal) ⟨0, ![]⟩ .f32 0xFF800000#32) hred hu)))))
      (broadcastInDim ⟨2, ![n, C]⟩ ![0, 1] b2 (Host.log (broadcastInDim ⟨2, ![n, 1]⟩ ![0] b1
        (Host.reduceAdd (Host.exp (subf z (broadcastInDim ⟨2, ![n, C]⟩ ![0, 1] b2 (broadcastInDim ⟨2, ![n, 1]⟩ ![0] b1
          (maximumf (broadcastInDim ⟨1, ![n]⟩ ![] b0 (constant (F := Ideal) ⟨0, ![]⟩ .f32 0xFF800000#32))
            (Host.reduce FloatOps.maximumf z (constant (F := Ideal) ⟨0, ![]⟩ .f32 0xFF800000#32) hred hu))))))
          (constant (F := Ideal) ⟨0, ![]⟩ .f32 0x00000000#32) hred hu))))
      = logSoftmaxRows z := by
  refine logSoftmax_of_parts z _ _ (fun p q => ?_) (fun p q => ?_)
  · exact (column_bcast_apply _ b1 b2 p q).trans (host_rowMax z hred hr hu b0 p)
  · refine (broadcastInDim_apply _ b2 _ (ix2 p q) (ix2 p (0 : Fin 1)) fun ax => ?_).trans ?_
    · match ax with
      | ⟨0, _⟩ =>
        show p.val = if n = 1 then 0 else p.val
        split
        · have := p.isLt; omega
        · rfl
      | ⟨1, _⟩ => show (0 : ℕ) = if (1 : ℕ) = 1 then 0 else q.val; rw [if_pos rfl]
    · show Ideal.log (broadcastInDim (s := ⟨1, ![n]⟩) ⟨2, ![n, 1]⟩ ![0] b1 _ (ix2 p (0 : Fin 1))) = _
      rw [broadcastInDim_apply _ b1 _ (ix2 p (0 : Fin 1)) (ix1 p) (fun ax => by
        match ax with
        | ⟨0, _⟩ =>
          show p.val = if n = 1 then 0 else p.val
          split
          · have := p.isLt; omega
          · rfl), host_rowSum _ hred hr hu p]
      rfl

end Gcn.SoftmaxOps

end
-- ==== Proof.GcnArr.lean ====
/-
  The neighbour aggregation of a graph layer, as both programs spell it, and its reading at one entry.

  For a feature array `h : N × C`, edge weights `nm : E`, self weights `sn : N` and two columns of node numbers
  `rowc, colc : E × 1`, the programs compute
      scatter-add into zeros, at row colc[e], of  nm[e] · h[rowc[e], ·]      plus      sn[n] · h[n, ·].
  A gather clamps its row number into [0, N − 1]; a scatter drops an update whose row number is outside [0, N).
  So entry (n, o) of the aggregate is
      Σ_e [colc e = n] · nm e · h (clamp (rowc e), o)  +  sn n · h (n, o),
  for any number of columns C: the edges that land on n and the rows they read do not depend on C.
-/
import proofs.«103093_j44641890074931_1_alg».proof.Proof.LibScatterRows
import proofs.«103093_j44641890074931_1_alg».proof.Proof.LibSegments
import proofs.«103093_j44641890074931_1_alg».proof.Proof.LibLogSoftmaxRows

noncomputable section

open scoped BigOperators

namespace Gcn.Arr

open Idealize.ShloMosaic Idealize.ShloMosaic.ValueIdx

variable {N E C : ℕ}

/-- The node an edge reads: its row number read signed, clamped into [0, N − 1]. -/
def srcOf (hN : 0 < N) (rowc : IVec ⟨2, ![E, 1]⟩ 32) (e : Fin E) : Fin N :=
  ⟨min (rowc (ix2 e (0 : Fin 1))).toInt.toNat (N - 1), by omega⟩

/-- Edge `e` lands on node `n`: its column number, read signed, is `n`. -/
def hitOf (colc : IVec ⟨2, ![E, 1]⟩ 32) (e : Fin E) (n : Fin N) : Prop :=
  (colc (ix2 e (0 : Fin 1))).toInt = (n.val : ℤ)

instance (colc : IVec ⟨2, ![E, 1]⟩ 32) (e : Fin E) (n : Fin N) : Decidable (hitOf colc e n) :=
  inferInstanceAs (Decidable ((colc (ix2 e (0 : Fin 1))).toInt = (n.val : ℤ)))

/-- The aggregate as the programs spell it: the weighted gathered rows scatter-added into zeros, plus the weighted
    self rows. -/
def aggArr (Dg : GatherDims ⟨2, ![N, C]⟩ ⟨2, ![E, 1]⟩ ⟨2, ![E, C]⟩) (Ds : ScatterDims ⟨2, ![N, C]⟩ ⟨2, ![E, 1]⟩ ⟨2, ![E, C]⟩)
    (bz : (⟨0, ![]⟩ : Shape).BroadcastsInDim ⟨2, ![N, C]⟩ ![])
    (be1 : (⟨1, ![E]⟩ : Shape).BroadcastsInDim ⟨2, ![E, 1]⟩ ![0])
    (be2 : (⟨2, ![E, 1]⟩ : Shape).BroadcastsInDim ⟨2, ![E, C]⟩ ![0, 1])
    (bn1 : (⟨1, ![N]⟩ : Shape).BroadcastsInDim ⟨2, ![N, 1]⟩ ![0])
    (bn2 : (⟨2, ![N, 1]⟩ : Shape).BroadcastsInDim ⟨2, ![N, C]⟩ ![0, 1])
    (rowc colc : IVec ⟨2, ![E, 1]⟩ 32) (nm : FVec Ideal ⟨1, ![E]⟩ .f32) (sn : FVec Ideal ⟨1, ![N]⟩ .f32)
    (h : FVec Ideal ⟨2, ![N, C]⟩ .f32) : FVec Ideal ⟨2, ![N, C]⟩ .f32 :=
  addf (Host.scatterAdd (F := Ideal) (φ := .f32) Ds
      (broadcastInDim ⟨2, ![N, C]⟩ ![] bz (constant (F := Ideal) ⟨0, ![]⟩ .f32 0x00000000#32)) colc
      (mulf (broadcastInDim ⟨2, ![E, C]⟩ ![0, 1] be2 (broadcastInDim ⟨2, ![E, 1]⟩ ![0] be1 nm)) (Host.gather Dg h rowc)))
    (mulf (broadcastInDim ⟨2, ![N, C]⟩ ![0, 1] bn2 (broadcastInDim ⟨2, ![N, 1]⟩ ![0] bn1 sn)) h)

/-- Entry (n, o) of the aggregate: the weighted rows of the edges landing on n, plus the weighted self row. -/
theorem aggArr_apply (hN : 0 < N)
    (Dg : GatherDims ⟨2, ![N, C]⟩ ⟨2, ![E, 1]⟩ ⟨2, ![E, C]⟩)
    (hg1 : Dg.offsetDims = [1]) (hg2 : Dg.collapsedSliceDims = [0]) (hg3 : Dg.operandBatchingDims = [])
    (hg4 : Dg.startIndicesBatchingDims = []) (hg5 : Dg.startIndexMap = [0]) (hg6 : Dg.indexVectorDim = 1)
    (hg7 : Dg.sliceSizes = ![1, C])
    (Ds : ScatterDims ⟨2, ![N, C]⟩ ⟨2, ![E, 1]⟩ ⟨2, ![E, C]⟩)
    (hs1 : Ds.updateWindowDims = [1]) (hs2 : Ds.insertedWindowDims = [0]) (hs3 : Ds.scatterDimsToOperandDims = [0])
    (hs4 : Ds.indexVectorDim = 1)
    (bz : (⟨0, ![]⟩ : Shape).BroadcastsInDim ⟨2, ![N, C]⟩ ![])
    (be1 : (⟨1, ![E]⟩ : Shape).BroadcastsInDim ⟨2, ![E, 1]⟩ ![0])
    (be2 : (⟨2, ![E, 1]⟩ : Shape).BroadcastsInDim ⟨2, ![E, C]⟩ ![0, 1])
    (bn1 : (⟨1, ![N]⟩ : Shape).BroadcastsInDim ⟨2, ![N, 1]⟩ ![0])
    (bn2 : (⟨2, ![N, 1]⟩ : Shape).BroadcastsInDim ⟨2, ![N, C]⟩ ![0, 1])
    (rowc colc : IVec ⟨2, ![E, 1]⟩ 32) (nm : FVec Ideal ⟨1, ![E]⟩ .f32) (sn : FVec Ideal ⟨1, ![N]⟩ .f32)
    (h : FVec Ideal ⟨2, ![N, C]⟩ .f32) (n : Fin N) (o : Fin C) :
    aggArr Dg Ds bz be1 be2 bn1 bn2 rowc colc nm sn h (ix2 n o)
      = (∑ e : Fin E, if hitOf colc e n then nm (ix1 e) * h (ix2 (srcOf hN rowc e) o) else 0)
        + sn (ix1 n) * h (ix2 n o) := by
  unfold aggArr
  rw [addf_apply, ScatterRows.scatterAdd_rows2_apply_of_dims Ds hs1 hs2 hs3 hs4, Gcn.LayerOps.zeros_apply, zero_add,
    mulf_apply, Gcn.SoftmaxOps.column_bcast_apply]
  congr 1
  refine Finset.sum_congr rfl fun e _ => ?_
  rw [mulf_apply, Gcn.SoftmaxOps.column_bcast_apply,
    Segments.gather_rows_apply_of_dims hN Dg hg1 hg2 hg3 hg4 hg5 hg6 hg7]
  rfl

end Gcn.Arr

end
-- ==== Proof.KHost.lean ====
/-
  What the host stretches of the idealized kernel leave in the buffers the three regions are entered with.

  Before the first region the host computes, from the edge list, the two columns of wrapped node numbers, the degree
  of every node (one plus the number of edges landing on it), its inverse square root, the edge weights (the product of
  the inverse square roots at an edge's two ends) and the self weights (its square); these are computed ONCE and read
  again by the two later stretches. Each stretch then forms the aggregate of the current features — the input
  array, then the previous region's output — which is the array the next region stages row block by row block, and
  casts the layer's bias vector to one row.
-/
import proofs.«103093_j44641890074931_1_alg».proof.Proof.Gen.KernelIdeal.Frame
import proofs.«103093_j44641890074931_1_alg».proof.Proof.GcnArr
import Idealize.ShloMosaic.Lib.StableHlo.Run

set_option maxRecDepth 16384

noncomputable section

namespace Cert.KernelIdeal.HostValue

open Cert.KernelIdeal Cert.KernelIdeal.Gen Cert.KernelIdeal.Facts
open Idealize.ShloMosaic Idealize.ShloMosaic.TcCoe Idealize.SL.Sem Idealize.ShloMosaic.StableHlo

/-! ## The edge arrays, as functions of the edge list -/

/-- The source node numbers: row 0 of the edge list. -/
def rowK (ei : IVec S2x800000 32) : IVec S800000 32 :=
  shapeCast S800000 (extractStridedSlice S1x800000 ![0, 0] ei slices_S2x800000_S1x800000_0_0) shapeCasts_S1x800000_S800000

/-- The target node numbers: row 1 of the edge list. -/
def colK (ei : IVec S2x800000 32) : IVec S800000 32 :=
  shapeCast S800000 (extractStridedSlice S1x800000 ![1, 0] ei slices_S2x800000_S1x800000_1_0) shapeCasts_S1x800000_S800000

/-- Node numbers with the negative ones moved up by the number of nodes, set as one column. -/
def wrapCol (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- One over the square root of a node's degree (one plus the number of edges landing on it). -/
def dinvK (ei : IVec S2x800000 32) : FVec Ideal S50000 .f32 :=
  Host.divf (broadcastInDim S50000 ![] bcast_S_S50000 (constant S_ .f32 0x3F800000#32))
    (Host.sqrt (addf
      (Host.scatterAdd scatter_S50000_S800000x1_S800000_n_0_0_1
        (broadcastInDim S50000 ![] bcast_S_S50000 (constant S_ .f32 0x00000000#32)) (wrapCol (colK ei))
        (broadcastInDim S800000 ![] bcast_S_S800000 (constant S_ .f32 0x3F800000#32)))
      (broadcastInDim S50000 ![] bcast_S_S50000 (constant S_ .f32 0x3F800000#32))))

/-- An edge's weight: the product of the inverse square roots of the degrees at its two ends. -/
def normK (ei : IVec S2x800000 32) : FVec Ideal S800000 .f32 :=
  mulf (Host.gather gather_S50000_S800000x1_S800000_n_0_n_n_0_1_1 (dinvK ei) (wrapCol (rowK ei)))
    (Host.gather gather_S50000_S800000x1_S800000_n_0_n_n_0_1_1 (dinvK ei) (wrapCol (colK ei)))

/-- A node's self weight: one over its degree. -/
def selfK (ei : IVec S2x800000 32) : FVec Ideal S50000 .f32 := mulf (dinvK ei) (dinvK ei)

/-- The aggregate of a feature array of 128 columns, with the kernel's own records. -/
abbrev aggK (rowc colc : IVec S800000x1 32) (nm : FVec Ideal S800000 .f32) (sn : FVec Ideal S50000 .f32)
    (h : FVec Ideal S50000x128 .f32) : FVec Ideal S50000x128 .f32 :=
  Gcn.Arr.aggArr gather_S50000x128_S800000x1_S800000x128_1_0_n_n_0_1_1128 scatter_S50000x128_S800000x1_S800000x128_1_0_0_1
    bcast_S_S50000x128 bcast_S800000_S800000x1_0 bcast_S800000x1_S800000x128_0_1 bcast_S50000_S50000x1_0
    bcast_S50000x1_S50000x128_0_1 rowc colc nm sn h

/-- The aggregate with this run's edge arrays. -/
abbrev aggOf (ei : IVec S2x800000 32) (h : FVec Ideal S50000x128 .f32) : FVec Ideal S50000x128 .f32 :=
  aggK (wrapCol (rowK ei)) (wrapCol (colK ei)) (normK ei) (selfK ei) h

variable (m : (ℓ : Loc nD τ sig) → Buf (Elt Ideal) ℓ) (ρ : Dev nD → PrngReg) (c : Dev nD)

/-! ## After the first stretch -/

theorem W1_v1 : W1 m ρ c (Proc.devRef .tc main_v1) = rowK (m ((c : Thread nD τ).loc main_arg1)) := by
  show StableHlo.after hostOps0 (W0 m ρ c) (Proc.devRef .tc main_v1) = _
  after_results_simp
  rfl

theorem W1_v3 : W1 m ρ c (Proc.devRef .tc main_v3) = colK (m ((c : Thread nD τ).loc main_arg1)) := by
  show StableHlo.after hostOps0 (W0 m ρ c) (Proc.devRef .tc main_v3) = _
  after_results_simp
  rfl

set_option maxHeartbeats 4000000 in
theorem W1_v32 : W1 m ρ c (Proc.devRef .tc main_v32) = normK (m ((c : Thread nD τ).loc main_arg1)) := by
  show StableHlo.after hostOps0 (W0 m ρ c) (Proc.devRef .tc main_v32) = _
  after_results_simp
  rfl

set_option maxHeartbeats 4000000 in
theorem W1_v33 : W1 m ρ c (Proc.devRef .tc main_v33) = selfK (m ((c : Thread nD τ).loc main_arg1)) := by
  show StableHlo.after hostOps0 (W0 m ρ c) (Proc.devRef .tc main_v33) = _
  after_results_simp
  rfl

set_option maxHeartbeats 16000000 in
/-- The first region stages the aggregate of the input features. -/
theorem V1_v55 : V1 m ρ c main_v55 = aggOf (m ((c : Thread nD τ).loc main_arg1)) (m ((c : Thread nD τ).loc main_arg0)) := by
  show StableHlo.after hostOps0 (W0 m ρ c) (Proc.devRef .tc main_v55) = _
  after_results_simp
  rfl

theorem V1_arg2 : V1 m ρ c main_arg2 = m ((c : Thread nD τ).loc main_arg2) := by
  show StableHlo.after hostOps0 (W0 m ρ c) (Proc.devRef .tc main_arg2) = _
  after_results_simp

theorem V1_v56 : V1 m ρ c main_v56 = shapeCast S1x128 (m ((c : Thread nD τ).loc main_arg3)) shapeCasts_S128_S1x128 := by
  show StableHlo.after hostOps0 (W0 m ρ c) (Proc.devRef .tc main_v56) = _
  after_results_simp
  rfl

end Cert.KernelIdeal.HostValue

end
-- ==== Proof.LibDenseLayer.lean ====
/-
  One dense layer, entry by entry.

  For `X : n × K`, `W : K × N` and a bias row `B : 1 × N` the layer's entry `(r, q)` is `∑ k, X[r, k] · W[k, q] + B[0, q]`
  (`affine`), and after the rectifier `max (…) 0` (`affineRelu`). Over the extended reals a change of float format is the
  identity, so three spellings of the layer are this one function:
    • a kernel body's block: the operands rounded to bf16, multiplied into the zero accumulator, the bias row broadcast over the
      rows and added, the maximum with a broadcast zero (`block_affine_eq`, `block_affineRelu_eq`);
    • the host's: `dot_general`, the bias vector broadcast to a row and then over the rows, added, the maximum with a broadcast
      zero (`host_affine_eq`, `host_affineRelu_eq`) — the bias row there is the bias vector cast to `1 × N`;
    • and an entry of the layer depends on ONE row of `X` only (`affine_entry`, `affineRelu_entry`), which is what lets a grid of
      row blocks compute the layer of the whole array.
-/
import proofs.«103093_j44641890074931_1_alg».proof.Proof.LibDotColsHost
import Idealize.ShloMosaic.Lib.Pipeline.Value
import Idealize.ShloMosaic.Lib.ValueLayout

noncomputable section

open scoped BigOperators

namespace Cert.Lib.DenseLayer

open Idealize.ShloMosaic Idealize.ShloMosaic.ValueIdx Cert.Lib.DotCols Cert.Lib.DotColsHost

variable {n M K N : Nat}

/-- Entry `(r, q)` of `X · W` plus the bias row's entry `q`. -/
def affine (X : FVec Ideal ⟨2, ![n, K]⟩ .f32) (W : FVec Ideal ⟨2, ![K, N]⟩ .f32) (B : FVec Ideal ⟨2, ![1, N]⟩ .f32) :
    FVec Ideal ⟨2, ![n, N]⟩ .f32 :=
  fun i => (∑ k : Fin K, X (ix2 (n0 := n) (n1 := K) (i 0) k) * W (ix2 (n0 := K) (n1 := N) k (i 1)))
    + B (ix2 (n0 := 1) (n1 := N) (0 : Fin 1) (i 1))

/-- The same, rectified: the maximum with the float zero. -/
def affineRelu (X : FVec Ideal ⟨2, ![n, K]⟩ .f32) (W : FVec Ideal ⟨2, ![K, N]⟩ .f32) (B : FVec Ideal ⟨2, ![1, N]⟩ .f32) :
    FVec Ideal ⟨2, ![n, N]⟩ .f32 :=
  fun i => max (affine X W B i) (Ideal.ofBits .f32 0x00000000#32)

theorem affine_apply (X : FVec Ideal ⟨2, ![n, K]⟩ .f32) (W : FVec Ideal ⟨2, ![K, N]⟩ .f32) (B : FVec Ideal ⟨2, ![1, N]⟩ .f32)
    (r : Fin n) (q : Fin N) :
    affine X W B (ix2 r q) = (∑ k : Fin K, X (ix2 r k) * W (ix2 k q)) + B (ix2 (0 : Fin 1) q) := rfl

theorem affineRelu_apply (X : FVec Ideal ⟨2, ![n, K]⟩ .f32) (W : FVec Ideal ⟨2, ![K, N]⟩ .f32) (B : FVec Ideal ⟨2, ![1, N]⟩ .f32)
    (r : Fin n) (q : Fin N) :
    affineRelu X W B (ix2 r q)
      = max ((∑ k : Fin K, X (ix2 r k) * W (ix2 k q)) + B (ix2 (0 : Fin 1) q)) (Ideal.ofBits .f32 0x00000000#32) := rfl

/-! ## An entry reads one row of the left operand, one column of the right and one entry of the bias -/

/-- If row `p` of `x` is row `r` of `X`, and column `q` of the weights and entry `q` of the bias row agree, the layer of `x` at
    `(p, q)` is the layer of `X` at `(r, q)`. -/
theorem affine_entry (X : FVec Ideal ⟨2, ![n, K]⟩ .f32) (x : FVec Ideal ⟨2, ![M, K]⟩ .f32) (W W' : FVec Ideal ⟨2, ![K, N]⟩ .f32)
    (B B' : FVec Ideal ⟨2, ![1, N]⟩ .f32) (p : Fin M) (r : Fin n) (q : Fin N)
    (hrow : ∀ k : Fin K, x (ix2 p k) = X (ix2 r k)) (hcol : ∀ k : Fin K, W' (ix2 k q) = W (ix2 k q))
    (hbias : B' (ix2 (0 : Fin 1) q) = B (ix2 (0 : Fin 1) q)) :
    affine x W' B' (ix2 p q) = affine X W B (ix2 r q) := by
  rw [affine_apply, affine_apply, hbias]
  exact congrArg (· + B (ix2 (0 : Fin 1) q)) (Finset.sum_congr rfl fun k _ => by rw [hrow k, hcol k])

theorem affineRelu_entry (X : FVec Ideal ⟨2, ![n, K]⟩ .f32) (x : FVec Ideal ⟨2, ![M, K]⟩ .f32) (W W' : FVec Ideal ⟨2, ![K, N]⟩ .f32)
    (B B' : FVec Ideal ⟨2, ![1, N]⟩ .f32) (p : Fin M) (r : Fin n) (q : Fin N)
    (hrow : ∀ k : Fin K, x (ix2 p k) = X (ix2 r k)) (hcol : ∀ k : Fin K, W' (ix2 k q) = W (ix2 k q))
    (hbias : B' (ix2 (0 : Fin 1) q) = B (ix2 (0 : Fin 1) q)) :
    affineRelu x W' B' (ix2 p q) = affineRelu X W B (ix2 r q) :=
  congrArg (fun v => max v (Ideal.ofBits .f32 0x00000000#32)) (affine_entry X x W W' B B' p r q hrow hcol hbias)

/-! ## A kernel body's block -/

/-- The body's sum: both operands rounded to bf16 (the identity here), multiplied into the zero accumulator, plus the bias row
    broadcast over the rows. -/
theorem block_affine_eq (D : DotDims ⟨2, ![M, K]⟩ ⟨2, ![K, N]⟩ ⟨2, ![M, N]⟩) (hD : D = DotDims.plain M K N)
    (h0 : (⟨2, ![M, K]⟩ : Shape).ShapeCasts ⟨2, ![M, K]⟩) (h2 : (⟨2, ![1, N]⟩ : Shape).ShapeCasts ⟨2, ![1, N]⟩)
    (hb : (⟨2, ![1, N]⟩ : Shape).Broadcasts ⟨2, ![M, N]⟩) (hbits : FTy.bits .bf16 < FTy.bits .f32)
    (x0 : FVec Ideal ⟨2, ![M, K]⟩ .f32) (x1 : FVec Ideal ⟨2, ![K, N]⟩ .f32) (x2 : FVec Ideal ⟨2, ![1, N]⟩ .f32) :
    addf (matmul D none (truncf .bf16 (shapeCast ⟨2, ![M, K]⟩ x0 h0) hbits) (truncf .bf16 x1 hbits)
        (constant ⟨2, ![M, N]⟩ .f32 0x00000000#32))
      (broadcastTo ⟨2, ![M, N]⟩ (shapeCast ⟨2, ![1, N]⟩ x2 h2) hb) = affine x0 x1 x2 := by
  funext i
  obtain ⟨p, q, rfl⟩ : ∃ (p : Fin M) (q : Fin N), i = ix2 p q := ⟨i 0, i 1, eq_ix2 i⟩
  rw [affine_apply, addf_apply, shapeCast_self, shapeCast_self, broadcastTo_1b_ab_apply]
  refine congrArg (· + x2 (ix2 (0 : Fin 1) q)) ?_
  exact (matmul_cols_apply D hD none (truncf .bf16 x0 hbits) (truncf .bf16 x1 hbits) p q).trans
    (Finset.sum_congr rfl fun k _ => rfl)

/-- … and its maximum with a broadcast zero. -/
theorem block_affineRelu_eq (D : DotDims ⟨2, ![M, K]⟩ ⟨2, ![K, N]⟩ ⟨2, ![M, N]⟩) (hD : D = DotDims.plain M K N)
    (h0 : (⟨2, ![M, K]⟩ : Shape).ShapeCasts ⟨2, ![M, K]⟩) (h2 : (⟨2, ![1, N]⟩ : Shape).ShapeCasts ⟨2, ![1, N]⟩)
    (hb : (⟨2, ![1, N]⟩ : Shape).Broadcasts ⟨2, ![M, N]⟩) (hbits : FTy.bits .bf16 < FTy.bits .f32)
    (x0 : FVec Ideal ⟨2, ![M, K]⟩ .f32) (x1 : FVec Ideal ⟨2, ![K, N]⟩ .f32) (x2 : FVec Ideal ⟨2, ![1, N]⟩ .f32) :
    maximumf (addf (matmul D none (truncf .bf16 (shapeCast ⟨2, ![M, K]⟩ x0 h0) hbits) (truncf .bf16 x1 hbits)
          (constant ⟨2, ![M, N]⟩ .f32 0x00000000#32))
        (broadcastTo ⟨2, ![M, N]⟩ (shapeCast ⟨2, ![1, N]⟩ x2 h2) hb))
      (broadcast ⟨2, ![M, N]⟩ (Scalar.ofBits (F := Ideal) .f32 0x00000000#32)) = affineRelu x0 x1 x2 := by
  rw [block_affine_eq D hD h0 h2 hb hbits]
  rfl

/-! ## The host's layer -/

/-- A bias vector broadcast to a row and then over the rows reads, at `(r, q)`, its entry `q`. -/
theorem bias_rows_apply (hb1 : (⟨1, ![N]⟩ : Shape).BroadcastsInDim ⟨2, ![1, N]⟩ ![1])
    (hb2 : (⟨2, ![1, N]⟩ : Shape).BroadcastsInDim ⟨2, ![n, N]⟩ ![0, 1]) (b : FVec Ideal ⟨1, ![N]⟩ .f32) (r : Fin n) (q : Fin N) :
    broadcastInDim ⟨2, ![n, N]⟩ ![0, 1] hb2 (broadcastInDim ⟨2, ![1, N]⟩ ![1] hb1 b) (ix2 r q) = b (ix1 q) := by
  rw [broadcastInDim_apply ![0, 1] hb2 _ (ix2 r q) (ix2 (0 : Fin 1) q) (fun a => by
      match a with
      | ⟨0, _⟩ => exact (if_pos rfl).symm
      | ⟨1, _⟩ =>
        show q.val = if N = 1 then 0 else q.val
        split
        · have := q.isLt; omega
        · rfl),
    broadcastInDim_apply ![1] hb1 b (ix2 (0 : Fin 1) q) (ix1 q) (fun a => by
      match a with
      | ⟨0, _⟩ =>
        show q.val = if N = 1 then 0 else q.val
        split
        · have := q.isLt; omega
        · rfl)]

/-- The bias vector cast to a row reads the same entry. -/
theorem bias_cast_apply (hsc : (⟨1, ![N]⟩ : Shape).ShapeCasts ⟨2, ![1, N]⟩) (b : FVec Ideal ⟨1, ![N]⟩ .f32) (q : Fin N) :
    shapeCast ⟨2, ![1, N]⟩ b hsc (ix2 (0 : Fin 1) q) = b (ix1 q) :=
  shapeCast_a_1a_apply b hsc 0 q

/-- The host's product plus the broadcast bias is the layer at the bias cast to a row. -/
theorem host_affine_eq (D : DotDims ⟨2, ![n, K]⟩ ⟨2, ![K, N]⟩ ⟨2, ![n, N]⟩) (hD : D = DotDims.plain n K N)
    (hb1 : (⟨1, ![N]⟩ : Shape).BroadcastsInDim ⟨2, ![1, N]⟩ ![1])
    (hb2 : (⟨2, ![1, N]⟩ : Shape).BroadcastsInDim ⟨2, ![n, N]⟩ ![0, 1])
    (hsc : (⟨1, ![N]⟩ : Shape).ShapeCasts ⟨2, ![1, N]⟩)
    (X : FVec Ideal ⟨2, ![n, K]⟩ .f32) (W : FVec Ideal ⟨2, ![K, N]⟩ .f32) (b : FVec Ideal ⟨1, ![N]⟩ .f32) :
    addf (Host.dotGeneral D none X W) (broadcastInDim ⟨2, ![n, N]⟩ ![0, 1] hb2 (broadcastInDim ⟨2, ![1, N]⟩ ![1] hb1 b))
      = affine X W (shapeCast ⟨2, ![1, N]⟩ b hsc) := by
  funext i
  obtain ⟨r, q, rfl⟩ : ∃ (r : Fin n) (q : Fin N), i = ix2 r q := ⟨i 0, i 1, eq_ix2 i⟩
  rw [affine_apply, addf_apply, bias_rows_apply hb1 hb2 b r q, bias_cast_apply hsc b q]
  exact congrArg (· + b (ix1 q)) (dotGeneral_cols_apply D hD none .single X W r q)

/-- … and its maximum with a broadcast zero the rectified layer. -/
theorem host_affineRelu_eq (D : DotDims ⟨2, ![n, K]⟩ ⟨2, ![K, N]⟩ ⟨2, ![n, N]⟩) (hD : D = DotDims.plain n K N)
    (hb1 : (⟨1, ![N]⟩ : Shape).BroadcastsInDim ⟨2, ![1, N]⟩ ![1])
    (hb2 : (⟨2, ![1, N]⟩ : Shape).BroadcastsInDim ⟨2, ![n, N]⟩ ![0, 1])
    (hb0 : (⟨0, ![]⟩ : Shape).BroadcastsInDim ⟨2, ![n, N]⟩ ![])
    (hsc : (⟨1, ![N]⟩ : Shape).ShapeCasts ⟨2, ![1, N]⟩)
    (X : FVec Ideal ⟨2, ![n, K]⟩ .f32) (W : FVec Ideal ⟨2, ![K, N]⟩ .f32) (b : FVec Ideal ⟨1, ![N]⟩ .f32) :
    maximumf (addf (Host.dotGeneral D none X W) (broadcastInDim ⟨2, ![n, N]⟩ ![0, 1] hb2 (broadcastInDim ⟨2, ![1, N]⟩ ![1] hb1 b)))
        (broadcastInDim ⟨2, ![n, N]⟩ ![] hb0 (constant (F := Ideal) ⟨0, ![]⟩ .f32 0x00000000#32))
      = affineRelu X W (shapeCast ⟨2, ![1, N]⟩ b hsc) := by
  rw [host_affine_eq D hD hb1 hb2 hsc]
  funext i
  rw [maximumf_apply, broadcastInDim_apply ![] hb0 _ i ix0 (fun a => a.elim0)]
  rfl

/-- The rectifier applied twice is the rectifier: `max (max v 0) 0 = max v 0`. -/
theorem relu_relu (Y : FVec Ideal ⟨2, ![n, N]⟩ .f32) (hb0 : (⟨0, ![]⟩ : Shape).BroadcastsInDim ⟨2, ![n, N]⟩ ![]) :
    maximumf (maximumf Y (broadcastInDim ⟨2, ![n, N]⟩ ![] hb0 (constant (F := Ideal) ⟨0, ![]⟩ .f32 0x00000000#32)))
        (broadcastInDim ⟨2, ![n, N]⟩ ![] hb0 (constant (F := Ideal) ⟨0, ![]⟩ .f32 0x00000000#32))
      = maximumf Y (broadcastInDim ⟨2, ![n, N]⟩ ![] hb0 (constant (F := Ideal) ⟨0, ![]⟩ .f32 0x00000000#32)) := by
  funext i
  rw [maximumf_apply, maximumf_apply]
  exact max_eq_left (le_max_right _ _)

end Cert.Lib.DenseLayer

end
-- ==== Proof.KNet.lean ====
/-
  The kernel's network as one function of the argument arrays.

  Each layer aggregates the current features over the graph, multiplies by the layer's weight matrix, adds the bias
  row and rectifies; the last layer takes the logarithm of the row softmax instead of the rectifier.
-/
import proofs.«103093_j44641890074931_1_alg».proof.Proof.KHost
import proofs.«103093_j44641890074931_1_alg».proof.Proof.LibDenseLayer
import proofs.«103093_j44641890074931_1_alg».proof.Proof.LibLogSoftmaxRows

noncomputable section

namespace Cert.KernelIdeal.KValue

open Cert.KernelIdeal Cert.KernelIdeal.Gen Cert.KernelIdeal.HostValue Cert.Lib.DenseLayer Gcn.Layers
open Idealize.ShloMosaic

/-- The first layer's output. -/
def H1K (x : FVec Ideal S50000x128 .f32) (ei : IVec S2x800000 32) (W1 : FVec Ideal S128x128 .f32) (b1 : FVec Ideal S128 .f32) :
    FVec Ideal S50000x128 .f32 :=
  affineRelu (n := 50000) (K := 128) (N := 128) (aggOf ei x) W1 (shapeCast S1x128 b1 shapeCasts_S128_S1x128)

/-- The second layer's output. -/
def H2K (x : FVec Ideal S50000x128 .f32) (ei : IVec S2x800000 32) (W1 : FVec Ideal S128x128 .f32) (b1 : FVec Ideal S128 .f32)
    (W2 : FVec Ideal S128x128 .f32) (b2 : FVec Ideal S128 .f32) : FVec Ideal S50000x128 .f32 :=
  affineRelu (n := 50000) (K := 128) (N := 128) (aggOf ei (H1K x ei W1 b1)) W2 (shapeCast S1x128 b2 shapeCasts_S128_S1x128)

/-- The network's result. -/
def outK (x : FVec Ideal S50000x128 .f32) (ei : IVec S2x800000 32) (W1 : FVec Ideal S128x128 .f32) (b1 : FVec Ideal S128 .f32)
    (W2 : FVec Ideal S128x128 .f32) (b2 : FVec Ideal S128 .f32) (W3 : FVec Ideal S128x40 .f32) (b3 : FVec Ideal S40 .f32) :
    FVec Ideal S50000x40 .f32 :=
  logSoftmaxRows (affine (n := 50000) (K := 128) (N := 40) (aggOf ei (H2K x ei W1 b1 W2 b2)) W3
    (shapeCast S1x40 b3 shapeCasts_S40_S1x40))

end Cert.KernelIdeal.KValue

end
-- ==== Proof.KRegions.lean ====
/-
  The three dense layers of the network, each as ONE function of the arrays its region finds.

  Each region walks the 50000 rows of its input in 10 blocks of 5000 rows. At block `t` it reads rows `5000·t … 5000·t + 4999` of
  the input, the whole weight matrix and the whole bias row, and writes rows `5000·t … 5000·t + 4999` of its output. Regions 0 and 1
  compute `max (x · W + b) 0` on the block; region 2 computes `z = x · W + b` and then, along each row, `z − max z − log Σ exp (z − max z)`.
  Every entry of these layers reads one row of the input only, so the block of the result at `t` is the block at `t` of the layer of
  the whole array; the ten blocks tile the output (row `r` lies in block `r / 5000`), so after the region the output array IS the
  layer of the whole input: `final0`, `final1`, `final2`.
-/
import proofs.«103093_j44641890074931_1_alg».proof.Proof.Gen.KernelIdeal.Frame
import proofs.«103093_j44641890074931_1_alg».proof.Proof.LibDenseLayer
import proofs.«103093_j44641890074931_1_alg».proof.Proof.LibLogSoftmaxRows
import Idealize.ShloMosaic.Lib.Pipeline.Value
import Idealize.ShloMosaic.Lib.ValueIdx

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx
open Cert.Lib.DenseLayer Gcn.Layers

/-- A block read from offset `(0, 0)` at the block's own size is the block. -/
theorem origin : (![0, 0] : Fin 2 → Nat) = fun _ => 0 := funext fun a => by fin_cases a <;> rfl

/-! ## What a block's arithmetic computes -/

/-- Regions 0 and 1 on a block: the rows times the weights (the rounding to bf16 is the identity over the extended reals), plus
    the bias row on every row, rectified. -/
theorem relu_block0 (x0 : Vec Ideal S5000x128 .f32) (x1 : Vec Ideal S128x128 .f32) (x2 : Vec Ideal S1x128 .f32) :
    k0_pay1 x0 x1 x2 = affineRelu (n := 5000) (K := 128) (N := 128) x0 x1 x2 := by
  unfold k0_pay1
  exact block_affineRelu_eq dot_S5000x128_S128x128_S5000x128_1_0_0_1_n_n rfl _ _ _ _ x0 x1 x2

theorem relu_block1 (x0 : Vec Ideal S5000x128 .f32) (x1 : Vec Ideal S128x128 .f32) (x2 : Vec Ideal S1x128 .f32) :
    k1_pay1 x0 x1 x2 = affineRelu (n := 5000) (K := 128) (N := 128) x0 x1 x2 := by
  unfold k1_pay1
  exact block_affineRelu_eq dot_S5000x128_S128x128_S5000x128_1_0_0_1_n_n rfl _ _ _ _ x0 x1 x2

/-- Region 2 on a block: `z = x · W + b`, then each row of `z` less its maximum, less the logarithm of the row's sum of the
    exponentials of those differences. -/
theorem logSoftmax_block2 (x0 : Vec Ideal S5000x128 .f32) (x1 : Vec Ideal S128x40 .f32) (x2 : Vec Ideal S1x40 .f32) :
    k2_pay1 x0 x1 x2 = logSoftmaxRows (affine (n := 5000) (K := 128) (N := 40) x0 x1 x2) := by
  unfold k2_pay1
  dsimp only
  rw [block_affine_eq dot_S5000x128_S128x40_S5000x40_1_0_0_1_n_n rfl _ _ _ _ x0 x1 x2]
  exact Gcn.SoftmaxOps.kernel_logSoftmaxRows _ _ _ _ _ _ _

variable (V : (c : Dev nD) → (b : Ref sig .tc) → Buf (Elt Ideal) ((c : Thread nD τ).loc b))

/-! ## Region 0: the first hidden layer, `max (x · W + b) 0` -/

/-- Where the blocks sit: at grid point `t` the input's and the output's block is block `(t, 0)` of its array — rows from
    `5000·t` —, the weights' and the bias row's is block `(0, 0)`, the whole array. -/
theorem tiles0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the input's block at `t` is row `5000·t + p` of the input. -/
theorem rows0 (c : Dev nD) (t : Fin cfg0.N) (p : Fin 5000) (k : Fin 128) (r : Fin 50000)
    (hr : r.val = t.val * 5000 + p.val) :
    (iblk0 V c 0 t : Vec Ideal S5000x128 .f32) (ix2 p k)
      = (V c (Pipeline.arrRef spec0 0) : S50000x128.Idx → Elt Ideal .f32) (ix2 r k) := by
  obtain ⟨e00, e01, -⟩ := tiles0 t
  show V c (Pipeline.arrRef spec0 0) (((cfg0.win 0).blk t).view.emb (ix2 p k)) = _
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weights' block at any point is the weight matrix. -/
theorem weights0 (c : Dev nD) (t : Fin cfg0.N) (k : Fin 128) (q : Fin 128) :
    (iblk0 V c 1 t : Vec Ideal S128x128 .f32) (ix2 k q)
      = (V c (Pipeline.arrRef spec0 1) : S128x128.Idx → Elt Ideal .f32) (ix2 k q) := by
  obtain ⟨-, -, e10, e11, -⟩ := tiles0 t
  show V c (Pipeline.arrRef spec0 1) (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The bias row's block at any point is the bias row. -/
theorem bias0 (c : Dev nD) (t : Fin cfg0.N) (q : Fin 128) :
    (iblk0 V c 2 t : Vec Ideal S1x128 .f32) (ix2 (0 : Fin 1) q)
      = (V c (Pipeline.arrRef spec0 2) : S1x128.Idx → Elt Ideal .f32) (ix2 (0 : Fin 1) q) := by
  obtain ⟨-, -, -, -, e20, e21, -⟩ := tiles0 t
  show V c (Pipeline.arrRef spec0 2) (((cfg0.win 2).blk t).view.emb (ix2 (0 : Fin 1) q)) = _
  refine congrArg _ (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 128 + 1 * q.val = q.val; omega

/-- What point `t` writes back is block `t` of the rectified layer of the whole input: entry `(p, q)` of the block's layer reads
    row `p` of the block, which is row `5000·t + p` of the input, and that is the row entry `(5000·t + p, q)` of the whole layer
    reads. -/
theorem written0 (c : Dev nD) (t : Fin cfg0.N) :
    (dat0 (F := Ideal) V c).flushed 3 t = ((cfg0.win 3).blk t).view.read (Elt Ideal)
      (affineRelu (n := 50000) (K := 128) (N := 128) (V c (Pipeline.arrRef spec0 0)) (V c (Pipeline.arrRef spec0 1))
        (V c (Pipeline.arrRef spec0 2))) := by
  show (cfg0.win 3).cut (grid0.coords t) ((dat0 V c).after 3 t) = _
  rw [after0_3]
  unfold out0_3
  rw [View.canon_unit_zero origin]
  simp only [View.ld_unit_zero (S := S5000x128) origin, View.ld_unit_zero (S := S128x128) origin,
    View.ld_unit_zero (S := S1x128) origin]
  rw [relu_block0]
  obtain ⟨-, -, -, -, -, -, e30, e31⟩ := tiles0 t
  have hN : cfg0.N = 10 := N_0
  have ht : t.val < 10 := hN ▸ t.isLt
  funext j
  obtain ⟨p, q, rfl⟩ : ∃ (p : Fin 5000) (q : Fin 128), j = ix2 p q := ⟨j 0, j 1, eq_ix2 j⟩
  have hi : ((cfg0.win 3).blk t).view.emb (ix2 p q) = ix2 (⟨t.val * 5000 + p.val, by omega⟩ : Fin 50000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  show affineRelu (iblk0 V c 0 t) (iblk0 V c 1 t) (iblk0 V c 2 t) (ix2 p q)
    = affineRelu (V c (Pipeline.arrRef spec0 0)) (V c (Pipeline.arrRef spec0 1)) (V c (Pipeline.arrRef spec0 2))
        (((cfg0.win 3).blk t).view.emb (ix2 p q))
  rw [hi]
  exact affineRelu_entry (V c (Pipeline.arrRef spec0 0)) (iblk0 V c 0 t) (V c (Pipeline.arrRef spec0 1)) (iblk0 V c 1 t)
    (V c (Pipeline.arrRef spec0 2)) (iblk0 V c 2 t) p ⟨t.val * 5000 + p.val, by omega⟩ q
    (fun k => rows0 V c t p k _ rfl) (fun k => weights0 V c t k q) (bias0 V c t q)

/-- An index of the output lies in point `t`'s block iff each coordinate lies in the block's range on its axis. -/
theorem mem_tile0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v57).slice (win0_3.rect t)).set ↔ _
  rw [View.set_slice_whole, Rect.mem_set_unit]
  exact Iff.rfl

/-- The ten blocks fill the output: row `r` lies in block `r / 5000`. -/
theorem cover0 (i : S50000x128.Idx) :
    ∃ t : Fin cfg0.N, (cfg0.win 3).flush t = true ∧ i ∈ ((cfg0.win 3).blk t).view.set := by
  have hN : cfg0.N = 10 := N_0
  have h0 : (i 0).val < 50000 := (i 0).isLt
  have h1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, -, -, e30, e31⟩ := tiles0 t
  refine ⟨t, flush0_3 t, ?_⟩
  rw [mem_tile0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- After region 0 its output array is the rectified layer of the arrays the region found. -/
theorem final0 (c : Dev nD) : (dat0 (F := Ideal) V c).arrAt 3 cfg0.N
    = affineRelu (n := 50000) (K := 128) (N := 128) (V c (Pipeline.arrRef spec0 0)) (V c (Pipeline.arrRef spec0 1))
        (V c (Pipeline.arrRef spec0 2)) :=
  (dat0 V c).arrAt_eq_of_cover 3 _ (fun t _ => written0 V c t) cover0

/-! ## Region 1: the second hidden layer, `max (x · W + b) 0` -/

/-- Where the blocks sit: at grid point `t` the input's and the output's block is block `(t, 0)` of its array — rows from
    `5000·t` —, the weights' and the bias row's is block `(0, 0)`, the whole array. -/
theorem tiles1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the input's block at `t` is row `5000·t + p` of the input. -/
theorem rows1 (c : Dev nD) (t : Fin cfg1.N) (p : Fin 5000) (k : Fin 128) (r : Fin 50000)
    (hr : r.val = t.val * 5000 + p.val) :
    (iblk1 V c 0 t : Vec Ideal S5000x128 .f32) (ix2 p k)
      = (V c (Pipeline.arrRef spec1 0) : S50000x128.Idx → Elt Ideal .f32) (ix2 r k) := by
  obtain ⟨e00, e01, -⟩ := tiles1 t
  show V c (Pipeline.arrRef spec1 0) (((cfg1.win 0).blk t).view.emb (ix2 p k)) = _
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The weights' block at any point is the weight matrix. -/
theorem weights1 (c : Dev nD) (t : Fin cfg1.N) (k : Fin 128) (q : Fin 128) :
    (iblk1 V c 1 t : Vec Ideal S128x128 .f32) (ix2 k q)
      = (V c (Pipeline.arrRef spec1 1) : S128x128.Idx → Elt Ideal .f32) (ix2 k q) := by
  obtain ⟨-, -, e10, e11, -⟩ := tiles1 t
  show V c (Pipeline.arrRef spec1 1) (((cfg1.win 1).blk t).view.emb (ix2 k q)) = _
  refine congrArg _ (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

/-- The bias row's block at any point is the bias row. -/
theorem bias1 (c : Dev nD) (t : Fin cfg1.N) (q : Fin 128) :
    (iblk1 V c 2 t : Vec Ideal S1x128 .f32) (ix2 (0 : Fin 1) q)
      = (V c (Pipeline.arrRef spec1 2) : S1x128.Idx → Elt Ideal .f32) (ix2 (0 : Fin 1) q) := by
  obtain ⟨-, -, -, -, e20, e21, -⟩ := tiles1 t
  show V c (Pipeline.arrRef spec1 2) (((cfg1.win 2).blk t).view.emb (ix2 (0 : Fin 1) q)) = _
  refine congrArg _ (funext fun a => Fin.ext ?_)
  match a with
  | ⟨0, _⟩ => show win1_2.index t (0 : Fin 2) * 1 + 1 * (0 : Fin 1).val = (0 : Fin 1).val; omega
  | ⟨1, _⟩ => show win1_2.index t (1 : Fin 2) * 128 + 1 * q.val = q.val; omega

/-- What point `t` writes back is block `t` of the rectified layer of the whole input: entry `(p, q)` of the block's layer reads
    row `p` of the block, which is row `5000·t + p` of the input, and that is the row entry `(5000·t + p, q)` of the whole layer
    reads. -/
theorem written1 (c : Dev nD) (t : Fin cfg1.N) :
    (dat1 (F := Ideal) V c).flushed 3 t = ((cfg1.win 3).blk t).view.read (Elt Ideal)
      (affineRelu (n := 50000) (K := 128) (N := 128) (V c (Pipeline.arrRef spec1 0)) (V c (Pipeline.arrRef spec1 1))
        (V c (Pipeline.arrRef spec1 2))) := by
  show (cfg1.win 3).cut (grid1.coords t) ((dat1 V c).after 3 t) = _
  rw [after1_3]
  unfold out1_3
  rw [View.canon_unit_zero origin]
  simp only [View.ld_unit_zero (S := S5000x128) origin, View.ld_unit_zero (S := S128x128) origin,
    View.ld_unit_zero (S := S1x128) origin]
  rw [relu_block1]
  obtain ⟨-, -, -, -, -, -, e30, e31⟩ := tiles1 t
  have hN : cfg1.N = 10 := N_1
  have ht : t.val < 10 := hN ▸ t.isLt
  funext j
  obtain ⟨p, q, rfl⟩ : ∃ (p : Fin 5000) (q : Fin 128), j = ix2 p q := ⟨j 0, j 1, eq_ix2 j⟩
  have hi : ((cfg1.win 3).blk t).view.emb (ix2 p q) = ix2 (⟨t.val * 5000 + p.val, by omega⟩ : Fin 50000) q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  show affineRelu (iblk1 V c 0 t) (iblk1 V c 1 t) (iblk1 V c 2 t) (ix2 p q)
    = affineRelu (V c (Pipeline.arrRef spec1 0)) (V c (Pipeline.arrRef spec1 1)) (V c (Pipeline.arrRef spec1 2))
        (((cfg1.win 3).blk t).view.emb (ix2 p q))
  rw [hi]
  exact affineRelu_entry (V c (Pipeline.arrRef spec1 0)) (iblk1 V c 0 t) (V c (Pipeline.arrRef spec1 1)) (iblk1 V c 1 t)
    (V c (Pipeline.arrRef spec1 2)) (iblk1 V c 2 t) p ⟨t.val * 5000 + p.val, by omega⟩ q
    (fun k => rows1 V c t p k _ rfl) (fun k => weights1 V c t k q) (bias1 V c t q)

/-- An index of the output lies in point `t`'s block iff each coordinate lies in the block's range on its axis. -/
theorem mem_tile1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v81).slice (win1_3.rect t)).set ↔ _
  rw [View.set_slice_whole, Rect.mem_set_unit]
  exact Iff.rfl

/-- The ten blocks fill the output: row `r` lies in block `r / 5000`. -/
theorem cover1 (i : S50000x128.Idx) :
    ∃ t : Fin cfg1.N, (cfg1.win 3).flush t = true ∧ i ∈ ((cfg1.win 3).blk t).view.set := by
  have hN : cfg1.N = 10 := N_1
  have h0 : (i 0).val < 50000 := (i 0).isLt
  have h1 : (i 1).val < 128 := (i 1).isLt
  obtain ⟨t, ht⟩ : ∃ t : Fin cfg1.N, t.val = (i 0).val / 5000 := ⟨⟨(i 0).val / 5000, by rw [hN]; omega⟩, rfl⟩
  obtain ⟨-, -, -, -, -, -, e30, e31⟩ := tiles1 t
  refine ⟨t, flush1_3 t, ?_⟩
  rw [mem_tile1]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- After region 1 its output array is the rectified layer of the arrays the region found. -/
theorem final1 (c : Dev nD) : (dat1 (F := Ideal) V c).arrAt 3 cfg1.N
    = affineRelu (n := 50000) (K := 128) (N := 128) (V c (Pipeline.arrRef spec1 0)) (V c (Pipeline.arrRef spec1 1))
        (V c (Pipeline.arrRef spec1 2)) :=
  (dat1 V c).arrAt_eq_of_cover 3 _ (fun t _ => written1 V c t) cover1

/-! ## Region 2: the output layer, `z = x · W + b` and the logarithm of each row's softmax -/

/-- Where the blocks sit: at grid point `t` the input's and the output's block is block `(t, 0)` of its array — rows from
    `5000·t` —, the weights' and the bias row's is block `(0, 0)`, the whole array. -/
theorem tiles2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of the input's block at `t` is row `5000·t + p` of the input. -/
theorem rows2 (c : Dev nD) (t : Fin cfg2.N) (p : Fin 5000) (k : Fin 128) (r : Fin 50000)
    (hr : r.val = t.val * 5000 + p.val) :
    (iblk2 V c 0 t : Vec Ideal S5000x128 .f32) (ix2 p k)
      = (V c (Pipeline.arrRef spec2 0) : S50000x128.Idx → Elt Ideal .f32) (ix2 r k) := by
  obtain ⟨e00, e01, -⟩ := tiles2 t
  show V c (Pipeline.arrRef spec2 0) (((cfg2.win 0).blk t).view.emb (ix2 p k)) = _
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- The weights' block at any point is the weight matrix. -/
theorem weights2 (c : Dev nD) (t : Fin cfg2.N) (k : Fin 128) (q : Fin 40) :
    (iblk2 V c 1 t : Vec Ideal S128x40 .f32) (ix2 k q)
      = (V c (Pipeline.arrRef spec2 1) : S128x40.Idx → Elt Ideal .f32) (ix2 k q) := by
  obtain ⟨-, -, e10, e11, -⟩ := tiles2 t
  show V c (Pipeline.arrRef spec2 1) (((cfg2.win 1).blk t).view.emb (ix2 k q)) = _
  refine congrArg _ (funext fun a => Fin.ext ?_)
  match a with
  | ⟨0, _⟩ => show win2_1.index t (0 : Fin 2) * 128 + 1 * k.val = k.val; omega
  | ⟨1, _⟩ => show win2_1.index t (1 : Fin 2) * 40 + 1 * q.val = q.val; omega

/-- The bias row's block at any point is the bias row. -/
theorem bias2 (c : Dev nD) (t : Fin cfg2.N) (q : Fin 40) :
    (iblk2 V c 2 t : Vec Ideal S1x40 .f32) (ix2 (0 : Fin 1) q)
      = (V c (Pipeline.arrRef spec2 2) : S1x40.Idx → Elt Ideal .f32) (ix2 (0 : Fin 1) q) := by
  obtain ⟨-, -, -, -, e20, e21, -⟩ := tiles2 t
  show V c (Pipeline.arrRef spec2 2) (((cfg2.win 2).blk t).view.emb (ix2 (0 : Fin 1) q)) = _
  refine congrArg _ (funext fun a => Fin.ext ?_)
  match a with
  | ⟨0, _⟩ => show win2_2.index t (0 : Fin 2) * 1 + 1 * (0 : Fin 1).val = (0 : Fin 1).val; omega
  | ⟨1, _⟩ => show win2_2.index t (1 : Fin 2) * 40 + 1 * q.val = q.val; omega

/-- What point `t` writes back is block `t` of the log-softmax of the whole layer: row `p` of the block's `z` is row
    `5000·t + p` of the whole `z` (an entry of `x · W + b` reads one row of `x`), and the maximum, the sum and the logarithm are
    taken along that row only. -/
theorem written2 (c : Dev nD) (t : Fin cfg2.N) :
    (dat2 (F := Ideal) V c).flushed 3 t = ((cfg2.win 3).blk t).view.read (Elt Ideal)
      (logSoftmaxRows (affine (n := 50000) (K := 128) (N := 40) (V c (Pipeline.arrRef spec2 0)) (V c (Pipeline.arrRef spec2 1))
        (V c (Pipeline.arrRef spec2 2)))) := by
  show (cfg2.win 3).cut (grid2.coords t) ((dat2 V c).after 3 t) = _
  rw [after2_3]
  unfold out2_3
  rw [View.canon_unit_zero origin]
  simp only [View.ld_unit_zero (S := S5000x128) origin, View.ld_unit_zero (S := S128x40) origin,
    View.ld_unit_zero (S := S1x40) origin]
  rw [logSoftmax_block2]
  obtain ⟨-, -, -, -, -, -, e30, e31⟩ := tiles2 t
  have hN : cfg2.N = 10 := N_2
  have ht : t.val < 10 := hN ▸ t.isLt
  funext j
  obtain ⟨p, q, rfl⟩ : ∃ (p : Fin 5000) (q : Fin 40), j = ix2 p q := ⟨j 0, j 1, eq_ix2 j⟩
  have hi : ((cfg2.win 3).blk t).view.emb (ix2 p q) = ix2 (⟨t.val * 5000 + p.val, by omega⟩ : Fin 50000) q := by
    funext a; apply Fin.ext
    match a with
    | ⟨0, _⟩ => show win2_3.index t (0 : Fin 2) * 5000 + 1 * p.val = t.val * 5000 + p.val; omega
    | ⟨1, _⟩ => show win2_3.index t (1 : Fin 2) * 40 + 1 * q.val = q.val; omega
  show logSoftmaxRows (affine (iblk2 V c 0 t) (iblk2 V c 1 t) (iblk2 V c 2 t)) (ix2 p q)
    = logSoftmaxRows (affine (V c (Pipeline.arrRef spec2 0)) (V c (Pipeline.arrRef spec2 1)) (V c (Pipeline.arrRef spec2 2)))
        (((cfg2.win 3).blk t).view.emb (ix2 p q))
  rw [hi]
  exact logSoftmaxRows_block
    (affine (V c (Pipeline.arrRef spec2 0)) (V c (Pipeline.arrRef spec2 1)) (V c (Pipeline.arrRef spec2 2)))
    (affine (iblk2 V c 0 t) (iblk2 V c 1 t) (iblk2 V c 2 t)) p ⟨t.val * 5000 + p.val, by omega⟩
    (fun l => affine_entry (V c (Pipeline.arrRef spec2 0)) (iblk2 V c 0 t) (V c (Pipeline.arrRef spec2 1)) (iblk2 V c 1 t)
      (V c (Pipeline.arrRef spec2 2)) (iblk2 V c 2 t) p ⟨t.val * 5000 + p.val, by omega⟩ l
      (fun k => rows2 V c t p k _ rfl) (fun k => weights2 V c t k l) (bias2 V c t l)) q

/-- An index of the output lies in point `t`'s block iff each coordinate lies in the block's range on its axis. -/
theorem mem_tile2 (t : Fin cfg2.N) (i : S50000x40.Idx) :
    i ∈ ((cfg2.win 3).blk t).view.set ↔ ∀ a : Fin 2, win2_3.index t a * S5000x40.size a ≤ (i a).val
      ∧ (i a).val < win2_3.index t a * S5000x40.size a + S5000x40.size a := by
  show i ∈ ((View.whole main_v105).slice (win2_3.rect t)).set ↔ _
  rw [View.set_slice_whole, Rect.mem_set_unit]
  exact Iff.rfl

/-- The ten blocks fill the output: row `r` lies in block `r / 5000`. -/
theorem cover2 (i : S50000x40.Idx) :
    ∃ t : Fin cfg2.N, (cfg2.win 3).flush t = true ∧ i ∈ ((cfg2.win 3).blk t).view.set := by
  have hN : cfg2.N = 10 := N_2
  have h0 : (i 0).val < 50000 := (i 0).isLt
  have h1 : (i 1).val < 40 := (i 1).isLt
  obtain ⟨t, ht⟩ : ∃ t : Fin cfg2.N, t.val = (i 0).val / 5000 := ⟨⟨(i 0).val / 5000, by rw [hN]; omega⟩, rfl⟩
  obtain ⟨-, -, -, -, -, -, e30, e31⟩ := tiles2 t
  refine ⟨t, flush2_3 t, ?_⟩
  rw [mem_tile2]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 40 ≤ (i 1).val ∧ (i 1).val < win2_3.index t (1 : Fin 2) * 40 + 40
    omega

/-- After region 2 its output array is the logarithm of the row softmax of the layer of the arrays the region found. -/
theorem final2 (c : Dev nD) : (dat2 (F := Ideal) V c).arrAt 3 cfg2.N
    = logSoftmaxRows (affine (n := 50000) (K := 128) (N := 40) (V c (Pipeline.arrRef spec2 0)) (V c (Pipeline.arrRef spec2 1))
        (V c (Pipeline.arrRef spec2 2))) :=
  (dat2 V c).arrAt_eq_of_cover 3 _ (fun t _ => written2 V c t) cover2

end Cert.KernelIdeal.Regions

end
-- ==== Proof.KValue.lean ====
/-
  The idealized kernel's result array as the network of its eight arguments.

  The program alternates three times between a host stretch and a region. Each stretch forms the neighbour aggregate of the
  current features — the input array, then the previous region's output — with the edge arrays the first stretch computed
  once from the edge list, and casts the layer's bias vector to one row; the region then applies its dense layer to the
  aggregate. A stretch reads the edge arrays, the previous region's output, and its layer's weight and bias arguments; no
  region and no later stretch writes any of those, so each comes through the earlier boundaries as it was. Composing:
      H1 = max (agg x · W1 + b1) 0,   H2 = max (agg H1 · W2 + b2) 0,   out = logSoftmaxRows (agg H2 · W3 + b3).
-/
import proofs.«103093_j44641890074931_1_alg».proof.Proof.Gen.KernelIdeal.Frame
import proofs.«103093_j44641890074931_1_alg».proof.Proof.KNet
import proofs.«103093_j44641890074931_1_alg».proof.Proof.KRegions
import Idealize.ShloMosaic.Lib.StableHlo.Run

set_option maxRecDepth 16384

noncomputable section

namespace Cert.KernelIdeal.KValue

open Cert.KernelIdeal Cert.KernelIdeal.Gen Cert.KernelIdeal.Facts Cert.KernelIdeal.HostValue Cert.KernelIdeal.Regions
open Cert.Lib.DenseLayer Gcn.Layers
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Across region 0 -/

/-- The edge arrays are not region 0's arrays: they leave it as the first stretch left them. -/
theorem W2_v1 : W2 m ρ c (Proc.devRef .tc main_v1) = rowK (m ((c : Thread nD τ).loc main_arg1)) :=
  (W2_of_ne m ρ c main_v1 (by decide)).trans (W1_v1 m ρ c)
theorem W2_v3 : W2 m ρ c (Proc.devRef .tc main_v3) = colK (m ((c : Thread nD τ).loc main_arg1)) :=
  (W2_of_ne m ρ c main_v3 (by decide)).trans (W1_v3 m ρ c)
theorem W2_v32 : W2 m ρ c (Proc.devRef .tc main_v32) = normK (m ((c : Thread nD τ).loc main_arg1)) :=
  (W2_of_ne m ρ c main_v32 (by decide)).trans (W1_v32 m ρ c)
theorem W2_v33 : W2 m ρ c (Proc.devRef .tc main_v33) = selfK (m ((c : Thread nD τ).loc main_arg1)) :=
  (W2_of_ne m ρ c main_v33 (by decide)).trans (W1_v33 m ρ c)

/-- Region 0 leaves the first hidden layer in its output array. -/
theorem W2_v57 : W2 m ρ c (Proc.devRef .tc main_v57) = H1K (m ((c : Thread nD τ).loc main_arg0)) (m ((c : Thread nD τ).loc main_arg1)) (m ((c : Thread nD τ).loc main_arg2)) (m ((c : Thread nD τ).loc main_arg3)) := by
  show W2 m ρ c (Proc.devRef .tc (Pipeline.arrRef spec0 3)) = _
  rw [W2_arr, final0]
  show affineRelu (V1 m ρ c main_v55) (V1 m ρ c main_arg2) (V1 m ρ c main_v56) = _
  rw [V1_v55, V1_arg2, V1_v56]
  rfl

/-- The later layers' weight and bias arguments: the first stretch writes none of them, and they are not region 0's arrays. -/
theorem W1_arg4 : W1 m ρ c (Proc.devRef .tc main_arg4) = (m ((c : Thread nD τ).loc main_arg4)) := by
  show StableHlo.after hostOps0 (W0 m ρ c) (Proc.devRef .tc main_arg4) = _
  after_results_simp
theorem W1_arg5 : W1 m ρ c (Proc.devRef .tc main_arg5) = (m ((c : Thread nD τ).loc main_arg5)) := by
  show StableHlo.after hostOps0 (W0 m ρ c) (Proc.devRef .tc main_arg5) = _
  after_results_simp
theorem W1_arg6 : W1 m ρ c (Proc.devRef .tc main_arg6) = (m ((c : Thread nD τ).loc main_arg6)) := by
  show StableHlo.after hostOps0 (W0 m ρ c) (Proc.devRef .tc main_arg6) = _
  after_results_simp
theorem W1_arg7 : W1 m ρ c (Proc.devRef .tc main_arg7) = (m ((c : Thread nD τ).loc main_arg7)) := by
  show StableHlo.after hostOps0 (W0 m ρ c) (Proc.devRef .tc main_arg7) = _
  after_results_simp
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)

/-! ## The second stretch, and across region 1 -/

/-- Region 1 stages the aggregate of region 0's output. -/
theorem V3_v79 : V3 m ρ c main_v79 = aggOf (m ((c : Thread nD τ).loc main_arg1)) (W2 m ρ c (Proc.devRef .tc main_v57)) := by
  show StableHlo.after hostOps1 (W2 m ρ c) (Proc.devRef .tc main_v79) = _
  after_results_simp
  rw [W2_v1, W2_v3, W2_v32, W2_v33]
  rfl

theorem V3_arg4 : V3 m ρ c main_arg4 = (m ((c : Thread nD τ).loc main_arg4)) := by
  show StableHlo.after hostOps1 (W2 m ρ c) (Proc.devRef .tc main_arg4) = _
  after_results_simp
  exact W2_arg4 m ρ c

theorem V3_v80 : V3 m ρ c main_v80 = shapeCast S1x128 (m ((c : Thread nD τ).loc main_arg5)) shapeCasts_S128_S1x128 := by
  show StableHlo.after hostOps1 (W2 m ρ c) (Proc.devRef .tc main_v80) = _
  after_results_simp
  rw [W2_arg5]
  rfl

/-- The second stretch writes none of the edge arrays, and they are not region 1's arrays. -/
theorem W4_v1 : W4 m ρ c (Proc.devRef .tc main_v1) = rowK (m ((c : Thread nD τ).loc main_arg1)) := by
  refine (W4_of_ne m ρ c main_v1 (by decide)).trans ?_
  show StableHlo.after hostOps1 (W2 m ρ c) (Proc.devRef .tc main_v1) = _
  after_results_simp
  exact W2_v1 m ρ c
theorem W4_v3 : W4 m ρ c (Proc.devRef .tc main_v3) = colK (m ((c : Thread nD τ).loc main_arg1)) := by
  refine (W4_of_ne m ρ c main_v3 (by decide)).trans ?_
  show StableHlo.after hostOps1 (W2 m ρ c) (Proc.devRef .tc main_v3) = _
  after_results_simp
  exact W2_v3 m ρ c
theorem W4_v32 : W4 m ρ c (Proc.devRef .tc main_v32) = normK (m ((c : Thread nD τ).loc main_arg1)) := by
  refine (W4_of_ne m ρ c main_v32 (by decide)).trans ?_
  show StableHlo.after hostOps1 (W2 m ρ c) (Proc.devRef .tc main_v32) = _
  after_results_simp
  exact W2_v32 m ρ c
theorem W4_v33 : W4 m ρ c (Proc.devRef .tc main_v33) = selfK (m ((c : Thread nD τ).loc main_arg1)) := by
  refine (W4_of_ne m ρ c main_v33 (by decide)).trans ?_
  show StableHlo.after hostOps1 (W2 m ρ c) (Proc.devRef .tc main_v33) = _
  after_results_simp
  exact W2_v33 m ρ c
theorem W4_arg6 : W4 m ρ c (Proc.devRef .tc main_arg6) = (m ((c : Thread nD τ).loc main_arg6)) := by
  refine (W4_of_ne m ρ c main_arg6 (by decide)).trans ?_
  show StableHlo.after hostOps1 (W2 m ρ c) (Proc.devRef .tc main_arg6) = _
  after_results_simp
  exact W2_arg6 m ρ c
theorem W4_arg7 : W4 m ρ c (Proc.devRef .tc main_arg7) = (m ((c : Thread nD τ).loc main_arg7)) := by
  refine (W4_of_ne m ρ c main_arg7 (by decide)).trans ?_
  show StableHlo.after hostOps1 (W2 m ρ c) (Proc.devRef .tc main_arg7) = _
  after_results_simp
  exact W2_arg7 m ρ c

/-- Region 1 leaves the second hidden layer in its output array. -/
theorem W4_v81 : W4 m ρ c (Proc.devRef .tc main_v81)
    = H2K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show W4 m ρ c (Proc.devRef .tc (Pipeline.arrRef spec1 3)) = _
  rw [W4_arr, final1]
  show affineRelu (V3 m ρ c main_v79) (V3 m ρ c main_arg4) (V3 m ρ c main_v80) = _
  rw [V3_v79, V3_arg4, V3_v80, W2_v57]
  rfl

/-! ## The third stretch, and across region 2 -/

/-- Region 2 stages the aggregate of region 1's output. -/
theorem V5_v103 : V5 m ρ c main_v103 = aggOf (m ((c : Thread nD τ).loc main_arg1)) (W4 m ρ c (Proc.devRef .tc main_v81)) := by
  show StableHlo.after hostOps2 (W4 m ρ c) (Proc.devRef .tc main_v103) = _
  after_results_simp
  rw [W4_v1, W4_v3, W4_v32, W4_v33]
  rfl

theorem V5_arg6 : V5 m ρ c main_arg6 = (m ((c : Thread nD τ).loc main_arg6)) := by
  show StableHlo.after hostOps2 (W4 m ρ c) (Proc.devRef .tc main_arg6) = _
  after_results_simp
  exact W4_arg6 m ρ c

theorem V5_v104 : V5 m ρ c main_v104 = shapeCast S1x40 (m ((c : Thread nD τ).loc main_arg7)) shapeCasts_S40_S1x40 := by
  show StableHlo.after hostOps2 (W4 m ρ c) (Proc.devRef .tc main_v104) = _
  after_results_simp
  rw [W4_arg7]
  rfl

/-- After region 2 the result array holds the network of the eight arguments. -/
theorem result_eq : W6 m ρ c (Proc.devRef .tc main_v105)
    = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) := by
  show W6 m ρ c (Proc.devRef .tc (Pipeline.arrRef spec2 3)) = _
  rw [W6_arr, final2]
  show logSoftmaxRows (affine (V5 m ρ c main_v103) (V5 m ρ c main_arg6) (V5 m ρ c main_v104)) = _
  rw [V5_v103, V5_arg6, V5_v104, W4_v81]
  rfl

end Cert.KernelIdeal.KValue

end
-- ==== Proof.RefOps.lean ====
/-
  The idealized reference's @main as a line of host operations, cut in six, and its run.

  @main is straight-line: three graph layers one after the other. Each layer first computes its edge arrays — the
  degrees' inverse square roots and the edge weights, from the two node-number vectors the first lines extract — and
  the product of the current features with its weight matrix, and then its body: the weighted gathered rows
  scatter-added, the self term, the bias and the activation. What the buffers hold after a line of operations is a fold
  over the line, and the fold over a concatenation is the fold over the second part from the fold over the first. So
  every weakly fair execution terminates with each buffer at the sixth part's fold, from the fifth's, …, from the
  launch contents.
-/
import proofs.«103093_j44641890074931_1_alg».proof.ReferenceIdeal
import proofs.«103093_j44641890074931_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => simp only [List.cons_append, after_cons, ih]

set_option maxHeartbeats 4000000 in
/-- The first layer's edge arrays: the two node-number vectors, the degrees' inverse square roots, the product with the first weight matrix, the edge weights. -/
abbrev opsE1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x00000000#32),
    unary main_cst main_v4 (broadcastInDim S50000 ![] bcast_S_S50000 : (⟨S_, .f32⟩ : BufTy).Contents (Elt F) → (⟨S50000, .f32⟩ : BufTy).Contents (Elt F)),
    nullary main_c (constantI S_ 32 0#32),
    unary main_c main_v5 (broadcastInDim S800000 ![] bcast_S_S800000 : (⟨S_, .i32⟩ : BufTy).Contents (Elt F) → (⟨S800000, .i32⟩ : BufTy).Contents (Elt F)),
    binary main_v3 main_v5 main_v6 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v7 (broadcastInDim S800000 ![] bcast_S_S800000 : (⟨S_, .i32⟩ : BufTy).Contents (Elt F) → (⟨S800000, .i32⟩ : BufTy).Contents (Elt F)),
    binary main_v3 main_v7 main_v8 (addi : (⟨S800000, .i32⟩ : BufTy).Contents (Elt F) → (⟨S800000, .i32⟩ : BufTy).Contents (Elt F) → (⟨S800000, .i32⟩ : BufTy).Contents (Elt F)),
    ternary main_v6 main_v8 main_v3 main_v9 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v9 main_v10 (broadcastInDim S800000x1 ![0] bcast_S800000_S800000x1_0 : (⟨S800000, .i32⟩ : BufTy).Contents (Elt F) → (⟨S800000x1, .i32⟩ : BufTy).Contents (Elt F)),
    nullary main_cst_1 (constant S_ .f32 0x3F800000#32),
    unary main_cst_1 main_v11 (broadcastInDim S800000 ![] bcast_S_S800000 : (⟨S_, .f32⟩ : BufTy).Contents (Elt F) → (⟨S800000, .f32⟩ : BufTy).Contents (Elt F)),
    ternary main_v4 main_v10 main_v11 main_v12 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32),
    unary main_cst_2 main_v13 (broadcastInDim S50000 ![] bcast_S_S50000 : (⟨S_, .f32⟩ : BufTy).Contents (Elt F) → (⟨S50000, .f32⟩ : BufTy).Contents (Elt F)),
    binary main_v12 main_v13 main_v14 (addf : (⟨S50000, .f32⟩ : BufTy).Contents (Elt F) → (⟨S50000, .f32⟩ : BufTy).Contents (Elt F) → (⟨S50000, .f32⟩ : BufTy).Contents (Elt F)),
    unary main_v14 main_v15 (Host.sqrt : (⟨S50000, .f32⟩ : BufTy).Contents (Elt F) → (⟨S50000, .f32⟩ : BufTy).Contents (Elt F)),
    nullary main_cst_3 (constant S_ .f32 0x3F800000#32),
    unary main_cst_3 main_v16 (broadcastInDim S50000 ![] bcast_S_S50000 : (⟨S_, .f32⟩ : BufTy).Contents (Elt F) → (⟨S50000, .f32⟩ : BufTy).Contents (Elt F)),
    binary main_v16 main_v15 main_v17 (Host.divf : (⟨S50000, .f32⟩ : BufTy).Contents (Elt F) → (⟨S50000, .f32⟩ : BufTy).Contents (Elt F) → (⟨S50000, .f32⟩ : BufTy).Contents (Elt F)),
    binary main_arg0 main_arg2 main_v18 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_4 (constantI S_ 32 0#32),
    unary main_c_4 main_v19 (broadcastInDim S800000 ![] bcast_S_S800000 : (⟨S_, .i32⟩ : BufTy).Contents (Elt F) → (⟨S800000, .i32⟩ : BufTy).Contents (Elt F)),
    binary main_v1 main_v19 main_v20 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v21 (broadcastInDim S800000 ![] bcast_S_S800000 : (⟨S_, .i32⟩ : BufTy).Contents (Elt F) → (⟨S800000, .i32⟩ : BufTy).Contents (Elt F)),
    binary main_v1 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_v1 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v17 main_v24 main_v25 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_6 (constantI S_ 32 0#32),
    unary main_c_6 main_v26 (broadcastInDim S800000 ![] bcast_S_S800000 : (⟨S_, .i32⟩ : BufTy).Contents (Elt F) → (⟨S800000, .i32⟩ : BufTy).Contents (Elt F)),
    binary main_v3 main_v26 main_v27 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v28 (broadcastInDim S800000 ![] bcast_S_S800000 : (⟨S_, .i32⟩ : BufTy).Contents (Elt F) → (⟨S800000, .i32⟩ : BufTy).Contents (Elt F)),
    binary main_v3 main_v28 main_v29 (addi : (⟨S800000, .i32⟩ : BufTy).Contents (Elt F) → (⟨S800000, .i32⟩ : BufTy).Contents (Elt F) → (⟨S800000, .i32⟩ : BufTy).Contents (Elt F)),
    ternary main_v27 main_v29 main_v3 main_v30 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v30 main_v31 (broadcastInDim S800000x1 ![0] bcast_S800000_S800000x1_0 : (⟨S800000, .i32⟩ : BufTy).Contents (Elt F) → (⟨S800000x1, .i32⟩ : BufTy).Contents (Elt F)),
    binary main_v17 main_v31 main_v32 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v25 main_v32 main_v33 (mulf : (⟨S800000, .f32⟩ : BufTy).Contents (Elt F) → (⟨S800000, .f32⟩ : BufTy).Contents (Elt F) → (⟨S800000, .f32⟩ : BufTy).Contents (Elt F)) ]

set_option maxRecDepth 8192 in
/-- Each touches TensorCore references only. -/
theorem opsE1_sub : (opsE1 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- None allocates a buffer. -/
theorem opsE1_fresh : (opsE1 : List (HloOp τ sig (Elt F))).Forall fun op => op.fresh = ∅ := by
  simp only [List.Forall]; repeat' constructor

set_option maxHeartbeats 4000000 in
/-- The first layer's body: the weighted gathered rows scatter-added, the self term, the bias, the rectifier. -/
abbrev opsB1 : List (HloOp τ sig (Elt F)) :=
  [ nullary main_cst_8 (constant S_ .f32 0x00000000#32),
    unary main_cst_8 main_v34 (broadcastInDim S50000x128 ![] bcast_S_S50000x128 : (⟨S_, .f32⟩ : BufTy).Contents (Elt F) → (⟨S50000x128, .f32⟩ : BufTy).Contents (Elt F)),
    unary main_v33 main_v35 (broadcastInDim S800000x1 ![0] bcast_S800000_S800000x1_0 : (⟨S800000, .f32⟩ : BufTy).Contents (Elt F) → (⟨S800000x1, .f32⟩ : BufTy).Contents (Elt F)),
    nullary main_c_9 (constantI S_ 32 0#32),
    unary main_c_9 main_v36 (broadcastInDim S800000 ![] bcast_S_S800000 : (⟨S_, .i32⟩ : BufTy).Contents (Elt F) → (⟨S800000, .i32⟩ : BufTy).Contents (Elt F)),
    binary main_v1 main_v36 main_v37 (cmpi .slt : (⟨S800000, .i32⟩ : BufTy).Contents (Elt F) → (⟨S800000, .i32⟩ : BufTy).Contents (Elt F) → (⟨S800000, .i1⟩ : BufTy).Contents (Elt F)),
    nullary main_c_10 (constantI S_ 32 50000#32),
    unary main_c_10 main_v38 (broadcastInDim S800000 ![] bcast_S_S800000 : (⟨S_, .i32⟩ : BufTy).Contents (Elt F) → (⟨S800000, .i32⟩ : BufTy).Contents (Elt F)),
    binary main_v1 main_v38 main_v39 (addi : (⟨S800000, .i32⟩ : BufTy).Contents (Elt F) → (⟨S800000, .i32⟩ : BufTy).Contents (Elt F) → (⟨S800000, .i32⟩ : BufTy).Contents (Elt F)),
    ternary main_v37 main_v39 main_v1 main_v40 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v40 main_v41 (broadcastInDim S800000x1 ![0] bcast_S800000_S800000x1_0 : (⟨S800000, .i32⟩ : BufTy).Contents (Elt F) → (⟨S800000x1, .i32⟩ : BufTy).Contents (Elt F)),
    binary main_v18 main_v41 main_v42 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v35 main_v43 (broadcastInDim S800000x128 ![0, 1] bcast_S800000x1_S800000x128_0_1 : (⟨S800000x1, .f32⟩ : BufTy).Contents (Elt F) → (⟨S800000x128, .f32⟩ : BufTy).Contents (Elt F)),
    binary main_v43 main_v42 main_v44 (mulf : (⟨S800000x128, .f32⟩ : BufTy).Contents (Elt F) → (⟨S800000x128, .f32⟩ : BufTy).Contents (Elt F) → (⟨S800000x128, .f32⟩ : BufTy).Contents (Elt F)),
    nullary main_c_11 (constantI S_ 32 0#32),
    unary main_c_11 main_v45 (broadcastInDim S800000 ![] bcast_S_S800000 : (⟨S_, .i32⟩ : BufTy).Contents (Elt F) → (⟨S800000, .i32⟩ : BufTy).Contents (Elt F)),
    binary main_v3 main_v45 main_v46 (cmpi .slt : (⟨S800000, .i32⟩ : BufTy).Contents (Elt F) → (⟨S800000, .i32⟩ : BufTy).Contents (Elt F) → (⟨S800000, .i1⟩ : BufTy).Contents (Elt F)),
    nullary main_c_12 (constantI S_ 32 50000#32),
    unary main_c_12 main_v47 (broadcastInDim S800000 ![] bcast_S_S800000 : (⟨S_, .i32⟩ : BufTy).Contents (Elt F) → (⟨S800000, .i32⟩ : BufTy).Contents (Elt F)),
    binary main_v3 main_v47 main_v48 (addi : (⟨S800000, .i32⟩ : BufTy).Contents (Elt F) → (⟨S800000, .i32⟩ : BufTy).Contents (Elt F) → (⟨S800000, .i32⟩ : BufTy).Contents (Elt F)),
    ternary main_v46 main_v48 main_v3 main_v49 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v49 main_v50 (broadcastInDim S800000x1 ![0] bcast_S800000_S800000x1_0 : (⟨S800000, .i32⟩ : BufTy).Contents (Elt F) → (⟨S800000x1, .i32⟩ : BufTy).Contents (Elt F)),
    ternary main_v34 main_v50 main_v44 main_v51 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v17 main_v17 main_v52 (mulf : (⟨S50000, .f32⟩ : BufTy).Contents (Elt F) → (⟨S50000, .f32⟩ : BufTy).Contents (Elt F) → (⟨S50000, .f32⟩ : BufTy).Contents (Elt F)),
    unary main_v52 main_v53 (broadcastInDim S50000x1 ![0] bcast_S50000_S50000x1_0 : (⟨S50000, .f32⟩ : BufTy).Contents (Elt F) → (⟨S50000x1, .f32⟩ : BufTy).Contents (Elt F)),
    unary main_v53 main_v54 (broadcastInDim S50000x128 ![0, 1] bcast_S50000x1_S50000x128_0_1 : (⟨S50000x1, .f32⟩ : BufTy).Contents (Elt F) → (⟨S50000x128, .f32⟩ : BufTy).Contents (Elt F)),
    binary main_v54 main_v18 main_v55 (mulf : (⟨S50000x128, .f32⟩ : BufTy).Contents (Elt F) → (⟨S50000x128, .f32⟩ : BufTy).Contents (Elt F) → (⟨S50000x128, .f32⟩ : BufTy).Contents (Elt F)),
    binary main_v51 main_v55 main_v56 (addf : (⟨S50000x128, .f32⟩ : BufTy).Contents (Elt F) → (⟨S50000x128, .f32⟩ : BufTy).Contents (Elt F) → (⟨S50000x128, .f32⟩ : BufTy).Contents (Elt F)),
    unary main_arg3 main_v57 (broadcastInDim S1x128 ![1] bcast_S128_S1x128_1 : (⟨S128, .f32⟩ : BufTy).Contents (Elt F) → (⟨S1x128, .f32⟩ : BufTy).Contents (Elt F)),
    unary main_v57 main_v58 (broadcastInDim S50000x128 ![0, 1] bcast_S1x128_S50000x128_0_1 : (⟨S1x128, .f32⟩ : BufTy).Contents (Elt F) → (⟨S50000x128, .f32⟩ : BufTy).Contents (Elt F)),
    binary main_v56 main_v58 main_v59 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v59) (TRef.of (T := ⟨S50000x128, .f32⟩) main_call0_v0) (TRef.of (T := ⟨S50000x128, .f32⟩) main_v60) maximumf ]

set_option maxRecDepth 8192 in
/-- Each touches TensorCore references only. -/
theorem opsB1_sub : (opsB1 : List (HloOp τ sig (Elt F))).Forall fun op => op.bufs ⊆ tcRefs τ sig :=
  ⟨nullary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩

/-- None allocates a buffer. -/
theorem opsB1_fresh : (opsB1 : List (HloOp τ sig (Elt F))).Forall fun op => op.fresh = ∅ := by
  simp only [List.Forall]; repeat' constructor

set_option maxHeartbeats 4000000 in
/-- The second layer's edge arrays, and the product of the first layer's output with the second weight matrix. -/
abbrev opsE2 : List (HloOp τ sig (Elt F)) :=
  [ nullary main_cst_13 (constant S_ .f32 0x00000000#32),
    unary main_cst_13 main_v61 (broadcastInDim S50000 ![] bcast_S_S50000 : (⟨S_, .f32⟩ : BufTy).Contents (Elt F) → (⟨S50000, .f32⟩ : BufTy).Contents (Elt F)),
    nullary main_c_14 (constantI S_ 32 0#32),
    unary main_c_14 main_v62 (broadcastInDim S800000 ![] bcast_S_S800000 : (⟨S_, .i32⟩ : BufTy).Contents (Elt F) → (⟨S800000, .i32⟩ : BufTy).Contents (Elt F)),
    binary main_v3 main_v62 main_v63 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v64 (broadcastInDim S800000 ![] bcast_S_S800000 : (⟨S_, .i32⟩ : BufTy).Contents (Elt F) → (⟨S800000, .i32⟩ : BufTy).Contents (Elt F)),
    binary main_v3 main_v64 main_v65 (addi : (⟨S800000, .i32⟩ : BufTy).Contents (Elt F) → (⟨S800000, .i32⟩ : BufTy).Contents (Elt F) → (⟨S800000, .i32⟩ : BufTy).Contents (Elt F)),
    ternary main_v63 main_v65 main_v3 main_v66 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v66 main_v67 (broadcastInDim S800000x1 ![0] bcast_S800000_S800000x1_0 : (⟨S800000, .i32⟩ : BufTy).Contents (Elt F) → (⟨S800000x1, .i32⟩ : BufTy).Contents (Elt F)),
    nullary main_cst_16 (constant S_ .f32 0x3F800000#32),
    unary main_cst_16 main_v68 (broadcastInDim S800000 ![] bcast_S_S800000 : (⟨S_, .f32⟩ : BufTy).Contents (Elt F) → (⟨S800000, .f32⟩ : BufTy).Contents (Elt F)),
    ternary main_v61 main_v67 main_v68 main_v69 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_17 (constant S_ .f32 0x3F800000#32),
    unary main_cst_17 main_v70 (broadcastInDim S50000 ![] bcast_S_S50000 : (⟨S_, .f32⟩ : BufTy).Contents (Elt F) → (⟨S50000, .f32⟩ : BufTy).Contents (Elt F)),
    binary main_v69 main_v70 main_v71 (addf : (⟨S50000, .f32⟩ : BufTy).Contents (Elt F) → (⟨S50000, .f32⟩ : BufTy).Contents (Elt F) → (⟨S50000, .f32⟩ : BufTy).Contents (Elt F)),
    unary main_v71 main_v72 (Host.sqrt : (⟨S50000, .f32⟩ : BufTy).Contents (Elt F) → (⟨S50000, .f32⟩ : BufTy).Contents (Elt F)),
    nullary main_cst_18 (constant S_ .f32 0x3F800000#32),
    unary main_cst_18 main_v73 (broadcastInDim S50000 ![] bcast_S_S50000 : (⟨S_, .f32⟩ : BufTy).Contents (Elt F) → (⟨S50000, .f32⟩ : BufTy).Contents (Elt F)),
    binary main_v73 main_v72 main_v74 (Host.divf : (⟨S50000, .f32⟩ : BufTy).Contents (Elt F) → (⟨S50000, .f32⟩ : BufTy).Contents (Elt F) → (⟨S50000, .f32⟩ : BufTy).Contents (Elt F)),
    binary main_v60 main_arg4 main_v75 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_19 (constantI S_ 32 0#32),
    unary main_c_19 main_v76 (broadcastInDim S800000 ![] bcast_S_S800000 : (⟨S_, .i32⟩ : BufTy).Contents (Elt F) → (⟨S800000, .i32⟩ : BufTy).Contents (Elt F)),
    binary main_v1 main_v76 main_v77 (cmpi .slt : (⟨S800000, .i32⟩ : BufTy).Contents (Elt F) → (⟨S800000, .i32⟩ : BufTy).Contents (Elt F) → (⟨S800000, .i1⟩ : BufTy).Contents (Elt F)),
    nullary main_c_20 (constantI S_ 32 50000#32),
    unary main_c_20 main_v78 (broadcastInDim S800000 ![] bcast_S_S800000 : (⟨S_, .i32⟩ : BufTy).Contents (Elt F) → (⟨S800000, .i32⟩ : BufTy).Contents (Elt F)),
    binary main_v1 main_v78 main_v79 (addi : (⟨S800000, .i32⟩ : BufTy).Contents (Elt F) → (⟨S800000, .i32⟩ : BufTy).Contents (Elt F) → (⟨S800000, .i32⟩ : BufTy).Contents (Elt F)),
    ternary main_v77 main_v79 main_v1 main_v80 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v80 main_v81 (broadcastInDim S800000x1 ![0] bcast_S800000_S800000x1_0 : (⟨S800000, .i32⟩ : BufTy).Contents (Elt F) → (⟨S800000x1, .i32⟩ : BufTy).Contents (Elt F)),
    binary main_v74 main_v81 main_v82 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_21 (constantI S_ 32 0#32),
    unary main_c_21 main_v83 (broadcastInDim S800000 ![] bcast_S_S800000 : (⟨S_, .i32⟩ : BufTy).Contents (Elt F) → (⟨S800000, .i32⟩ : BufTy).Contents (Elt F)),
    binary main_v3 main_v83 main_v84 (cmpi .slt : (⟨S800000, .i32⟩ : BufTy).Contents (Elt F) → (⟨S800000, .i32⟩ : BufTy).Contents (Elt F) → (⟨S800000, .i1⟩ : BufTy).Contents (Elt F)),
    nullary main_c_22 (constantI S_ 32 50000#32),
    unary main_c_22 main_v85 (broadcastInDim S800000 ![] bcast_S_S800000 : (⟨S_, .i32⟩ : BufTy).Contents (Elt F) → (⟨S800000, .i32⟩ : BufTy).Contents (Elt F)),
    binary main_v3 main_v85 main_v86 (addi : (⟨S800000, .i32⟩ : BufTy).Contents (Elt F) → (⟨S800000, .i32⟩ : BufTy).Contents (Elt F) → (⟨S800000, .i32⟩ : BufTy).Contents (Elt F)),
    ternary main_v84 main_v86 main_v3 main_v87 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v87 main_v88 (broadcastInDim S800000x1 ![0] bcast_S800000_S800000x1_0 : (⟨S800000, .i32⟩ : BufTy).Contents (Elt F) → (⟨S800000x1, .i32⟩ : BufTy).Contents (Elt F)),
    binary main_v74 main_v88 main_v89 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v82 main_v89 main_v90 (mulf : (⟨S800000, .f32⟩ : BufTy).Contents (Elt F) → (⟨S800000, .f32⟩ : BufTy).Contents (Elt F) → (⟨S800000, .f32⟩ : BufTy).Contents (Elt F)) ]

set_option maxRecDepth 8192 in
/-- Each touches TensorCore references only. -/
theorem opsE2_sub : (opsE2 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- None allocates a buffer. -/
theorem opsE2_fresh : (opsE2 : List (HloOp τ sig (Elt F))).Forall fun op => op.fresh = ∅ := by
  simp only [List.Forall]; repeat' constructor

set_option maxHeartbeats 4000000 in
/-- The second layer's body. -/
abbrev opsB2 : List (HloOp τ sig (Elt F)) :=
  [ nullary main_cst_23 (constant S_ .f32 0x00000000#32),
    unary main_cst_23 main_v91 (broadcastInDim S50000x128 ![] bcast_S_S50000x128 : (⟨S_, .f32⟩ : BufTy).Contents (Elt F) → (⟨S50000x128, .f32⟩ : BufTy).Contents (Elt F)),
    unary main_v90 main_v92 (broadcastInDim S800000x1 ![0] bcast_S800000_S800000x1_0 : (⟨S800000, .f32⟩ : BufTy).Contents (Elt F) → (⟨S800000x1, .f32⟩ : BufTy).Contents (Elt F)),
    nullary main_c_24 (constantI S_ 32 0#32),
    unary main_c_24 main_v93 (broadcastInDim S800000 ![] bcast_S_S800000 : (⟨S_, .i32⟩ : BufTy).Contents (Elt F) → (⟨S800000, .i32⟩ : BufTy).Contents (Elt F)),
    binary main_v1 main_v93 main_v94 (cmpi .slt : (⟨S800000, .i32⟩ : BufTy).Contents (Elt F) → (⟨S800000, .i32⟩ : BufTy).Contents (Elt F) → (⟨S800000, .i1⟩ : BufTy).Contents (Elt F)),
    nullary main_c_25 (constantI S_ 32 50000#32),
    unary main_c_25 main_v95 (broadcastInDim S800000 ![] bcast_S_S800000 : (⟨S_, .i32⟩ : BufTy).Contents (Elt F) → (⟨S800000, .i32⟩ : BufTy).Contents (Elt F)),
    binary main_v1 main_v95 main_v96 (addi : (⟨S800000, .i32⟩ : BufTy).Contents (Elt F) → (⟨S800000, .i32⟩ : BufTy).Contents (Elt F) → (⟨S800000, .i32⟩ : BufTy).Contents (Elt F)),
    ternary main_v94 main_v96 main_v1 main_v97 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v97 main_v98 (broadcastInDim S800000x1 ![0] bcast_S800000_S800000x1_0 : (⟨S800000, .i32⟩ : BufTy).Contents (Elt F) → (⟨S800000x1, .i32⟩ : BufTy).Contents (Elt F)),
    binary main_v75 main_v98 main_v99 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v92 main_v100 (broadcastInDim S800000x128 ![0, 1] bcast_S800000x1_S800000x128_0_1 : (⟨S800000x1, .f32⟩ : BufTy).Contents (Elt F) → (⟨S800000x128, .f32⟩ : BufTy).Contents (Elt F)),
    binary main_v100 main_v99 main_v101 (mulf : (⟨S800000x128, .f32⟩ : BufTy).Contents (Elt F) → (⟨S800000x128, .f32⟩ : BufTy).Contents (Elt F) → (⟨S800000x128, .f32⟩ : BufTy).Contents (Elt F)),
    nullary main_c_26 (constantI S_ 32 0#32),
    unary main_c_26 main_v102 (broadcastInDim S800000 ![] bcast_S_S800000 : (⟨S_, .i32⟩ : BufTy).Contents (Elt F) → (⟨S800000, .i32⟩ : BufTy).Contents (Elt F)),
    binary main_v3 main_v102 main_v103 (cmpi .slt : (⟨S800000, .i32⟩ : BufTy).Contents (Elt F) → (⟨S800000, .i32⟩ : BufTy).Contents (Elt F) → (⟨S800000, .i1⟩ : BufTy).Contents (Elt F)),
    nullary main_c_27 (constantI S_ 32 50000#32),
    unary main_c_27 main_v104 (broadcastInDim S800000 ![] bcast_S_S800000 : (⟨S_, .i32⟩ : BufTy).Contents (Elt F) → (⟨S800000, .i32⟩ : BufTy).Contents (Elt F)),
    binary main_v3 main_v104 main_v105 (addi : (⟨S800000, .i32⟩ : BufTy).Contents (Elt F) → (⟨S800000, .i32⟩ : BufTy).Contents (Elt F) → (⟨S800000, .i32⟩ : BufTy).Contents (Elt F)),
    ternary main_v103 main_v105 main_v3 main_v106 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v106 main_v107 (broadcastInDim S800000x1 ![0] bcast_S800000_S800000x1_0 : (⟨S800000, .i32⟩ : BufTy).Contents (Elt F) → (⟨S800000x1, .i32⟩ : BufTy).Contents (Elt F)),
    ternary main_v91 main_v107 main_v101 main_v108 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v74 main_v74 main_v109 (mulf : (⟨S50000, .f32⟩ : BufTy).Contents (Elt F) → (⟨S50000, .f32⟩ : BufTy).Contents (Elt F) → (⟨S50000, .f32⟩ : BufTy).Contents (Elt F)),
    unary main_v109 main_v110 (broadcastInDim S50000x1 ![0] bcast_S50000_S50000x1_0 : (⟨S50000, .f32⟩ : BufTy).Contents (Elt F) → (⟨S50000x1, .f32⟩ : BufTy).Contents (Elt F)),
    unary main_v110 main_v111 (broadcastInDim S50000x128 ![0, 1] bcast_S50000x1_S50000x128_0_1 : (⟨S50000x1, .f32⟩ : BufTy).Contents (Elt F) → (⟨S50000x128, .f32⟩ : BufTy).Contents (Elt F)),
    binary main_v111 main_v75 main_v112 (mulf : (⟨S50000x128, .f32⟩ : BufTy).Contents (Elt F) → (⟨S50000x128, .f32⟩ : BufTy).Contents (Elt F) → (⟨S50000x128, .f32⟩ : BufTy).Contents (Elt F)),
    binary main_v108 main_v112 main_v113 (addf : (⟨S50000x128, .f32⟩ : BufTy).Contents (Elt F) → (⟨S50000x128, .f32⟩ : BufTy).Contents (Elt F) → (⟨S50000x128, .f32⟩ : BufTy).Contents (Elt F)),
    unary main_arg5 main_v114 (broadcastInDim S1x128 ![1] bcast_S128_S1x128_1 : (⟨S128, .f32⟩ : BufTy).Contents (Elt F) → (⟨S1x128, .f32⟩ : BufTy).Contents (Elt F)),
    unary main_v114 main_v115 (broadcastInDim S50000x128 ![0, 1] bcast_S1x128_S50000x128_0_1 : (⟨S1x128, .f32⟩ : BufTy).Contents (Elt F) → (⟨S50000x128, .f32⟩ : BufTy).Contents (Elt F)),
    binary main_v113 main_v115 main_v116 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v116) (TRef.of (T := ⟨S50000x128, .f32⟩) main_call1_v0) (TRef.of (T := ⟨S50000x128, .f32⟩) main_v117) maximumf ]

set_option maxRecDepth 8192 in
/-- Each touches TensorCore references only. -/
theorem opsB2_sub : (opsB2 : List (HloOp τ sig (Elt F))).Forall fun op => op.bufs ⊆ tcRefs τ sig :=
  ⟨nullary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩

/-- None allocates a buffer. -/
theorem opsB2_fresh : (opsB2 : List (HloOp τ sig (Elt F))).Forall fun op => op.fresh = ∅ := by
  simp only [List.Forall]; repeat' constructor

set_option maxHeartbeats 4000000 in
/-- The third layer's edge arrays, and the product of the second layer's output with the third weight matrix. -/
abbrev opsE3 : List (HloOp τ sig (Elt F)) :=
  [ nullary main_cst_28 (constant S_ .f32 0x00000000#32),
    unary main_cst_28 main_v118 (broadcastInDim S50000 ![] bcast_S_S50000 : (⟨S_, .f32⟩ : BufTy).Contents (Elt F) → (⟨S50000, .f32⟩ : BufTy).Contents (Elt F)),
    nullary main_c_29 (constantI S_ 32 0#32),
    unary main_c_29 main_v119 (broadcastInDim S800000 ![] bcast_S_S800000 : (⟨S_, .i32⟩ : BufTy).Contents (Elt F) → (⟨S800000, .i32⟩ : BufTy).Contents (Elt F)),
    binary main_v3 main_v119 main_v120 (cmpi .slt : (⟨S800000, .i32⟩ : BufTy).Contents (Elt F) → (⟨S800000, .i32⟩ : BufTy).Contents (Elt F) → (⟨S800000, .i1⟩ : BufTy).Contents (Elt F)),
    nullary main_c_30 (constantI S_ 32 50000#32),
    unary main_c_30 main_v121 (broadcastInDim S800000 ![] bcast_S_S800000 : (⟨S_, .i32⟩ : BufTy).Contents (Elt F) → (⟨S800000, .i32⟩ : BufTy).Contents (Elt F)),
    binary main_v3 main_v121 main_v122 (addi : (⟨S800000, .i32⟩ : BufTy).Contents (Elt F) → (⟨S800000, .i32⟩ : BufTy).Contents (Elt F) → (⟨S800000, .i32⟩ : BufTy).Contents (Elt F)),
    ternary main_v120 main_v122 main_v3 main_v123 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v123 main_v124 (broadcastInDim S800000x1 ![0] bcast_S800000_S800000x1_0 : (⟨S800000, .i32⟩ : BufTy).Contents (Elt F) → (⟨S800000x1, .i32⟩ : BufTy).Contents (Elt F)),
    nullary main_cst_31 (constant S_ .f32 0x3F800000#32),
    unary main_cst_31 main_v125 (broadcastInDim S800000 ![] bcast_S_S800000 : (⟨S_, .f32⟩ : BufTy).Contents (Elt F) → (⟨S800000, .f32⟩ : BufTy).Contents (Elt F)),
    ternary main_v118 main_v124 main_v125 main_v126 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_32 (constant S_ .f32 0x3F800000#32),
    unary main_cst_32 main_v127 (broadcastInDim S50000 ![] bcast_S_S50000 : (⟨S_, .f32⟩ : BufTy).Contents (Elt F) → (⟨S50000, .f32⟩ : BufTy).Contents (Elt F)),
    binary main_v126 main_v127 main_v128 (addf : (⟨S50000, .f32⟩ : BufTy).Contents (Elt F) → (⟨S50000, .f32⟩ : BufTy).Contents (Elt F) → (⟨S50000, .f32⟩ : BufTy).Contents (Elt F)),
    unary main_v128 main_v129 (Host.sqrt : (⟨S50000, .f32⟩ : BufTy).Contents (Elt F) → (⟨S50000, .f32⟩ : BufTy).Contents (Elt F)),
    nullary main_cst_33 (constant S_ .f32 0x3F800000#32),
    unary main_cst_33 main_v130 (broadcastInDim S50000 ![] bcast_S_S50000 : (⟨S_, .f32⟩ : BufTy).Contents (Elt F) → (⟨S50000, .f32⟩ : BufTy).Contents (Elt F)),
    binary main_v130 main_v129 main_v131 (Host.divf : (⟨S50000, .f32⟩ : BufTy).Contents (Elt F) → (⟨S50000, .f32⟩ : BufTy).Contents (Elt F) → (⟨S50000, .f32⟩ : BufTy).Contents (Elt F)),
    binary main_v117 main_arg6 main_v132 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    nullary main_c_34 (constantI S_ 32 0#32),
    unary main_c_34 main_v133 (broadcastInDim S800000 ![] bcast_S_S800000 : (⟨S_, .i32⟩ : BufTy).Contents (Elt F) → (⟨S800000, .i32⟩ : BufTy).Contents (Elt F)),
    binary main_v1 main_v133 main_v134 (cmpi .slt : (⟨S800000, .i32⟩ : BufTy).Contents (Elt F) → (⟨S800000, .i32⟩ : BufTy).Contents (Elt F) → (⟨S800000, .i1⟩ : BufTy).Contents (Elt F)),
    nullary main_c_35 (constantI S_ 32 50000#32),
    unary main_c_35 main_v135 (broadcastInDim S800000 ![] bcast_S_S800000 : (⟨S_, .i32⟩ : BufTy).Contents (Elt F) → (⟨S800000, .i32⟩ : BufTy).Contents (Elt F)),
    binary main_v1 main_v135 main_v136 (addi : (⟨S800000, .i32⟩ : BufTy).Contents (Elt F) → (⟨S800000, .i32⟩ : BufTy).Contents (Elt F) → (⟨S800000, .i32⟩ : BufTy).Contents (Elt F)),
    ternary main_v134 main_v136 main_v1 main_v137 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v137 main_v138 (broadcastInDim S800000x1 ![0] bcast_S800000_S800000x1_0 : (⟨S800000, .i32⟩ : BufTy).Contents (Elt F) → (⟨S800000x1, .i32⟩ : BufTy).Contents (Elt F)),
    binary main_v131 main_v138 main_v139 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_36 (constantI S_ 32 0#32),
    unary main_c_36 main_v140 (broadcastInDim S800000 ![] bcast_S_S800000 : (⟨S_, .i32⟩ : BufTy).Contents (Elt F) → (⟨S800000, .i32⟩ : BufTy).Contents (Elt F)),
    binary main_v3 main_v140 main_v141 (cmpi .slt : (⟨S800000, .i32⟩ : BufTy).Contents (Elt F) → (⟨S800000, .i32⟩ : BufTy).Contents (Elt F) → (⟨S800000, .i1⟩ : BufTy).Contents (Elt F)),
    nullary main_c_37 (constantI S_ 32 50000#32),
    unary main_c_37 main_v142 (broadcastInDim S800000 ![] bcast_S_S800000 : (⟨S_, .i32⟩ : BufTy).Contents (Elt F) → (⟨S800000, .i32⟩ : BufTy).Contents (Elt F)),
    binary main_v3 main_v142 main_v143 (addi : (⟨S800000, .i32⟩ : BufTy).Contents (Elt F) → (⟨S800000, .i32⟩ : BufTy).Contents (Elt F) → (⟨S800000, .i32⟩ : BufTy).Contents (Elt F)),
    ternary main_v141 main_v143 main_v3 main_v144 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v144 main_v145 (broadcastInDim S800000x1 ![0] bcast_S800000_S800000x1_0 : (⟨S800000, .i32⟩ : BufTy).Contents (Elt F) → (⟨S800000x1, .i32⟩ : BufTy).Contents (Elt F)),
    binary main_v131 main_v145 main_v146 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v139 main_v146 main_v147 (mulf : (⟨S800000, .f32⟩ : BufTy).Contents (Elt F) → (⟨S800000, .f32⟩ : BufTy).Contents (Elt F) → (⟨S800000, .f32⟩ : BufTy).Contents (Elt F)) ]

set_option maxRecDepth 8192 in
/-- Each touches TensorCore references only. -/
theorem opsE3_sub : (opsE3 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- None allocates a buffer. -/
theorem opsE3_fresh : (opsE3 : List (HloOp τ sig (Elt F))).Forall fun op => op.fresh = ∅ := by
  simp only [List.Forall]; repeat' constructor

set_option maxHeartbeats 4000000 in
/-- The third layer's body: aggregate, bias, and the logarithm of the row softmax. -/
abbrev opsB3 : List (HloOp τ sig (Elt F)) :=
  [ nullary main_cst_38 (constant S_ .f32 0x00000000#32),
    unary main_cst_38 main_v148 (broadcastInDim S50000x40 ![] bcast_S_S50000x40 : (⟨S_, .f32⟩ : BufTy).Contents (Elt F) → (⟨S50000x40, .f32⟩ : BufTy).Contents (Elt F)),
    unary main_v147 main_v149 (broadcastInDim S800000x1 ![0] bcast_S800000_S800000x1_0 : (⟨S800000, .f32⟩ : BufTy).Contents (Elt F) → (⟨S800000x1, .f32⟩ : BufTy).Contents (Elt F)),
    nullary main_c_39 (constantI S_ 32 0#32),
    unary main_c_39 main_v150 (broadcastInDim S800000 ![] bcast_S_S800000 : (⟨S_, .i32⟩ : BufTy).Contents (Elt F) → (⟨S800000, .i32⟩ : BufTy).Contents (Elt F)),
    binary main_v1 main_v150 main_v151 (cmpi .slt : (⟨S800000, .i32⟩ : BufTy).Contents (Elt F) → (⟨S800000, .i32⟩ : BufTy).Contents (Elt F) → (⟨S800000, .i1⟩ : BufTy).Contents (Elt F)),
    nullary main_c_40 (constantI S_ 32 50000#32),
    unary main_c_40 main_v152 (broadcastInDim S800000 ![] bcast_S_S800000 : (⟨S_, .i32⟩ : BufTy).Contents (Elt F) → (⟨S800000, .i32⟩ : BufTy).Contents (Elt F)),
    binary main_v1 main_v152 main_v153 (addi : (⟨S800000, .i32⟩ : BufTy).Contents (Elt F) → (⟨S800000, .i32⟩ : BufTy).Contents (Elt F) → (⟨S800000, .i32⟩ : BufTy).Contents (Elt F)),
    ternary main_v151 main_v153 main_v1 main_v154 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v154 main_v155 (broadcastInDim S800000x1 ![0] bcast_S800000_S800000x1_0 : (⟨S800000, .i32⟩ : BufTy).Contents (Elt F) → (⟨S800000x1, .i32⟩ : BufTy).Contents (Elt F)),
    binary main_v132 main_v155 main_v156 ((fun x i => Host.gather gather_S50000x40_S800000x1_S800000x40_1_0_n_n_0_1_140 x i) : (⟨S50000x40, .f32⟩ : BufTy).Contents (Elt F) → (⟨S800000x1, .i32⟩ : BufTy).Contents (Elt F) → (⟨S800000x40, .f32⟩ : BufTy).Contents (Elt F)),
    unary main_v149 main_v157 (broadcastInDim S800000x40 ![0, 1] bcast_S800000x1_S800000x40_0_1 : (⟨S800000x1, .f32⟩ : BufTy).Contents (Elt F) → (⟨S800000x40, .f32⟩ : BufTy).Contents (Elt F)),
    binary main_v157 main_v156 main_v158 (mulf : (⟨S800000x40, .f32⟩ : BufTy).Contents (Elt F) → (⟨S800000x40, .f32⟩ : BufTy).Contents (Elt F) → (⟨S800000x40, .f32⟩ : BufTy).Contents (Elt F)),
    nullary main_c_41 (constantI S_ 32 0#32),
    unary main_c_41 main_v159 (broadcastInDim S800000 ![] bcast_S_S800000 : (⟨S_, .i32⟩ : BufTy).Contents (Elt F) → (⟨S800000, .i32⟩ : BufTy).Contents (Elt F)),
    binary main_v3 main_v159 main_v160 (cmpi .slt : (⟨S800000, .i32⟩ : BufTy).Contents (Elt F) → (⟨S800000, .i32⟩ : BufTy).Contents (Elt F) → (⟨S800000, .i1⟩ : BufTy).Contents (Elt F)),
    nullary main_c_42 (constantI S_ 32 50000#32),
    unary main_c_42 main_v161 (broadcastInDim S800000 ![] bcast_S_S800000 : (⟨S_, .i32⟩ : BufTy).Contents (Elt F) → (⟨S800000, .i32⟩ : BufTy).Contents (Elt F)),
    binary main_v3 main_v161 main_v162 (addi : (⟨S800000, .i32⟩ : BufTy).Contents (Elt F) → (⟨S800000, .i32⟩ : BufTy).Contents (Elt F) → (⟨S800000, .i32⟩ : BufTy).Contents (Elt F)),
    ternary main_v160 main_v162 main_v3 main_v163 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v163 main_v164 (broadcastInDim S800000x1 ![0] bcast_S800000_S800000x1_0 : (⟨S800000, .i32⟩ : BufTy).Contents (Elt F) → (⟨S800000x1, .i32⟩ : BufTy).Contents (Elt F)),
    ternary main_v148 main_v164 main_v158 main_v165 ((fun x i u => Host.scatterAdd scatter_S50000x40_S800000x1_S800000x40_1_0_0_1 x i u) : (⟨S50000x40, .f32⟩ : BufTy).Contents (Elt F) → (⟨S800000x1, .i32⟩ : BufTy).Contents (Elt F) → (⟨S800000x40, .f32⟩ : BufTy).Contents (Elt F) → (⟨S50000x40, .f32⟩ : BufTy).Contents (Elt F)),
    binary main_v131 main_v131 main_v166 (mulf : (⟨S50000, .f32⟩ : BufTy).Contents (Elt F) → (⟨S50000, .f32⟩ : BufTy).Contents (Elt F) → (⟨S50000, .f32⟩ : BufTy).Contents (Elt F)),
    unary main_v166 main_v167 (broadcastInDim S50000x1 ![0] bcast_S50000_S50000x1_0 : (⟨S50000, .f32⟩ : BufTy).Contents (Elt F) → (⟨S50000x1, .f32⟩ : BufTy).Contents (Elt F)),
    unary main_v167 main_v168 (broadcastInDim S50000x40 ![0, 1] bcast_S50000x1_S50000x40_0_1 : (⟨S50000x1, .f32⟩ : BufTy).Contents (Elt F) → (⟨S50000x40, .f32⟩ : BufTy).Contents (Elt F)),
    binary main_v168 main_v132 main_v169 (mulf : (⟨S50000x40, .f32⟩ : BufTy).Contents (Elt F) → (⟨S50000x40, .f32⟩ : BufTy).Contents (Elt F) → (⟨S50000x40, .f32⟩ : BufTy).Contents (Elt F)),
    binary main_v165 main_v169 main_v170 (addf : (⟨S50000x40, .f32⟩ : BufTy).Contents (Elt F) → (⟨S50000x40, .f32⟩ : BufTy).Contents (Elt F) → (⟨S50000x40, .f32⟩ : BufTy).Contents (Elt F)),
    unary main_arg7 main_v171 (broadcastInDim S1x40 ![1] bcast_S40_S1x40_1 : (⟨S40, .f32⟩ : BufTy).Contents (Elt F) → (⟨S1x40, .f32⟩ : BufTy).Contents (Elt F)),
    unary main_v171 main_v172 (broadcastInDim S50000x40 ![0, 1] bcast_S1x40_S50000x40_0_1 : (⟨S1x40, .f32⟩ : BufTy).Contents (Elt F) → (⟨S50000x40, .f32⟩ : BufTy).Contents (Elt F)),
    binary main_v170 main_v172 main_v173 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call2_cst) (constant S_ .f32 0xFF800000#32),
    TRef.binary (TRef.of (T := ⟨S50000x40, .f32⟩) main_v173) (TRef.of (T := ⟨S_, .f32⟩) main_call2_cst) (TRef.of (T := ⟨S50000, .f32⟩) main_call2_v0) (fun x v => Host.reduce FloatOps.maximumf x v reducesTo_S50000x40_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x40, .f32⟩) main_call2_v4) (broadcastInDim S50000x40 ![0, 1] bcast_S50000x1_S50000x40_0_1),
    TRef.binary (TRef.of (T := ⟨S50000x40, .f32⟩) main_v173) (TRef.of (T := ⟨S50000x40, .f32⟩) main_call2_v4) (TRef.of (T := ⟨S50000x40, .f32⟩) main_call2_v5) subf,
    TRef.unary (TRef.of (T := ⟨S50000x40, .f32⟩) main_call2_v5) (TRef.of (T := ⟨S50000x40, .f32⟩) main_call2_v6) Host.exp,
    TRef.nullary (TRef.of (T := ⟨S_, .f32⟩) main_call2_cst_1) (constant S_ .f32 0x00000000#32),
    TRef.binary (TRef.of (T := ⟨S50000x40, .f32⟩) main_call2_v6) (TRef.of (T := ⟨S_, .f32⟩) main_call2_cst_1) (TRef.of (T := ⟨S50000, .f32⟩) main_call2_v7) (fun x v => Host.reduceAdd x v reducesTo_S50000x40_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x40, .f32⟩) main_call2_v10) (broadcastInDim S50000x40 ![0, 1] bcast_S50000x1_S50000x40_0_1),
    TRef.binary (TRef.of (T := ⟨S50000x40, .f32⟩) main_call2_v5) (TRef.of (T := ⟨S50000x40, .f32⟩) main_call2_v10) (TRef.of (T := ⟨S50000x40, .f32⟩) main_v174) subf ]

set_option maxRecDepth 8192 in
/-- Each touches TensorCore references only. -/
theorem opsB3_sub : (opsB3 : List (HloOp τ sig (Elt F))).Forall fun op => op.bufs ⊆ tcRefs τ sig :=
  ⟨nullary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- None allocates a buffer. -/
theorem opsB3_fresh : (opsB3 : List (HloOp τ sig (Elt F))).Forall fun op => op.fresh = ∅ := by
  simp only [List.Forall]; repeat' constructor

/-- @main's operations, in order. -/
abbrev ops : List (HloOp τ sig (Elt F)) := opsE1 ++ (opsB1 ++ (opsE2 ++ (opsB2 ++ (opsE3 ++ opsB3))))

set_option maxRecDepth 16384 in
set_option maxHeartbeats 8000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    rcases List.mem_append.mp h with h | h
    · exact List.forall_iff_forall_mem.mp opsE1_sub op h
    rcases List.mem_append.mp h with h | h
    · exact List.forall_iff_forall_mem.mp opsB1_sub op h
    rcases List.mem_append.mp h with h | h
    · exact List.forall_iff_forall_mem.mp opsE2_sub op h
    rcases List.mem_append.mp h with h | h
    · exact List.forall_iff_forall_mem.mp opsB2_sub op h
    rcases List.mem_append.mp h with h | h
    · exact List.forall_iff_forall_mem.mp opsE3_sub op h
    · exact List.forall_iff_forall_mem.mp opsB3_sub op h

theorem ops_fresh : ∀ op ∈ (ops : List (HloOp τ sig (Elt F))), op.fresh = ∅ := fun op h => by
    rcases List.mem_append.mp h with h | h
    · exact List.forall_iff_forall_mem.mp opsE1_fresh op h
    rcases List.mem_append.mp h with h | h
    · exact List.forall_iff_forall_mem.mp opsB1_fresh op h
    rcases List.mem_append.mp h with h | h
    · exact List.forall_iff_forall_mem.mp opsE2_fresh op h
    rcases List.mem_append.mp h with h | h
    · exact List.forall_iff_forall_mem.mp opsB2_fresh op h
    rcases List.mem_append.mp h with h | h
    · exact List.forall_iff_forall_mem.mp opsE3_fresh op h
    · exact List.forall_iff_forall_mem.mp opsB3_fresh op h

variable (m : (ℓ : Loc nD τ sig) → Buf (Elt F) ℓ)

/-- The buffers after the first layer's edge arrays. -/
def C1 (d : Dev nD) : Valuation τ sig (Elt F) := after opsE1 (launchContents m d)
/-- The buffers after the first layer. -/
def C2 (d : Dev nD) : Valuation τ sig (Elt F) := after opsB1 (C1 m d)
/-- The buffers after the second layer's edge arrays. -/
def C3 (d : Dev nD) : Valuation τ sig (Elt F) := after opsE2 (C2 m d)
/-- The buffers after the second layer. -/
def C4 (d : Dev nD) : Valuation τ sig (Elt F) := after opsB2 (C3 m d)
/-- The buffers after the third layer's edge arrays. -/
def C5 (d : Dev nD) : Valuation τ sig (Elt F) := after opsE3 (C4 m d)
/-- The buffers after the third layer: at the return. -/
def C6 (d : Dev nD) : Valuation τ sig (Elt F) := after opsB3 (C5 m d)

/-- Every weakly fair execution of @main terminates with every buffer at the contents the six parts leave, one
    after the other. -/
theorem run_all (ρ : Dev nD → PrngReg) :
    θ_run defs (onTc (τ := τ) (main (F := F))) ⟨m, fun _ => 0, ρ⟩ fun r =>
      ∀ (d : Dev nD) (b : Ref sig .tc), r.2.mem ((d.tc : Thread nD τ).loc b) = C6 m d (Proc.devRef .tc b) :=
  (θ_run defs _ _).mono (fun r h d b => by
      rw [h d b]
      show after (opsE1 ++ (opsB1 ++ (opsE2 ++ (opsB2 ++ (opsE3 ++ opsB3))))) (launchContents m d) (Proc.devRef .tc b) = _
      rw [after_append, after_append, after_append, after_append, after_append]
      rfl)
    (run_seq scopedRefs_eq scopedSems_eq defs main (fun _ => ops) main_eq (fun _ => ops_sub) m ρ (fun _ => ops_fresh))

end Cert.ReferenceIdeal.RefOps

end
-- ==== Proof.RefValue.lean ====
/-
  The reference's result, named: three graph layers and the logarithm of a row softmax.

  From the edge list the reference forms, in each of its three layers anew, the two columns of wrapped node numbers, the
  degree of every node (one plus the number of edges landing on it), its inverse square root, the edge weights (the
  product of the inverse square roots at an edge's two ends) and the self weights (its square).  A layer multiplies the
  current features by its weight matrix, aggregates the products along the edges with those weights and adds the weighted
  self rows, and adds its bias row to every row.  After the first and the second layer it takes the maximum with zero; after
  the third, the logarithm of the row softmax.

  Here each of these pieces is given a name, spelt operation for operation as the reference spells it, with the
  reference's own records and shape facts, and the whole network is their composition ("outR"), a function of the eight
  argument arrays.  The aggregate is read at an entry as a sum over the edges that land on the node plus the self term
  ("agg128R_apply", "agg40R_apply"), and the last piece is the logarithm of the row softmax of the mathematics ("lsmR_eq").
-/
import proofs.«103093_j44641890074931_1_alg».proof.ReferenceIdeal
import proofs.«103093_j44641890074931_1_alg».proof.Proof.Gen.ReferenceIdeal
import proofs.«103093_j44641890074931_1_alg».proof.Proof.GcnArr
import proofs.«103093_j44641890074931_1_alg».proof.Proof.LibLogSoftmaxRows

set_option maxRecDepth 16384

noncomputable section

open scoped BigOperators

namespace Cert.ReferenceIdeal.RefValue

open Cert.ReferenceIdeal Cert.ReferenceIdeal.Gen
open Idealize.ShloMosaic
open Idealize.ShloMosaic.ValueIdx

/-! ## The edge arrays, as functions of the edge list -/

/-- The source node numbers: row 0 of the edge list. -/
def rowR (ei : IVec S2x800000 32) : IVec S800000 32 :=
  shapeCast S800000 (extractStridedSlice S1x800000 ![0, 0] ei slices_S2x800000_S1x800000_0_0) shapeCasts_S1x800000_S800000

/-- The target node numbers: row 1 of the edge list. -/
def colR (ei : IVec S2x800000 32) : IVec S800000 32 :=
  shapeCast S800000 (extractStridedSlice S1x800000 ![1, 0] ei slices_S2x800000_S1x800000_1_0) shapeCasts_S1x800000_S800000

/-- Node numbers with the negative ones moved up by the number of nodes, set as one column. -/
def wrapColR (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- One over the square root of a node's degree (one plus the number of edges landing on it). -/
def dinvR (ei : IVec S2x800000 32) : FVec Ideal S50000 .f32 :=
  Host.divf (broadcastInDim S50000 ![] bcast_S_S50000 (constant S_ .f32 0x3F800000#32))
    (Host.sqrt (addf
      (Host.scatterAdd scatter_S50000_S800000x1_S800000_n_0_0_1
        (broadcastInDim S50000 ![] bcast_S_S50000 (constant S_ .f32 0x00000000#32)) (wrapColR (colR ei))
        (broadcastInDim S800000 ![] bcast_S_S800000 (constant S_ .f32 0x3F800000#32)))
      (broadcastInDim S50000 ![] bcast_S_S50000 (constant S_ .f32 0x3F800000#32))))

/-- An edge's weight: the product of the inverse square roots of the degrees at its two ends. -/
def normR (ei : IVec S2x800000 32) : FVec Ideal S800000 .f32 :=
  mulf (Host.gather gather_S50000_S800000x1_S800000_n_0_n_n_0_1_1 (dinvR ei) (wrapColR (rowR ei)))
    (Host.gather gather_S50000_S800000x1_S800000_n_0_n_n_0_1_1 (dinvR ei) (wrapColR (colR ei)))

/-- A node's self weight: one over its degree. -/
def selfR (ei : IVec S2x800000 32) : FVec Ideal S50000 .f32 := mulf (dinvR ei) (dinvR ei)

/-! ## The pieces of a layer -/

/-- The aggregate of a feature array of 128 columns along this edge list. -/
abbrev agg128R (ei : IVec S2x800000 32) (h : FVec Ideal S50000x128 .f32) : FVec Ideal S50000x128 .f32 :=
  Gcn.Arr.aggArr gather_S50000x128_S800000x1_S800000x128_1_0_n_n_0_1_1128 scatter_S50000x128_S800000x1_S800000x128_1_0_0_1
    bcast_S_S50000x128 bcast_S800000_S800000x1_0 bcast_S800000x1_S800000x128_0_1 bcast_S50000_S50000x1_0
    bcast_S50000x1_S50000x128_0_1 (wrapColR (rowR ei)) (wrapColR (colR ei)) (normR ei) (selfR ei) h

/-- The aggregate of a feature array of 40 columns along this edge list. -/
abbrev agg40R (ei : IVec S2x800000 32) (h : FVec Ideal S50000x40 .f32) : FVec Ideal S50000x40 .f32 :=
  Gcn.Arr.aggArr gather_S50000x40_S800000x1_S800000x40_1_0_n_n_0_1_140 scatter_S50000x40_S800000x1_S800000x40_1_0_0_1
    bcast_S_S50000x40 bcast_S800000_S800000x1_0 bcast_S800000x1_S800000x40_0_1 bcast_S50000_S50000x1_0
    bcast_S50000x1_S50000x40_0_1 (wrapColR (rowR ei)) (wrapColR (colR ei)) (normR ei) (selfR ei) h

/-- The maximum with zero, entry by entry. -/
def reluR (x : FVec Ideal S50000x128 .f32) : FVec Ideal S50000x128 .f32 :=
  maximumf x (broadcastInDim S50000x128 ![] bcast_S_S50000x128 (constant S_ .f32 0x00000000#32))

/-- A bias vector of 128 entries repeated on every row. -/
def bias128R (b : FVec Ideal S128 .f32) : FVec Ideal S50000x128 .f32 :=
  broadcastInDim S50000x128 ![0, 1] bcast_S1x128_S50000x128_0_1 (broadcastInDim S1x128 ![1] bcast_S128_S1x128_1 b)

/-- A bias vector of 40 entries repeated on every row. -/
def bias40R (b : FVec Ideal S40 .f32) : FVec Ideal S50000x40 .f32 :=
  broadcastInDim S50000x40 ![0, 1] bcast_S1x40_S50000x40_0_1 (broadcastInDim S1x40 ![1] bcast_S40_S1x40_1 b)

/-- The logarithm of a row softmax as the reference spells it: each row's maximum from −∞ (and once more against a splat
    of −∞), subtracted; the exponentials summed along the row from zero; the logarithm of the sum subtracted. -/
def lsmR (z : FVec Ideal S50000x40 .f32) : FVec Ideal S50000x40 .f32 :=
  subf (subf z (broadcastInDim S50000x40 ![0, 1] bcast_S50000x1_S50000x40_0_1 (broadcastInDim S50000x1 ![0] bcast_S50000_S50000x1_0
      (maximumf (broadcastInDim S50000 ![] bcast_S_S50000 (constant S_ .f32 0xFF800000#32))
        (Host.reduce FloatOps.maximumf z (constant S_ .f32 0xFF800000#32) reducesTo_S50000x40_S50000_d1 h_S_)))))
    (broadcastInDim S50000x40 ![0, 1] bcast_S50000x1_S50000x40_0_1 (Host.log (broadcastInDim S50000x1 ![0] bcast_S50000_S50000x1_0
      (Host.reduceAdd (Host.exp (subf z (broadcastInDim S50000x40 ![0, 1] bcast_S50000x1_S50000x40_0_1
          (broadcastInDim S50000x1 ![0] bcast_S50000_S50000x1_0
            (maximumf (broadcastInDim S50000 ![] bcast_S_S50000 (constant S_ .f32 0xFF800000#32))
              (Host.reduce FloatOps.maximumf z (constant S_ .f32 0xFF800000#32) reducesTo_S50000x40_S50000_d1 h_S_))))))
        (constant S_ .f32 0x00000000#32) reducesTo_S50000x40_S50000_d1 h_S_))))

/-! ## The layers, and the whole network -/

/-- The features after the first layer: the aggregate of the features times the first matrix, plus the first bias, floored
    at zero. -/
def H1R (x : FVec Ideal S50000x128 .f32) (ei : IVec S2x800000 32) (W1 : FVec Ideal S128x128 .f32) (b1 : FVec Ideal S128 .f32) :
    FVec Ideal S50000x128 .f32 :=
  reluR (addf (agg128R ei (Host.dotGeneral dot_S50000x128_S128x128_S50000x128_1_0_0_1_n_n none x W1)) (bias128R b1))

/-- The features after the second layer: the same with the first layer's output, the second matrix and the second bias. -/
def H2R (x : FVec Ideal S50000x128 .f32) (ei : IVec S2x800000 32) (W1 : FVec Ideal S128x128 .f32) (b1 : FVec Ideal S128 .f32)
    (W2 : FVec Ideal S128x128 .f32) (b2 : FVec Ideal S128 .f32) : FVec Ideal S50000x128 .f32 :=
  reluR (addf (agg128R ei (Host.dotGeneral dot_S50000x128_S128x128_S50000x128_1_0_0_1_n_n none (H1R x ei W1 b1) W2))
    (bias128R b2))

/-- The whole network: the logarithm of the row softmax of the third layer's aggregate plus bias, over the features the
    first two layers leave. -/
def outR (x : FVec Ideal S50000x128 .f32) (ei : IVec S2x800000 32) (W1 : FVec Ideal S128x128 .f32) (b1 : FVec Ideal S128 .f32)
    (W2 : FVec Ideal S128x128 .f32) (b2 : FVec Ideal S128 .f32) (W3 : FVec Ideal S128x40 .f32) (b3 : FVec Ideal S40 .f32) :
    FVec Ideal S50000x40 .f32 :=
  lsmR (addf (agg40R ei (Host.dotGeneral dot_S50000x128_S128x40_S50000x40_1_0_0_1_n_n none (H2R x ei W1 b1 W2 b2) W3))
    (bias40R b3))

/-! ## The aggregate at an entry -/

/-- Entry (n, o) of the 128-column aggregate: the weighted rows of the edges landing on n, plus the weighted self row. -/
theorem agg128R_apply (ei : IVec S2x800000 32) (h : FVec Ideal S50000x128 .f32) (n : Fin 50000) (o : Fin 128) :
    agg128R ei h (ix2 n o)
      = (∑ e : Fin 800000, if Gcn.Arr.hitOf (wrapColR (colR ei)) e n
            then normR ei (ix1 e) * h (ix2 (Gcn.Arr.srcOf (by decide : 0 < 50000) (wrapColR (rowR ei)) e) o) else 0)
        + selfR ei (ix1 n) * h (ix2 n o) :=
  Gcn.Arr.aggArr_apply (by decide : 0 < 50000) _ rfl rfl rfl rfl rfl rfl rfl _ rfl rfl rfl rfl _ _ _ _ _ _ _ _ _ _ n o

/-- Entry (n, o) of the 40-column aggregate. -/
theorem agg40R_apply (ei : IVec S2x800000 32) (h : FVec Ideal S50000x40 .f32) (n : Fin 50000) (o : Fin 40) :
    agg40R ei h (ix2 n o)
      = (∑ e : Fin 800000, if Gcn.Arr.hitOf (wrapColR (colR ei)) e n
            then normR ei (ix1 e) * h (ix2 (Gcn.Arr.srcOf (by decide : 0 < 50000) (wrapColR (rowR ei)) e) o) else 0)
        + selfR ei (ix1 n) * h (ix2 n o) :=
  Gcn.Arr.aggArr_apply (by decide : 0 < 50000) _ rfl rfl rfl rfl rfl rfl rfl _ rfl rfl rfl rfl _ _ _ _ _ _ _ _ _ _ n o

/-! ## The last piece is the logarithm of the row softmax -/

/-- The reduction along each row drops the column axis and keeps the one row axis. -/
theorem reduces_rows : S50000x40.Reduces [1] S50000 :=
  ⟨reducesTo_S50000x40_S50000_d1.1, Nat.one_pos, reducesTo_S50000x40_S50000_d1.2⟩

/-- The reference's spelling of the logarithm of a row softmax is the logarithm of the row softmax. -/
theorem lsmR_eq (z : FVec Ideal S50000x40 .f32) : lsmR z = Gcn.Layers.logSoftmaxRows z := by
  unfold lsmR
  exact Gcn.SoftmaxOps.host_logSoftmaxRows reducesTo_S50000x40_S50000_d1 reduces_rows h_S_ bcast_S_S50000
    bcast_S50000_S50000x1_0 bcast_S50000x1_S50000x40_0_1 z

end Cert.ReferenceIdeal.RefValue

end
-- ==== Proof.RefE1.lean ====
/-
  The reference's first layer, first part: the two node-number vectors, the degrees' inverse square roots, the edge
  weights, and the product of the input features with the first weight matrix.
-/
import proofs.«103093_j44641890074931_1_alg».proof.Proof.RefOps
import proofs.«103093_j44641890074931_1_alg».proof.Proof.RefValue

set_option maxRecDepth 16384

noncomputable section

namespace Cert.ReferenceIdeal.RefRun

open Cert.ReferenceIdeal Cert.ReferenceIdeal.Gen Cert.ReferenceIdeal.RefOps Cert.ReferenceIdeal.RefValue
open Idealize.ShloMosaic Idealize.ShloMosaic.TcCoe Idealize.SL.Sem Idealize.ShloMosaic.StableHlo

variable (m : (ℓ : Loc nD τ sig) → Buf (Elt Ideal) ℓ) (d : Dev nD)

theorem C1_v1 : C1 m d (Proc.devRef .tc main_v1) = rowR (m ((d.tc : Thread nD τ).loc main_arg1)) := by
  unfold C1; after_results_simp; rfl

theorem C1_v3 : C1 m d (Proc.devRef .tc main_v3) = colR (m ((d.tc : Thread nD τ).loc main_arg1)) := by
  unfold C1; after_results_simp; rfl

theorem C1_v17 : C1 m d (Proc.devRef .tc main_v17) = dinvR (m ((d.tc : Thread nD τ).loc main_arg1)) := by
  unfold C1; after_results_simp; rfl

theorem C1_v33 : C1 m d (Proc.devRef .tc main_v33) = normR (m ((d.tc : Thread nD τ).loc main_arg1)) := by
  unfold C1; after_results_simp; rfl

theorem C1_v18 : (C1 m d (Proc.devRef .tc main_v18) : FVec Ideal S50000x128 .f32) = (Host.dotGeneral (F := Ideal) (φ₁ := .f32) (φ₂ := .f32) dot_S50000x128_S128x128_S50000x128_1_0_0_1_n_n none (m ((d.tc : Thread nD τ).loc main_arg0) : FVec Ideal S50000x128 .f32) (m ((d.tc : Thread nD τ).loc main_arg2) : FVec Ideal S128x128 .f32) : FVec Ideal S50000x128 .f32) := by
  unfold C1; after_results_simp

end Cert.ReferenceIdeal.RefRun

end
-- ==== Proof.RefArgs.lean ====
/-
  No operation of the reference writes an argument: after each of the six parts of its line every argument array is
  as launched.
-/
import proofs.«103093_j44641890074931_1_alg».proof.Proof.RefOps
import proofs.«103093_j44641890074931_1_alg».proof.Proof.RefValue

set_option maxRecDepth 16384

noncomputable section

namespace Cert.ReferenceIdeal.RefRun

open Cert.ReferenceIdeal Cert.ReferenceIdeal.Gen Cert.ReferenceIdeal.RefOps Cert.ReferenceIdeal.RefValue
open Idealize.ShloMosaic Idealize.ShloMosaic.TcCoe Idealize.SL.Sem Idealize.ShloMosaic.StableHlo

variable (m : (ℓ : Loc nD τ sig) → Buf (Elt Ideal) ℓ) (d : Dev nD)

theorem C1_arg0 : C1 m d (Proc.devRef .tc main_arg0) = m ((d.tc : Thread nD τ).loc main_arg0) := by
  unfold C1; after_results_simp
theorem C1_arg1 : C1 m d (Proc.devRef .tc main_arg1) = m ((d.tc : Thread nD τ).loc main_arg1) := by
  unfold C1; after_results_simp
theorem C1_arg2 : C1 m d (Proc.devRef .tc main_arg2) = m ((d.tc : Thread nD τ).loc main_arg2) := by
  unfold C1; after_results_simp
theorem C1_arg3 : C1 m d (Proc.devRef .tc main_arg3) = m ((d.tc : Thread nD τ).loc main_arg3) := by
  unfold C1; after_results_simp
theorem C1_arg4 : C1 m d (Proc.devRef .tc main_arg4) = m ((d.tc : Thread nD τ).loc main_arg4) := by
  unfold C1; after_results_simp
theorem C1_arg5 : C1 m d (Proc.devRef .tc main_arg5) = m ((d.tc : Thread nD τ).loc main_arg5) := by
  unfold C1; after_results_simp
theorem C1_arg6 : C1 m d (Proc.devRef .tc main_arg6) = m ((d.tc : Thread nD τ).loc main_arg6) := by
  unfold C1; after_results_simp
theorem C1_arg7 : C1 m d (Proc.devRef .tc main_arg7) = m ((d.tc : Thread nD τ).loc main_arg7) := by
  unfold C1; after_results_simp
theorem C2_arg0 : C2 m d (Proc.devRef .tc main_arg0) = m ((d.tc : Thread nD τ).loc main_arg0) := by
  unfold C2; after_results_simp; exact C1_arg0 m d
theorem C2_arg1 : C2 m d (Proc.devRef .tc main_arg1) = m ((d.tc : Thread nD τ).loc main_arg1) := by
  unfold C2; after_results_simp; exact C1_arg1 m d
theorem C2_arg2 : C2 m d (Proc.devRef .tc main_arg2) = m ((d.tc : Thread nD τ).loc main_arg2) := by
  unfold C2; after_results_simp; exact C1_arg2 m d
theorem C2_arg3 : C2 m d (Proc.devRef .tc main_arg3) = m ((d.tc : Thread nD τ).loc main_arg3) := by
  unfold C2; after_results_simp; exact C1_arg3 m d
theorem C2_arg4 : C2 m d (Proc.devRef .tc main_arg4) = m ((d.tc : Thread nD τ).loc main_arg4) := by
  unfold C2; after_results_simp; exact C1_arg4 m d
theorem C2_arg5 : C2 m d (Proc.devRef .tc main_arg5) = m ((d.tc : Thread nD τ).loc main_arg5) := by
  unfold C2; after_results_simp; exact C1_arg5 m d
theorem C2_arg6 : C2 m d (Proc.devRef .tc main_arg6) = m ((d.tc : Thread nD τ).loc main_arg6) := by
  unfold C2; after_results_simp; exact C1_arg6 m d
theorem C2_arg7 : C2 m d (Proc.devRef .tc main_arg7) = m ((d.tc : Thread nD τ).loc main_arg7) := by
  unfold C2; after_results_simp; exact C1_arg7 m d
theorem C3_arg0 : C3 m d (Proc.devRef .tc main_arg0) = m ((d.tc : Thread nD τ).loc main_arg0) := by
  unfold C3; after_results_simp; exact C2_arg0 m d
theorem C3_arg1 : C3 m d (Proc.devRef .tc main_arg1) = m ((d.tc : Thread nD τ).loc main_arg1) := by
  unfold C3; after_results_simp; exact C2_arg1 m d
theorem C3_arg2 : C3 m d (Proc.devRef .tc main_arg2) = m ((d.tc : Thread nD τ).loc main_arg2) := by
  unfold C3; after_results_simp; exact C2_arg2 m d
theorem C3_arg3 : C3 m d (Proc.devRef .tc main_arg3) = m ((d.tc : Thread nD τ).loc main_arg3) := by
  unfold C3; after_results_simp; exact C2_arg3 m d
theorem C3_arg4 : C3 m d (Proc.devRef .tc main_arg4) = m ((d.tc : Thread nD τ).loc main_arg4) := by
  unfold C3; after_results_simp; exact C2_arg4 m d
theorem C3_arg5 : C3 m d (Proc.devRef .tc main_arg5) = m ((d.tc : Thread nD τ).loc main_arg5) := by
  unfold C3; after_results_simp; exact C2_arg5 m d
theorem C3_arg6 : C3 m d (Proc.devRef .tc main_arg6) = m ((d.tc : Thread nD τ).loc main_arg6) := by
  unfold C3; after_results_simp; exact C2_arg6 m d
theorem C3_arg7 : C3 m d (Proc.devRef .tc main_arg7) = m ((d.tc : Thread nD τ).loc main_arg7) := by
  unfold C3; after_results_simp; exact C2_arg7 m d
theorem C4_arg0 : C4 m d (Proc.devRef .tc main_arg0) = m ((d.tc : Thread nD τ).loc main_arg0) := by
  unfold C4; after_results_simp; exact C3_arg0 m d
theorem C4_arg1 : C4 m d (Proc.devRef .tc main_arg1) = m ((d.tc : Thread nD τ).loc main_arg1) := by
  unfold C4; after_results_simp; exact C3_arg1 m d
theorem C4_arg2 : C4 m d (Proc.devRef .tc main_arg2) = m ((d.tc : Thread nD τ).loc main_arg2) := by
  unfold C4; after_results_simp; exact C3_arg2 m d
theorem C4_arg3 : C4 m d (Proc.devRef .tc main_arg3) = m ((d.tc : Thread nD τ).loc main_arg3) := by
  unfold C4; after_results_simp; exact C3_arg3 m d
theorem C4_arg4 : C4 m d (Proc.devRef .tc main_arg4) = m ((d.tc : Thread nD τ).loc main_arg4) := by
  unfold C4; after_results_simp; exact C3_arg4 m d
theorem C4_arg5 : C4 m d (Proc.devRef .tc main_arg5) = m ((d.tc : Thread nD τ).loc main_arg5) := by
  unfold C4; after_results_simp; exact C3_arg5 m d
theorem C4_arg6 : C4 m d (Proc.devRef .tc main_arg6) = m ((d.tc : Thread nD τ).loc main_arg6) := by
  unfold C4; after_results_simp; exact C3_arg6 m d
theorem C4_arg7 : C4 m d (Proc.devRef .tc main_arg7) = m ((d.tc : Thread nD τ).loc main_arg7) := by
  unfold C4; after_results_simp; exact C3_arg7 m d
theorem C5_arg0 : C5 m d (Proc.devRef .tc main_arg0) = m ((d.tc : Thread nD τ).loc main_arg0) := by
  unfold C5; after_results_simp; exact C4_arg0 m d
theorem C5_arg1 : C5 m d (Proc.devRef .tc main_arg1) = m ((d.tc : Thread nD τ).loc main_arg1) := by
  unfold C5; after_results_simp; exact C4_arg1 m d
theorem C5_arg2 : C5 m d (Proc.devRef .tc main_arg2) = m ((d.tc : Thread nD τ).loc main_arg2) := by
  unfold C5; after_results_simp; exact C4_arg2 m d
theorem C5_arg3 : C5 m d (Proc.devRef .tc main_arg3) = m ((d.tc : Thread nD τ).loc main_arg3) := by
  unfold C5; after_results_simp; exact C4_arg3 m d
theorem C5_arg4 : C5 m d (Proc.devRef .tc main_arg4) = m ((d.tc : Thread nD τ).loc main_arg4) := by
  unfold C5; after_results_simp; exact C4_arg4 m d
theorem C5_arg5 : C5 m d (Proc.devRef .tc main_arg5) = m ((d.tc : Thread nD τ).loc main_arg5) := by
  unfold C5; after_results_simp; exact C4_arg5 m d
theorem C5_arg6 : C5 m d (Proc.devRef .tc main_arg6) = m ((d.tc : Thread nD τ).loc main_arg6) := by
  unfold C5; after_results_simp; exact C4_arg6 m d
theorem C5_arg7 : C5 m d (Proc.devRef .tc main_arg7) = m ((d.tc : Thread nD τ).loc main_arg7) := by
  unfold C5; after_results_simp; exact C4_arg7 m d
theorem C6_arg0 : C6 m d (Proc.devRef .tc main_arg0) = m ((d.tc : Thread nD τ).loc main_arg0) := by
  unfold C6; after_results_simp; exact C5_arg0 m d
theorem C6_arg1 : C6 m d (Proc.devRef .tc main_arg1) = m ((d.tc : Thread nD τ).loc main_arg1) := by
  unfold C6; after_results_simp; exact C5_arg1 m d
theorem C6_arg2 : C6 m d (Proc.devRef .tc main_arg2) = m ((d.tc : Thread nD τ).loc main_arg2) := by
  unfold C6; after_results_simp; exact C5_arg2 m d
theorem C6_arg3 : C6 m d (Proc.devRef .tc main_arg3) = m ((d.tc : Thread nD τ).loc main_arg3) := by
  unfold C6; after_results_simp; exact C5_arg3 m d
theorem C6_arg4 : C6 m d (Proc.devRef .tc main_arg4) = m ((d.tc : Thread nD τ).loc main_arg4) := by
  unfold C6; after_results_simp; exact C5_arg4 m d
theorem C6_arg5 : C6 m d (Proc.devRef .tc main_arg5) = m ((d.tc : Thread nD τ).loc main_arg5) := by
  unfold C6; after_results_simp; exact C5_arg5 m d
theorem C6_arg6 : C6 m d (Proc.devRef .tc main_arg6) = m ((d.tc : Thread nD τ).loc main_arg6) := by
  unfold C6; after_results_simp; exact C5_arg6 m d
theorem C6_arg7 : C6 m d (Proc.devRef .tc main_arg7) = m ((d.tc : Thread nD τ).loc main_arg7) := by
  unfold C6; after_results_simp; exact C5_arg7 m d

end Cert.ReferenceIdeal.RefRun

end
-- ==== Proof.RefB1.lean ====
/-
  The reference's first layer, second part: from the edge arrays and the product, the aggregate plus the bias, and then
  the rectifier's call — the first layer's output; the node-number vectors pass through.
-/
import proofs.«103093_j44641890074931_1_alg».proof.Proof.RefE1
import proofs.«103093_j44641890074931_1_alg».proof.Proof.RefArgs

set_option maxRecDepth 16384

noncomputable section

namespace Cert.ReferenceIdeal.RefRun

open Cert.ReferenceIdeal Cert.ReferenceIdeal.Gen Cert.ReferenceIdeal.RefOps Cert.ReferenceIdeal.RefValue
open Idealize.ShloMosaic Idealize.ShloMosaic.TcCoe Idealize.SL.Sem Idealize.ShloMosaic.StableHlo

variable (m : (ℓ : Loc nD τ sig) → Buf (Elt Ideal) ℓ) (d : Dev nD)

/-- The layer's own operations, up to the sum with the bias. -/
abbrev bodyB1 {F : FTy → Type} [FloatOps F] : List (HloOp τ sig (Elt F)) :=
  [ nullary main_cst_8 (constant S_ .f32 0x00000000#32),
    unary main_cst_8 main_v34 (broadcastInDim S50000x128 ![] bcast_S_S50000x128 : (⟨S_, .f32⟩ : BufTy).Contents (Elt F) → (⟨S50000x128, .f32⟩ : BufTy).Contents (Elt F)),
    unary main_v33 main_v35 (broadcastInDim S800000x1 ![0] bcast_S800000_S800000x1_0 : (⟨S800000, .f32⟩ : BufTy).Contents (Elt F) → (⟨S800000x1, .f32⟩ : BufTy).Contents (Elt F)),
    nullary main_c_9 (constantI S_ 32 0#32),
    unary main_c_9 main_v36 (broadcastInDim S800000 ![] bcast_S_S800000 : (⟨S_, .i32⟩ : BufTy).Contents (Elt F) → (⟨S800000, .i32⟩ : BufTy).Contents (Elt F)),
    binary main_v1 main_v36 main_v37 (cmpi .slt : (⟨S800000, .i32⟩ : BufTy).Contents (Elt F) → (⟨S800000, .i32⟩ : BufTy).Contents (Elt F) → (⟨S800000, .i1⟩ : BufTy).Contents (Elt F)),
    nullary main_c_10 (constantI S_ 32 50000#32),
    unary main_c_10 main_v38 (broadcastInDim S800000 ![] bcast_S_S800000 : (⟨S_, .i32⟩ : BufTy).Contents (Elt F) → (⟨S800000, .i32⟩ : BufTy).Contents (Elt F)),
    binary main_v1 main_v38 main_v39 (addi : (⟨S800000, .i32⟩ : BufTy).Contents (Elt F) → (⟨S800000, .i32⟩ : BufTy).Contents (Elt F) → (⟨S800000, .i32⟩ : BufTy).Contents (Elt F)),
    ternary main_v37 main_v39 main_v1 main_v40 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v40 main_v41 (broadcastInDim S800000x1 ![0] bcast_S800000_S800000x1_0 : (⟨S800000, .i32⟩ : BufTy).Contents (Elt F) → (⟨S800000x1, .i32⟩ : BufTy).Contents (Elt F)),
    binary main_v18 main_v41 main_v42 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v35 main_v43 (broadcastInDim S800000x128 ![0, 1] bcast_S800000x1_S800000x128_0_1 : (⟨S800000x1, .f32⟩ : BufTy).Contents (Elt F) → (⟨S800000x128, .f32⟩ : BufTy).Contents (Elt F)),
    binary main_v43 main_v42 main_v44 (mulf : (⟨S800000x128, .f32⟩ : BufTy).Contents (Elt F) → (⟨S800000x128, .f32⟩ : BufTy).Contents (Elt F) → (⟨S800000x128, .f32⟩ : BufTy).Contents (Elt F)),
    nullary main_c_11 (constantI S_ 32 0#32),
    unary main_c_11 main_v45 (broadcastInDim S800000 ![] bcast_S_S800000 : (⟨S_, .i32⟩ : BufTy).Contents (Elt F) → (⟨S800000, .i32⟩ : BufTy).Contents (Elt F)),
    binary main_v3 main_v45 main_v46 (cmpi .slt : (⟨S800000, .i32⟩ : BufTy).Contents (Elt F) → (⟨S800000, .i32⟩ : BufTy).Contents (Elt F) → (⟨S800000, .i1⟩ : BufTy).Contents (Elt F)),
    nullary main_c_12 (constantI S_ 32 50000#32),
    unary main_c_12 main_v47 (broadcastInDim S800000 ![] bcast_S_S800000 : (⟨S_, .i32⟩ : BufTy).Contents (Elt F) → (⟨S800000, .i32⟩ : BufTy).Contents (Elt F)),
    binary main_v3 main_v47 main_v48 (addi : (⟨S800000, .i32⟩ : BufTy).Contents (Elt F) → (⟨S800000, .i32⟩ : BufTy).Contents (Elt F) → (⟨S800000, .i32⟩ : BufTy).Contents (Elt F)),
    ternary main_v46 main_v48 main_v3 main_v49 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v49 main_v50 (broadcastInDim S800000x1 ![0] bcast_S800000_S800000x1_0 : (⟨S800000, .i32⟩ : BufTy).Contents (Elt F) → (⟨S800000x1, .i32⟩ : BufTy).Contents (Elt F)),
    ternary main_v34 main_v50 main_v44 main_v51 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v17 main_v17 main_v52 (mulf : (⟨S50000, .f32⟩ : BufTy).Contents (Elt F) → (⟨S50000, .f32⟩ : BufTy).Contents (Elt F) → (⟨S50000, .f32⟩ : BufTy).Contents (Elt F)),
    unary main_v52 main_v53 (broadcastInDim S50000x1 ![0] bcast_S50000_S50000x1_0 : (⟨S50000, .f32⟩ : BufTy).Contents (Elt F) → (⟨S50000x1, .f32⟩ : BufTy).Contents (Elt F)),
    unary main_v53 main_v54 (broadcastInDim S50000x128 ![0, 1] bcast_S50000x1_S50000x128_0_1 : (⟨S50000x1, .f32⟩ : BufTy).Contents (Elt F) → (⟨S50000x128, .f32⟩ : BufTy).Contents (Elt F)),
    binary main_v54 main_v18 main_v55 (mulf : (⟨S50000x128, .f32⟩ : BufTy).Contents (Elt F) → (⟨S50000x128, .f32⟩ : BufTy).Contents (Elt F) → (⟨S50000x128, .f32⟩ : BufTy).Contents (Elt F)),
    binary main_v51 main_v55 main_v56 (addf : (⟨S50000x128, .f32⟩ : BufTy).Contents (Elt F) → (⟨S50000x128, .f32⟩ : BufTy).Contents (Elt F) → (⟨S50000x128, .f32⟩ : BufTy).Contents (Elt F)),
    unary main_arg3 main_v57 (broadcastInDim S1x128 ![1] bcast_S128_S1x128_1 : (⟨S128, .f32⟩ : BufTy).Contents (Elt F) → (⟨S1x128, .f32⟩ : BufTy).Contents (Elt F)),
    unary main_v57 main_v58 (broadcastInDim S50000x128 ![0, 1] bcast_S1x128_S50000x128_0_1 : (⟨S1x128, .f32⟩ : BufTy).Contents (Elt F) → (⟨S50000x128, .f32⟩ : BufTy).Contents (Elt F)),
    binary main_v56 main_v58 main_v59 (addf : (⟨S50000x128, .f32⟩ : BufTy).Contents (Elt F) → (⟨S50000x128, .f32⟩ : BufTy).Contents (Elt F) → (⟨S50000x128, .f32⟩ : BufTy).Contents (Elt F)) ]

/-- The rectifier's three operations: the zero, its splat, the maximum. -/
abbrev reluOps1 {F : FTy → Type} [FloatOps F] : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v59) (TRef.of (T := ⟨S50000x128, .f32⟩) main_call0_v0) (TRef.of (T := ⟨S50000x128, .f32⟩) main_v60) maximumf ]

theorem opsB1_split : (opsB1 (F := Ideal)) = bodyB1 ++ reluOps1 := rfl

/-- The buffers before the rectifier. -/
def C2a : Valuation τ sig (Elt Ideal) := after bodyB1 (C1 m d)

theorem C2_eq : C2 m d = after reluOps1 (C2a m d) := by
  unfold C2 C2a; rw [opsB1_split, RefOps.after_append]

attribute [local irreducible] Host.scatterAdd Host.gather Host.reduce Host.reduceAdd Ideal.matmul Ideal.hostScatterAdd in
/-- Before the rectifier: the aggregate of the product, plus the bias. -/
theorem C2a_v59 : (C2a m d (Proc.devRef .tc main_v59) : FVec Ideal S50000x128 .f32) = addf (agg128R (m ((d.tc : Thread nD τ).loc main_arg1)) (Host.dotGeneral (F := Ideal) (φ₁ := .f32) (φ₂ := .f32) dot_S50000x128_S128x128_S50000x128_1_0_0_1_n_n none (m ((d.tc : Thread nD τ).loc main_arg0) : FVec Ideal S50000x128 .f32) (m ((d.tc : Thread nD τ).loc main_arg2) : FVec Ideal S128x128 .f32) : FVec Ideal S50000x128 .f32)) (bias128R (m ((d.tc : Thread nD τ).loc main_arg3))) := by
  unfold C2a; after_results_simp
  rw [C1_v1, C1_v3, C1_v17, C1_v33, C1_v18, C1_arg3]
  rfl

/-- The rectifier's call, from any contents: the typed references' transports are identities. -/
theorem relu_step1 (V : Valuation τ sig (Elt Ideal)) :
    after (reluOps1 (F := Ideal)) V (Proc.devRef .tc main_v60) = reluR (V (Proc.devRef .tc main_v59)) := by
  after_results_simp
  simp only [TRef.toBuf, TRef.ofBuf, cast_cast, cast_eq]
  rfl

/-- The layer's output. -/
theorem C2_v60 : C2 m d (Proc.devRef .tc main_v60) = H1R (m ((d.tc : Thread nD τ).loc main_arg0)) (m ((d.tc : Thread nD τ).loc main_arg1)) (m ((d.tc : Thread nD τ).loc main_arg2)) (m ((d.tc : Thread nD τ).loc main_arg3)) := by
  rw [C2_eq, relu_step1, C2a_v59]
  rfl

theorem C2_v1 : C2 m d (Proc.devRef .tc main_v1) = rowR (m ((d.tc : Thread nD τ).loc main_arg1)) := by
  unfold C2; after_results_simp; exact C1_v1 m d

theorem C2_v3 : C2 m d (Proc.devRef .tc main_v3) = colR (m ((d.tc : Thread nD τ).loc main_arg1)) := by
  unfold C2; after_results_simp; exact C1_v3 m d

end Cert.ReferenceIdeal.RefRun

end
-- ==== Proof.RefE2.lean ====
/-
  The reference's second layer, first part: the edge arrays, computed again from the same node-number vectors, and the
  product of the first layer's output with the second weight matrix.
-/
import proofs.«103093_j44641890074931_1_alg».proof.Proof.RefB1

set_option maxRecDepth 16384

noncomputable section

namespace Cert.ReferenceIdeal.RefRun

open Cert.ReferenceIdeal Cert.ReferenceIdeal.Gen Cert.ReferenceIdeal.RefOps Cert.ReferenceIdeal.RefValue
open Idealize.ShloMosaic Idealize.ShloMosaic.TcCoe Idealize.SL.Sem Idealize.ShloMosaic.StableHlo

variable (m : (ℓ : Loc nD τ sig) → Buf (Elt Ideal) ℓ) (d : Dev nD)

theorem C3_v1 : C3 m d (Proc.devRef .tc main_v1) = rowR (m ((d.tc : Thread nD τ).loc main_arg1)) := by
  unfold C3; after_results_simp; exact C2_v1 m d

theorem C3_v3 : C3 m d (Proc.devRef .tc main_v3) = colR (m ((d.tc : Thread nD τ).loc main_arg1)) := by
  unfold C3; after_results_simp; exact C2_v3 m d

theorem C3_v74 : C3 m d (Proc.devRef .tc main_v74) = dinvR (m ((d.tc : Thread nD τ).loc main_arg1)) := by
  unfold C3; after_results_simp
  rw [C2_v3]
  rfl

theorem C3_v90 : C3 m d (Proc.devRef .tc main_v90) = normR (m ((d.tc : Thread nD τ).loc main_arg1)) := by
  unfold C3; after_results_simp
  rw [C2_v1, C2_v3]
  rfl

theorem C3_v75 : (C3 m d (Proc.devRef .tc main_v75) : FVec Ideal S50000x128 .f32) = (Host.dotGeneral (F := Ideal) (φ₁ := .f32) (φ₂ := .f32) dot_S50000x128_S128x128_S50000x128_1_0_0_1_n_n none (H1R (m ((d.tc : Thread nD τ).loc main_arg0)) (m ((d.tc : Thread nD τ).loc main_arg1)) (m ((d.tc : Thread nD τ).loc main_arg2)) (m ((d.tc : Thread nD τ).loc main_arg3))) (m ((d.tc : Thread nD τ).loc main_arg4) : FVec Ideal S128x128 .f32) : FVec Ideal S50000x128 .f32) := by
  unfold C3; after_results_simp
  rw [C2_v60, C2_arg4]

end Cert.ReferenceIdeal.RefRun

end
-- ==== Proof.RefB2.lean ====
/-
  The reference's second layer, second part: the aggregate plus the bias, and then the rectifier's call — the second
  layer's output; the node-number vectors pass through.
-/
import proofs.«103093_j44641890074931_1_alg».proof.Proof.RefE2

set_option maxRecDepth 16384

noncomputable section

namespace Cert.ReferenceIdeal.RefRun

open Cert.ReferenceIdeal Cert.ReferenceIdeal.Gen Cert.ReferenceIdeal.RefOps Cert.ReferenceIdeal.RefValue
open Idealize.ShloMosaic Idealize.ShloMosaic.TcCoe Idealize.SL.Sem Idealize.ShloMosaic.StableHlo

variable (m : (ℓ : Loc nD τ sig) → Buf (Elt Ideal) ℓ) (d : Dev nD)

/-- The layer's own operations, up to the sum with the bias. -/
abbrev bodyB2 {F : FTy → Type} [FloatOps F] : List (HloOp τ sig (Elt F)) :=
  [ nullary main_cst_23 (constant S_ .f32 0x00000000#32),
    unary main_cst_23 main_v91 (broadcastInDim S50000x128 ![] bcast_S_S50000x128 : (⟨S_, .f32⟩ : BufTy).Contents (Elt F) → (⟨S50000x128, .f32⟩ : BufTy).Contents (Elt F)),
    unary main_v90 main_v92 (broadcastInDim S800000x1 ![0] bcast_S800000_S800000x1_0 : (⟨S800000, .f32⟩ : BufTy).Contents (Elt F) → (⟨S800000x1, .f32⟩ : BufTy).Contents (Elt F)),
    nullary main_c_24 (constantI S_ 32 0#32),
    unary main_c_24 main_v93 (broadcastInDim S800000 ![] bcast_S_S800000 : (⟨S_, .i32⟩ : BufTy).Contents (Elt F) → (⟨S800000, .i32⟩ : BufTy).Contents (Elt F)),
    binary main_v1 main_v93 main_v94 (cmpi .slt : (⟨S800000, .i32⟩ : BufTy).Contents (Elt F) → (⟨S800000, .i32⟩ : BufTy).Contents (Elt F) → (⟨S800000, .i1⟩ : BufTy).Contents (Elt F)),
    nullary main_c_25 (constantI S_ 32 50000#32),
    unary main_c_25 main_v95 (broadcastInDim S800000 ![] bcast_S_S800000 : (⟨S_, .i32⟩ : BufTy).Contents (Elt F) → (⟨S800000, .i32⟩ : BufTy).Contents (Elt F)),
    binary main_v1 main_v95 main_v96 (addi : (⟨S800000, .i32⟩ : BufTy).Contents (Elt F) → (⟨S800000, .i32⟩ : BufTy).Contents (Elt F) → (⟨S800000, .i32⟩ : BufTy).Contents (Elt F)),
    ternary main_v94 main_v96 main_v1 main_v97 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v97 main_v98 (broadcastInDim S800000x1 ![0] bcast_S800000_S800000x1_0 : (⟨S800000, .i32⟩ : BufTy).Contents (Elt F) → (⟨S800000x1, .i32⟩ : BufTy).Contents (Elt F)),
    binary main_v75 main_v98 main_v99 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v92 main_v100 (broadcastInDim S800000x128 ![0, 1] bcast_S800000x1_S800000x128_0_1 : (⟨S800000x1, .f32⟩ : BufTy).Contents (Elt F) → (⟨S800000x128, .f32⟩ : BufTy).Contents (Elt F)),
    binary main_v100 main_v99 main_v101 (mulf : (⟨S800000x128, .f32⟩ : BufTy).Contents (Elt F) → (⟨S800000x128, .f32⟩ : BufTy).Contents (Elt F) → (⟨S800000x128, .f32⟩ : BufTy).Contents (Elt F)),
    nullary main_c_26 (constantI S_ 32 0#32),
    unary main_c_26 main_v102 (broadcastInDim S800000 ![] bcast_S_S800000 : (⟨S_, .i32⟩ : BufTy).Contents (Elt F) → (⟨S800000, .i32⟩ : BufTy).Contents (Elt F)),
    binary main_v3 main_v102 main_v103 (cmpi .slt : (⟨S800000, .i32⟩ : BufTy).Contents (Elt F) → (⟨S800000, .i32⟩ : BufTy).Contents (Elt F) → (⟨S800000, .i1⟩ : BufTy).Contents (Elt F)),
    nullary main_c_27 (constantI S_ 32 50000#32),
    unary main_c_27 main_v104 (broadcastInDim S800000 ![] bcast_S_S800000 : (⟨S_, .i32⟩ : BufTy).Contents (Elt F) → (⟨S800000, .i32⟩ : BufTy).Contents (Elt F)),
    binary main_v3 main_v104 main_v105 (addi : (⟨S800000, .i32⟩ : BufTy).Contents (Elt F) → (⟨S800000, .i32⟩ : BufTy).Contents (Elt F) → (⟨S800000, .i32⟩ : BufTy).Contents (Elt F)),
    ternary main_v103 main_v105 main_v3 main_v106 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v106 main_v107 (broadcastInDim S800000x1 ![0] bcast_S800000_S800000x1_0 : (⟨S800000, .i32⟩ : BufTy).Contents (Elt F) → (⟨S800000x1, .i32⟩ : BufTy).Contents (Elt F)),
    ternary main_v91 main_v107 main_v101 main_v108 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v74 main_v74 main_v109 (mulf : (⟨S50000, .f32⟩ : BufTy).Contents (Elt F) → (⟨S50000, .f32⟩ : BufTy).Contents (Elt F) → (⟨S50000, .f32⟩ : BufTy).Contents (Elt F)),
    unary main_v109 main_v110 (broadcastInDim S50000x1 ![0] bcast_S50000_S50000x1_0 : (⟨S50000, .f32⟩ : BufTy).Contents (Elt F) → (⟨S50000x1, .f32⟩ : BufTy).Contents (Elt F)),
    unary main_v110 main_v111 (broadcastInDim S50000x128 ![0, 1] bcast_S50000x1_S50000x128_0_1 : (⟨S50000x1, .f32⟩ : BufTy).Contents (Elt F) → (⟨S50000x128, .f32⟩ : BufTy).Contents (Elt F)),
    binary main_v111 main_v75 main_v112 (mulf : (⟨S50000x128, .f32⟩ : BufTy).Contents (Elt F) → (⟨S50000x128, .f32⟩ : BufTy).Contents (Elt F) → (⟨S50000x128, .f32⟩ : BufTy).Contents (Elt F)),
    binary main_v108 main_v112 main_v113 (addf : (⟨S50000x128, .f32⟩ : BufTy).Contents (Elt F) → (⟨S50000x128, .f32⟩ : BufTy).Contents (Elt F) → (⟨S50000x128, .f32⟩ : BufTy).Contents (Elt F)),
    unary main_arg5 main_v114 (broadcastInDim S1x128 ![1] bcast_S128_S1x128_1 : (⟨S128, .f32⟩ : BufTy).Contents (Elt F) → (⟨S1x128, .f32⟩ : BufTy).Contents (Elt F)),
    unary main_v114 main_v115 (broadcastInDim S50000x128 ![0, 1] bcast_S1x128_S50000x128_0_1 : (⟨S1x128, .f32⟩ : BufTy).Contents (Elt F) → (⟨S50000x128, .f32⟩ : BufTy).Contents (Elt F)),
    binary main_v113 main_v115 main_v116 (addf : (⟨S50000x128, .f32⟩ : BufTy).Contents (Elt F) → (⟨S50000x128, .f32⟩ : BufTy).Contents (Elt F) → (⟨S50000x128, .f32⟩ : BufTy).Contents (Elt F)) ]

/-- The rectifier's three operations: the zero, its splat, the maximum. -/
abbrev reluOps2 {F : FTy → Type} [FloatOps F] : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v116) (TRef.of (T := ⟨S50000x128, .f32⟩) main_call1_v0) (TRef.of (T := ⟨S50000x128, .f32⟩) main_v117) maximumf ]

theorem opsB2_split : (opsB2 (F := Ideal)) = bodyB2 ++ reluOps2 := rfl

/-- The buffers before the rectifier. -/
def C4a : Valuation τ sig (Elt Ideal) := after bodyB2 (C3 m d)

theorem C4_eq : C4 m d = after reluOps2 (C4a m d) := by
  unfold C4 C4a; rw [opsB2_split, RefOps.after_append]

attribute [local irreducible] Host.scatterAdd Host.gather Host.reduce Host.reduceAdd Ideal.matmul Ideal.hostScatterAdd in
/-- Before the rectifier: the aggregate of the product, plus the bias. -/
theorem C4a_v116 : (C4a m d (Proc.devRef .tc main_v116) : FVec Ideal S50000x128 .f32) = addf (agg128R (m ((d.tc : Thread nD τ).loc main_arg1)) (Host.dotGeneral (F := Ideal) (φ₁ := .f32) (φ₂ := .f32) dot_S50000x128_S128x128_S50000x128_1_0_0_1_n_n none (H1R (m ((d.tc : Thread nD τ).loc main_arg0)) (m ((d.tc : Thread nD τ).loc main_arg1)) (m ((d.tc : Thread nD τ).loc main_arg2)) (m ((d.tc : Thread nD τ).loc main_arg3))) (m ((d.tc : Thread nD τ).loc main_arg4) : FVec Ideal S128x128 .f32) : FVec Ideal S50000x128 .f32)) (bias128R (m ((d.tc : Thread nD τ).loc main_arg5))) := by
  unfold C4a; after_results_simp
  rw [C3_v1, C3_v3, C3_v74, C3_v90, C3_v75, C3_arg5]
  rfl

/-- The rectifier's call, from any contents: the typed references' transports are identities. -/
theorem relu_step2 (V : Valuation τ sig (Elt Ideal)) :
    after (reluOps2 (F := Ideal)) V (Proc.devRef .tc main_v117) = reluR (V (Proc.devRef .tc main_v116)) := by
  after_results_simp
  simp only [TRef.toBuf, TRef.ofBuf, cast_cast, cast_eq]
  rfl

/-- The layer's output. -/
theorem C4_v117 : C4 m d (Proc.devRef .tc main_v117) = H2R (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) := by
  rw [C4_eq, relu_step2, C4a_v116]
  rfl

theorem C4_v1 : C4 m d (Proc.devRef .tc main_v1) = rowR (m ((d.tc : Thread nD τ).loc main_arg1)) := by
  unfold C4; after_results_simp; exact C3_v1 m d

theorem C4_v3 : C4 m d (Proc.devRef .tc main_v3) = colR (m ((d.tc : Thread nD τ).loc main_arg1)) := by
  unfold C4; after_results_simp; exact C3_v3 m d

end Cert.ReferenceIdeal.RefRun

end
-- ==== Proof.RefE3.lean ====
/-
  The reference's third layer, first part: the edge arrays once more, and the product of the second layer's output
  with the third weight matrix.
-/
import proofs.«103093_j44641890074931_1_alg».proof.Proof.RefB2

set_option maxRecDepth 16384

noncomputable section

namespace Cert.ReferenceIdeal.RefRun

open Cert.ReferenceIdeal Cert.ReferenceIdeal.Gen Cert.ReferenceIdeal.RefOps Cert.ReferenceIdeal.RefValue
open Idealize.ShloMosaic Idealize.ShloMosaic.TcCoe Idealize.SL.Sem Idealize.ShloMosaic.StableHlo

variable (m : (ℓ : Loc nD τ sig) → Buf (Elt Ideal) ℓ) (d : Dev nD)

theorem C5_v1 : C5 m d (Proc.devRef .tc main_v1) = rowR (m ((d.tc : Thread nD τ).loc main_arg1)) := by
  unfold C5; after_results_simp; exact C4_v1 m d

theorem C5_v3 : C5 m d (Proc.devRef .tc main_v3) = colR (m ((d.tc : Thread nD τ).loc main_arg1)) := by
  unfold C5; after_results_simp; exact C4_v3 m d

theorem C5_v131 : C5 m d (Proc.devRef .tc main_v131) = dinvR (m ((d.tc : Thread nD τ).loc main_arg1)) := by
  unfold C5; after_results_simp
  rw [C4_v3]
  rfl

theorem C5_v147 : C5 m d (Proc.devRef .tc main_v147) = normR (m ((d.tc : Thread nD τ).loc main_arg1)) := by
  unfold C5; after_results_simp
  rw [C4_v1, C4_v3]
  rfl

theorem C5_v132 : (C5 m d (Proc.devRef .tc main_v132) : FVec Ideal S50000x40 .f32) = (Host.dotGeneral (F := Ideal) (φ₁ := .f32) (φ₂ := .f32) dot_S50000x128_S128x40_S50000x40_1_0_0_1_n_n none (H2R (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5))) (m ((d.tc : Thread nD τ).loc main_arg6) : FVec Ideal S128x40 .f32) : FVec Ideal S50000x40 .f32) := by
  unfold C5; after_results_simp
  rw [C4_v117, C4_arg6]

end Cert.ReferenceIdeal.RefRun

end
-- ==== Proof.RefB3a.lean ====
/-
  The reference's third layer, second part, up to the logits: the aggregate of the product plus the bias. The
  logarithm of the row softmax that follows is a called function's fifteen operations, kept as a list of their own.
-/
import proofs.«103093_j44641890074931_1_alg».proof.Proof.RefE3

set_option maxRecDepth 16384

noncomputable section

namespace Cert.ReferenceIdeal.RefRun

open Cert.ReferenceIdeal Cert.ReferenceIdeal.Gen Cert.ReferenceIdeal.RefOps Cert.ReferenceIdeal.RefValue
open Idealize.ShloMosaic Idealize.ShloMosaic.TcCoe Idealize.SL.Sem Idealize.ShloMosaic.StableHlo

variable (m : (ℓ : Loc nD τ sig) → Buf (Elt Ideal) ℓ) (d : Dev nD)

/-- The layer's own operations, up to the sum with the bias: the logits. -/
abbrev bodyB3 {F : FTy → Type} [FloatOps F] : List (HloOp τ sig (Elt F)) :=
  [ nullary main_cst_38 (constant S_ .f32 0x00000000#32),
    unary main_cst_38 main_v148 (broadcastInDim S50000x40 ![] bcast_S_S50000x40 : (⟨S_, .f32⟩ : BufTy).Contents (Elt F) → (⟨S50000x40, .f32⟩ : BufTy).Contents (Elt F)),
    unary main_v147 main_v149 (broadcastInDim S800000x1 ![0] bcast_S800000_S800000x1_0 : (⟨S800000, .f32⟩ : BufTy).Contents (Elt F) → (⟨S800000x1, .f32⟩ : BufTy).Contents (Elt F)),
    nullary main_c_39 (constantI S_ 32 0#32),
    unary main_c_39 main_v150 (broadcastInDim S800000 ![] bcast_S_S800000 : (⟨S_, .i32⟩ : BufTy).Contents (Elt F) → (⟨S800000, .i32⟩ : BufTy).Contents (Elt F)),
    binary main_v1 main_v150 main_v151 (cmpi .slt : (⟨S800000, .i32⟩ : BufTy).Contents (Elt F) → (⟨S800000, .i32⟩ : BufTy).Contents (Elt F) → (⟨S800000, .i1⟩ : BufTy).Contents (Elt F)),
    nullary main_c_40 (constantI S_ 32 50000#32),
    unary main_c_40 main_v152 (broadcastInDim S800000 ![] bcast_S_S800000 : (⟨S_, .i32⟩ : BufTy).Contents (Elt F) → (⟨S800000, .i32⟩ : BufTy).Contents (Elt F)),
    binary main_v1 main_v152 main_v153 (addi : (⟨S800000, .i32⟩ : BufTy).Contents (Elt F) → (⟨S800000, .i32⟩ : BufTy).Contents (Elt F) → (⟨S800000, .i32⟩ : BufTy).Contents (Elt F)),
    ternary main_v151 main_v153 main_v1 main_v154 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v154 main_v155 (broadcastInDim S800000x1 ![0] bcast_S800000_S800000x1_0 : (⟨S800000, .i32⟩ : BufTy).Contents (Elt F) → (⟨S800000x1, .i32⟩ : BufTy).Contents (Elt F)),
    binary main_v132 main_v155 main_v156 ((fun x i => Host.gather gather_S50000x40_S800000x1_S800000x40_1_0_n_n_0_1_140 x i) : (⟨S50000x40, .f32⟩ : BufTy).Contents (Elt F) → (⟨S800000x1, .i32⟩ : BufTy).Contents (Elt F) → (⟨S800000x40, .f32⟩ : BufTy).Contents (Elt F)),
    unary main_v149 main_v157 (broadcastInDim S800000x40 ![0, 1] bcast_S800000x1_S800000x40_0_1 : (⟨S800000x1, .f32⟩ : BufTy).Contents (Elt F) → (⟨S800000x40, .f32⟩ : BufTy).Contents (Elt F)),
    binary main_v157 main_v156 main_v158 (mulf : (⟨S800000x40, .f32⟩ : BufTy).Contents (Elt F) → (⟨S800000x40, .f32⟩ : BufTy).Contents (Elt F) → (⟨S800000x40, .f32⟩ : BufTy).Contents (Elt F)),
    nullary main_c_41 (constantI S_ 32 0#32),
    unary main_c_41 main_v159 (broadcastInDim S800000 ![] bcast_S_S800000 : (⟨S_, .i32⟩ : BufTy).Contents (Elt F) → (⟨S800000, .i32⟩ : BufTy).Contents (Elt F)),
    binary main_v3 main_v159 main_v160 (cmpi .slt : (⟨S800000, .i32⟩ : BufTy).Contents (Elt F) → (⟨S800000, .i32⟩ : BufTy).Contents (Elt F) → (⟨S800000, .i1⟩ : BufTy).Contents (Elt F)),
    nullary main_c_42 (constantI S_ 32 50000#32),
    unary main_c_42 main_v161 (broadcastInDim S800000 ![] bcast_S_S800000 : (⟨S_, .i32⟩ : BufTy).Contents (Elt F) → (⟨S800000, .i32⟩ : BufTy).Contents (Elt F)),
    binary main_v3 main_v161 main_v162 (addi : (⟨S800000, .i32⟩ : BufTy).Contents (Elt F) → (⟨S800000, .i32⟩ : BufTy).Contents (Elt F) → (⟨S800000, .i32⟩ : BufTy).Contents (Elt F)),
    ternary main_v160 main_v162 main_v3 main_v163 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v163 main_v164 (broadcastInDim S800000x1 ![0] bcast_S800000_S800000x1_0 : (⟨S800000, .i32⟩ : BufTy).Contents (Elt F) → (⟨S800000x1, .i32⟩ : BufTy).Contents (Elt F)),
    ternary main_v148 main_v164 main_v158 main_v165 ((fun x i u => Host.scatterAdd scatter_S50000x40_S800000x1_S800000x40_1_0_0_1 x i u) : (⟨S50000x40, .f32⟩ : BufTy).Contents (Elt F) → (⟨S800000x1, .i32⟩ : BufTy).Contents (Elt F) → (⟨S800000x40, .f32⟩ : BufTy).Contents (Elt F) → (⟨S50000x40, .f32⟩ : BufTy).Contents (Elt F)),
    binary main_v131 main_v131 main_v166 (mulf : (⟨S50000, .f32⟩ : BufTy).Contents (Elt F) → (⟨S50000, .f32⟩ : BufTy).Contents (Elt F) → (⟨S50000, .f32⟩ : BufTy).Contents (Elt F)),
    unary main_v166 main_v167 (broadcastInDim S50000x1 ![0] bcast_S50000_S50000x1_0 : (⟨S50000, .f32⟩ : BufTy).Contents (Elt F) → (⟨S50000x1, .f32⟩ : BufTy).Contents (Elt F)),
    unary main_v167 main_v168 (broadcastInDim S50000x40 ![0, 1] bcast_S50000x1_S50000x40_0_1 : (⟨S50000x1, .f32⟩ : BufTy).Contents (Elt F) → (⟨S50000x40, .f32⟩ : BufTy).Contents (Elt F)),
    binary main_v168 main_v132 main_v169 (mulf : (⟨S50000x40, .f32⟩ : BufTy).Contents (Elt F) → (⟨S50000x40, .f32⟩ : BufTy).Contents (Elt F) → (⟨S50000x40, .f32⟩ : BufTy).Contents (Elt F)),
    binary main_v165 main_v169 main_v170 (addf : (⟨S50000x40, .f32⟩ : BufTy).Contents (Elt F) → (⟨S50000x40, .f32⟩ : BufTy).Contents (Elt F) → (⟨S50000x40, .f32⟩ : BufTy).Contents (Elt F)),
    unary main_arg7 main_v171 (broadcastInDim S1x40 ![1] bcast_S40_S1x40_1 : (⟨S40, .f32⟩ : BufTy).Contents (Elt F) → (⟨S1x40, .f32⟩ : BufTy).Contents (Elt F)),
    unary main_v171 main_v172 (broadcastInDim S50000x40 ![0, 1] bcast_S1x40_S50000x40_0_1 : (⟨S1x40, .f32⟩ : BufTy).Contents (Elt F) → (⟨S50000x40, .f32⟩ : BufTy).Contents (Elt F)),
    binary main_v170 main_v172 main_v173 (addf : (⟨S50000x40, .f32⟩ : BufTy).Contents (Elt F) → (⟨S50000x40, .f32⟩ : BufTy).Contents (Elt F) → (⟨S50000x40, .f32⟩ : BufTy).Contents (Elt F)) ]

/-- The fifteen operations of the logarithm of the row softmax. -/
abbrev lsmOps {F : FTy → Type} [FloatOps F] : List (HloOp τ sig (Elt F)) :=
  [ TRef.nullary (TRef.of (T := ⟨S_, .f32⟩) main_call2_cst) (constant S_ .f32 0xFF800000#32),
    TRef.binary (TRef.of (T := ⟨S50000x40, .f32⟩) main_v173) (TRef.of (T := ⟨S_, .f32⟩) main_call2_cst) (TRef.of (T := ⟨S50000, .f32⟩) main_call2_v0) (fun x v => Host.reduce FloatOps.maximumf x v reducesTo_S50000x40_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x40, .f32⟩) main_call2_v4) (broadcastInDim S50000x40 ![0, 1] bcast_S50000x1_S50000x40_0_1),
    TRef.binary (TRef.of (T := ⟨S50000x40, .f32⟩) main_v173) (TRef.of (T := ⟨S50000x40, .f32⟩) main_call2_v4) (TRef.of (T := ⟨S50000x40, .f32⟩) main_call2_v5) subf,
    TRef.unary (TRef.of (T := ⟨S50000x40, .f32⟩) main_call2_v5) (TRef.of (T := ⟨S50000x40, .f32⟩) main_call2_v6) Host.exp,
    TRef.nullary (TRef.of (T := ⟨S_, .f32⟩) main_call2_cst_1) (constant S_ .f32 0x00000000#32),
    TRef.binary (TRef.of (T := ⟨S50000x40, .f32⟩) main_call2_v6) (TRef.of (T := ⟨S_, .f32⟩) main_call2_cst_1) (TRef.of (T := ⟨S50000, .f32⟩) main_call2_v7) (fun x v => Host.reduceAdd x v reducesTo_S50000x40_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x40, .f32⟩) main_call2_v10) (broadcastInDim S50000x40 ![0, 1] bcast_S50000x1_S50000x40_0_1),
    TRef.binary (TRef.of (T := ⟨S50000x40, .f32⟩) main_call2_v5) (TRef.of (T := ⟨S50000x40, .f32⟩) main_call2_v10) (TRef.of (T := ⟨S50000x40, .f32⟩) main_v174) subf ]

theorem opsB3_split : (opsB3 (F := Ideal)) = bodyB3 ++ lsmOps := rfl

/-- The buffers before the logarithm of the row softmax. -/
def C6a : Valuation τ sig (Elt Ideal) := after bodyB3 (C5 m d)

theorem C6_eq : C6 m d = after lsmOps (C6a m d) := by
  unfold C6 C6a; rw [opsB3_split, RefOps.after_append]

attribute [local irreducible] Host.scatterAdd Host.gather Host.reduce Host.reduceAdd Ideal.matmul Ideal.hostScatterAdd in
/-- The logits: the aggregate of the product, plus the bias. -/
theorem C6a_v173 : (C6a m d (Proc.devRef .tc main_v173) : FVec Ideal S50000x40 .f32) = addf (agg40R (m ((d.tc : Thread nD τ).loc main_arg1)) (Host.dotGeneral (F := Ideal) (φ₁ := .f32) (φ₂ := .f32) dot_S50000x128_S128x40_S50000x40_1_0_0_1_n_n none (H2R (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5))) (m ((d.tc : Thread nD τ).loc main_arg6) : FVec Ideal S128x40 .f32) : FVec Ideal S50000x40 .f32)) (bias40R (m ((d.tc : Thread nD τ).loc main_arg7))) := by
  unfold C6a; after_results_simp
  rw [C5_v1, C5_v3, C5_v131, C5_v147, C5_v132, C5_arg7]
  rfl

end Cert.ReferenceIdeal.RefRun

end
-- ==== Proof.RefLsm.lean ====
/-
  The reference's last call: the logarithm of a row softmax, read off its fifteen operations.

  The called function's operations write one buffer each: the row maxima from −∞ (and once more against a splat of
  −∞), their spread over the columns, the difference, its exponentials, their sums along the rows from zero, the
  logarithm of the sums spread over the columns, and the final difference.  Each operation is stated at the type of the
  tensor value it produces and stored in a buffer whose own type is that type, so a value written and read back passes
  through the identity twice; cancelling those round trips leaves the composed term of the call's argument, which is
  the reference's spelling of the logarithm of the row softmax.
-/
import proofs.«103093_j44641890074931_1_alg».proof.Proof.RefB3a

set_option maxRecDepth 16384

noncomputable section

namespace Cert.ReferenceIdeal.RefRun

open Cert.ReferenceIdeal Cert.ReferenceIdeal.Gen Cert.ReferenceIdeal.RefOps Cert.ReferenceIdeal.RefValue
open Idealize.ShloMosaic Idealize.ShloMosaic.TcCoe Idealize.SL.Sem Idealize.ShloMosaic.StableHlo

/-- Contents moved to a buffer's own type and back are the contents. -/
theorem ofBuf_toBuf {sg : RefSig} {Val : EltTy → Type} {T : BufTy} (x : TRef sg T) (v : T.Contents Val) :
    x.ofBuf (x.toBuf v) = v := by
  obtain ⟨r, rfl, hd, hu⟩ := x
  rfl

set_option maxHeartbeats 4000000 in
/-- After the call's fifteen operations the result buffer holds the logarithm of the row softmax, in the reference's
    spelling, of what the argument buffer held. -/
theorem lsm_step (V : Valuation τ sig (Elt Ideal)) :
    after (lsmOps (F := Ideal)) V (Proc.devRef .tc main_v174) = lsmR (V (Proc.devRef .tc main_v173)) := by
  after_results_simp
  simp only [ofBuf_toBuf]
  rfl

end Cert.ReferenceIdeal.RefRun

end
-- ==== Proof.RefRun.lean ====
/-
  What the idealized reference computes: its result array as ONE function of the argument arrays.

  The logarithm of the row softmax of the third layer's logits is the result. With the parts before it read the same
  way, every weakly fair execution terminates with the result at the three-layer network of the arguments and the
  arguments as launched.
-/
import proofs.«103093_j44641890074931_1_alg».proof.Proof.RefLsm

set_option maxRecDepth 16384

noncomputable section

namespace Cert.ReferenceIdeal.RefRun

open Cert.ReferenceIdeal Cert.ReferenceIdeal.Gen Cert.ReferenceIdeal.RefOps Cert.ReferenceIdeal.RefValue
open Idealize.ShloMosaic Idealize.ShloMosaic.TcCoe Idealize.SL.Sem Idealize.ShloMosaic.StableHlo

variable (m : (ℓ : Loc nD τ sig) → Buf (Elt Ideal) ℓ) (d : Dev nD)

theorem C6_v174 : C6 m d (Proc.devRef .tc main_v174) = outR (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) := by
  rw [C6_eq, lsm_step, C6a_v173]
  rfl

/-- Every weakly fair execution of the reference's @main terminates, nothing faulting, with the result array at the
    three-layer network of the arguments and the arguments as launched. -/
theorem run (ρ : Dev nD → PrngReg) :
    θ_run defs (onTc (τ := τ) (main (F := Ideal))) ⟨m, fun _ => 0, ρ⟩ fun r => ∀ d : Dev nD,
      r.2.mem ((d.tc : Thread nD τ).loc main_v174) = outR (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7))
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)
      ∧ r.2.mem ((d.tc : Thread nD τ).loc main_arg6) = m ((d.tc : Thread nD τ).loc main_arg6)
      ∧ r.2.mem ((d.tc : Thread nD τ).loc main_arg7) = m ((d.tc : Thread nD τ).loc main_arg7) :=
  (θ_run defs _ _).mono (fun r h d =>
      ⟨(h d main_v174).trans (C6_v174 m d),
       (h d main_arg0).trans (C6_arg0 m d),
       (h d main_arg1).trans (C6_arg1 m d),
       (h d main_arg2).trans (C6_arg2 m d),
       (h d main_arg3).trans (C6_arg3 m d),
       (h d main_arg4).trans (C6_arg4 m d),
       (h d main_arg5).trans (C6_arg5 m d),
       (h d main_arg6).trans (C6_arg6 m d),
       (h d main_arg7).trans (C6_arg7 m d)⟩)
    (run_all m ρ)

end Cert.ReferenceIdeal.RefRun

end
-- ==== Proof.LibRealSums.lean ====
/-
  Finite sums of real numbers inside the extended reals, and a quotient moved across such a sum.

  General facts, with no program in sight: `Fin' x` says that the extended real `x` is a real; a finite sum and a sum of two such are
  again real (`fin'_sum`, `fin'_add`), the coercion of a finite real sum is the sum of the coercions (`coe_sum`), the inverse of any
  extended real is a real (`fin'_inv`), and `div_sum_mul`: for real `a c`, `h c` and any `D ≠ 0`,
  `(∑ c, a c · h c) / D = ∑ c, (a c / D) · h c` for the extended reals' own division.  The use: a row normalised before a
  matrix product against the same row normalised after it.

  One program divides every entry of a row of `a` by the row's total `D` and then takes the row's inner product with a
  column of `h`; the other takes the inner product first and divides once.  On the extended reals a quotient by a nonzero
  `D` is the product with the inverse of `D`, which is always a real, and a real factor moves across a finite sum of REAL
  terms — but not across a sum that may hold both infinities, which is why every entry of `a` and `h` is asked to be a real here.
  (Division by zero is not a product at all on the extended reals, hence `D ≠ 0`.)
-/
import Idealize.ShloMosaic.PureOps.Ideal

noncomputable section

open scoped BigOperators

namespace Cert.Lib.RealSums

open Idealize.ShloMosaic

/-- "Neither infinity": the extended real is a real number. -/
def Fin' (x : EReal) : Prop := x ≠ ⊤ ∧ x ≠ ⊥

theorem Fin'.exists_real {x : EReal} (h : Fin' x) : ∃ r : ℝ, x = (r : EReal) :=
  ⟨x.toReal, (EReal.coe_toReal h.1 h.2).symm⟩

theorem fin'_coe (r : ℝ) : Fin' (r : EReal) := ⟨EReal.coe_ne_top r, EReal.coe_ne_bot r⟩

/-- The coercion of a finite sum of reals is the sum of the coercions. -/
theorem coe_sum {ι : Type*} (s : Finset ι) (f : ι → ℝ) : ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-- A finite sum of reals is a real. -/
theorem fin'_sum {ι : Type*} (s : Finset ι) (a : ι → EReal) (ha : ∀ c, Fin' (a c)) : Fin' (∑ c ∈ s, a c) := by
  choose a' ha' using fun c => (ha c).exists_real
  have : (∑ c ∈ s, a c) = ((∑ c ∈ s, a' c : ℝ) : EReal) := by
    rw [coe_sum]; exact Finset.sum_congr rfl fun c _ => ha' c
  rw [this]; exact fin'_coe _

theorem fin'_add {x y : EReal} (hx : Fin' x) (hy : Fin' y) : Fin' (x + y) := by
  obtain ⟨a, rfl⟩ := hx.exists_real
  obtain ⟨b, rfl⟩ := hy.exists_real
  rw [← EReal.coe_add]; exact fin'_coe _

theorem fin'_zero : Fin' (0 : EReal) := by
  rw [← EReal.coe_zero]; exact fin'_coe _

/-- The inverse of an extended real is never an infinity (the inverses of both infinities, and of zero, are zero). -/
theorem fin'_inv (D : EReal) : Fin' D⁻¹ := by
  induction D using EReal.rec
  · rw [EReal.inv_bot]; exact fin'_zero
  · rw [← EReal.coe_inv]; exact fin'_coe _
  · rw [EReal.inv_top]; exact fin'_zero

/-- THE LAW. For real entries and a nonzero divisor, dividing the inner product is the inner product of the divided entries:
    off zero a quotient is the product with the divisor's inverse, which is a real, and a real factor moves across a sum of reals. -/
theorem div_sum_mul {ι : Type*} (s : Finset ι) (a h : ι → EReal) (D : EReal)
    (ha : ∀ c, Fin' (a c)) (hh : ∀ c, Fin' (h c)) (hD0 : D ≠ 0) :
    Ideal.div (∑ c ∈ s, a c * h c) D = ∑ c ∈ s, Ideal.div (a c) D * h c := by
  obtain ⟨e, he⟩ := (fin'_inv D).exists_real
  choose a' ha' using fun c => (ha c).exists_real
  choose h' hh' using fun c => (hh c).exists_real
  have e1 : (∑ c ∈ s, a c * h c) = ((∑ c ∈ s, a' c * h' c : ℝ) : EReal) := by
    rw [coe_sum]; exact Finset.sum_congr rfl fun c _ => by rw [ha' c, hh' c, EReal.coe_mul]
  have e2 : (∑ c ∈ s, Ideal.div (a c) D * h c) = ((∑ c ∈ s, a' c * e * h' c : ℝ) : EReal) := by
    rw [coe_sum]
    exact Finset.sum_congr rfl fun c _ => by rw [Ideal.div, if_neg hD0, he, ha' c, hh' c, EReal.coe_mul, EReal.coe_mul]
  rw [e1, e2, Ideal.div, if_neg hD0, he, ← EReal.coe_mul, Finset.sum_mul]
  exact congrArg _ (Finset.sum_congr rfl fun c _ => by ring)

end Cert.Lib.RealSums

end
-- ==== Proof.GcnMath.lean ====
/-
  A graph layer that aggregates before or after a matrix product.

  A layer gathers, at every node, the weighted rows of a feature array along the edges that land on the node, and adds a
  weighted copy of the node's own row.  With "hit e n" saying that edge "e" lands on node "n", "src e" the node that edge "e"
  reads, "nm e" the weight of the edge and "sn n" the weight of the node's own row, the gathered array is

    aggAt hit src nm sn h n o = (∑ e, if hit e n then nm e · h (src e) o else 0) + sn n · h n o.

  One program gathers first and multiplies the gathered rows by a matrix "W" afterwards; the other multiplies every row by "W"
  first and gathers the products.  Over the reals the two agree: the product with a column of "W" is a finite sum, it
  distributes over the sum of the gathered terms and over the added own-row term, the two finite sums change places, and
  each edge weight moves out of the inner sum.  On the extended reals a factor does not distribute over a sum that may hold both
  infinities, so the law ("aggAt_dot") is stated for data all of whose entries are reals ("Fin'"), and is proved by naming
  the real numbers behind the entries, writing both sides as the coercion of a real expression, and proving the identity
  there.  Beside it: products, maxima, inner products and gathered entries of reals are reals, which is what lets the law
  be applied layer after layer; and the two forms of one whole layer (bias added, then the maximum with a floor) agree and
  are real.

  Every statement is over abstract finite index types; nothing is ever enumerated.
-/
import proofs.«103093_j44641890074931_1_alg».proof.Proof.LibRealSums

noncomputable section

open scoped BigOperators

namespace Gcn.Math

open Cert.Lib.RealSums

variable {N E K C : Nat}

/-- The gathered entry at node "n", column "o": the weighted entries "h (src e) o" over the edges "e" that land on "n",
    plus the node's own entry "h n o" weighted by "sn n". -/
def aggAt (hit : Fin E → Fin N → Prop) [∀ e n, Decidable (hit e n)] (src : Fin E → Fin N) (nm : Fin E → EReal)
    (sn : Fin N → EReal) (h : Fin N → Fin C → EReal) (n : Fin N) (o : Fin C) : EReal :=
  (∑ e : Fin E, if hit e n then nm e * h (src e) o else 0) + sn n * h n o

/-- The product of two reals is a real. -/
theorem fin'_mul {x y : EReal} (hx : Fin' x) (hy : Fin' y) : Fin' (x * y) := by
  obtain ⟨a, rfl⟩ := hx.exists_real
  obtain ⟨b, rfl⟩ := hy.exists_real
  rw [← EReal.coe_mul]; exact fin'_coe _

/-- The larger of two reals is a real: it is one of the two. -/
theorem fin'_max {x y : EReal} (hx : Fin' x) (hy : Fin' y) : Fin' (max x y) := by
  rcases max_choice x y with h | h
  · rw [h]; exact hx
  · rw [h]; exact hy

/-- The inner product of two families of reals is a real. -/
theorem fin'_dot (a b : Fin K → EReal) (ha : ∀ k, Fin' (a k)) (hb : ∀ k, Fin' (b k)) : Fin' (∑ k, a k * b k) :=
  fin'_sum _ _ fun k => fin'_mul (ha k) (hb k)

/-- A gathered entry of real data with real weights is a real: every term of the edge sum is a product of reals or zero,
    and so is the own-row term. -/
theorem fin'_aggAt (hit : Fin E → Fin N → Prop) [∀ e n, Decidable (hit e n)] (src : Fin E → Fin N) (nm : Fin E → EReal)
    (sn : Fin N → EReal) (h : Fin N → Fin C → EReal) (hnm : ∀ e, Fin' (nm e)) (hsn : ∀ n, Fin' (sn n))
    (hh : ∀ n o, Fin' (h n o)) (n : Fin N) (o : Fin C) : Fin' (aggAt hit src nm sn h n o) := by
  unfold aggAt
  refine fin'_add (fin'_sum _ _ fun e => ?_) (fin'_mul (hsn n) (hh n o))
  split_ifs
  · exact fin'_mul (hnm e) (hh (src e) o)
  · exact fin'_zero

/-- The gathered entry of data given by real numbers is the coercion of the same expression computed in the reals. -/
theorem aggAt_coe (hit : Fin E → Fin N → Prop) [∀ e n, Decidable (hit e n)] (src : Fin E → Fin N) (nm : Fin E → ℝ)
    (sn : Fin N → ℝ) (h : Fin N → Fin C → ℝ) (n : Fin N) (o : Fin C) :
    aggAt hit src (fun e => (nm e : EReal)) (fun n => (sn n : EReal)) (fun n o => (h n o : EReal)) n o
      = (((∑ e : Fin E, if hit e n then nm e * h (src e) o else 0) + sn n * h n o : ℝ) : EReal) := by
  unfold aggAt
  rw [EReal.coe_add, coe_sum, EReal.coe_mul]
  congr 1
  refine Finset.sum_congr rfl fun e _ => ?_
  split_ifs
  · rw [EReal.coe_mul]
  · rw [EReal.coe_zero]

/-- The exchange in the reals: the product with a column of "W" distributes over the edge sum and the own-row term, the
    sums over edges and over the contracted index change places, and each weight moves out of the inner sum. -/
theorem real_aggAt_dot (hit : Fin E → Fin N → Prop) [∀ e n, Decidable (hit e n)] (src : Fin E → Fin N) (nm : Fin E → ℝ)
    (sn : Fin N → ℝ) (h : Fin N → Fin K → ℝ) (W : Fin K → Fin C → ℝ) (n : Fin N) (q : Fin C) :
    ∑ k : Fin K, ((∑ e : Fin E, if hit e n then nm e * h (src e) k else 0) + sn n * h n k) * W k q
      = (∑ e : Fin E, if hit e n then nm e * ∑ k : Fin K, h (src e) k * W k q else 0)
          + sn n * ∑ k : Fin K, h n k * W k q := by
  simp only [add_mul, Finset.sum_add_distrib, Finset.sum_mul]
  rw [Finset.sum_comm]
  congr 1
  · refine Finset.sum_congr rfl fun e _ => ?_
    split_ifs
    · rw [Finset.mul_sum]; exact Finset.sum_congr rfl fun k _ => by ring
    · simp
  · rw [Finset.mul_sum]; exact Finset.sum_congr rfl fun k _ => by ring

/-- THE LAW. For real data, real weights and a real matrix, gathering and then multiplying by the matrix is multiplying
    every row by the matrix and then gathering. -/
theorem aggAt_dot (hit : Fin E → Fin N → Prop) [∀ e n, Decidable (hit e n)] (src : Fin E → Fin N) (nm : Fin E → EReal)
    (sn : Fin N → EReal) (h : Fin N → Fin K → EReal) (W : Fin K → Fin C → EReal)
    (hnm : ∀ e, Fin' (nm e)) (hsn : ∀ n, Fin' (sn n)) (hh : ∀ n k, Fin' (h n k)) (hW : ∀ k q, Fin' (W k q))
    (n : Fin N) (q : Fin C) :
    ∑ k : Fin K, aggAt hit src nm sn h n k * W k q
      = aggAt hit src nm sn (fun n' q' => ∑ k : Fin K, h n' k * W k q') n q := by
  choose nm' hnm' using fun e => (hnm e).exists_real
  choose sn' hsn' using fun n => (hsn n).exists_real
  choose h' hh' using fun n k => (hh n k).exists_real
  choose W' hW' using fun k q => (hW k q).exists_real
  obtain rfl : nm = fun e => (nm' e : EReal) := funext hnm'
  obtain rfl : sn = fun n => (sn' n : EReal) := funext hsn'
  obtain rfl : h = fun n k => (h' n k : EReal) := funext fun n => funext (hh' n)
  obtain rfl : W = fun k q => (W' k q : EReal) := funext fun k => funext (hW' k)
  have inner : (fun (n' : Fin N) (q' : Fin C) => ∑ k : Fin K, (h' n' k : EReal) * (W' k q' : EReal))
      = fun n' q' => ((∑ k : Fin K, h' n' k * W' k q' : ℝ) : EReal) := by
    funext n' q'
    rw [coe_sum]
    exact Finset.sum_congr rfl fun k _ => (EReal.coe_mul _ _).symm
  beta_reduce
  rw [inner, aggAt_coe, ← real_aggAt_dot, coe_sum]
  refine Finset.sum_congr rfl fun k _ => ?_
  rw [aggAt_coe, EReal.coe_mul]

/-- One whole layer, both ways: bias added to the product and the maximum with a floor "z" taken.  The two forms agree
    because the entries under the bias agree. -/
theorem layer_exchange (hit : Fin E → Fin N → Prop) [∀ e n, Decidable (hit e n)] (src : Fin E → Fin N)
    (nm : Fin E → EReal) (sn : Fin N → EReal) (h : Fin N → Fin K → EReal) (W : Fin K → Fin C → EReal)
    (hnm : ∀ e, Fin' (nm e)) (hsn : ∀ n, Fin' (sn n)) (hh : ∀ n k, Fin' (h n k)) (hW : ∀ k q, Fin' (W k q))
    (n : Fin N) (q : Fin C) (b : Fin C → EReal) (z : EReal) :
    max ((∑ k : Fin K, aggAt hit src nm sn h n k * W k q) + b q) z
      = max (aggAt hit src nm sn (fun n' q' => ∑ k : Fin K, h n' k * W k q') n q + b q) z := by
  rw [aggAt_dot hit src nm sn h W hnm hsn hh hW n q]

/-- The output of one whole layer on real data (real weights, matrix and bias, floor zero) is a real. -/
theorem fin'_layer (hit : Fin E → Fin N → Prop) [∀ e n, Decidable (hit e n)] (src : Fin E → Fin N)
    (nm : Fin E → EReal) (sn : Fin N → EReal) (h : Fin N → Fin K → EReal) (W : Fin K → Fin C → EReal)
    (hnm : ∀ e, Fin' (nm e)) (hsn : ∀ n, Fin' (sn n)) (hh : ∀ n k, Fin' (h n k)) (hW : ∀ k q, Fin' (W k q))
    (n : Fin N) (q : Fin C) (b : Fin C → EReal) (hb : ∀ q, Fin' (b q)) :
    Fin' (max ((∑ k : Fin K, aggAt hit src nm sn h n k * W k q) + b q) 0) :=
  fin'_max
    (fin'_add
      (fin'_dot _ _ (fun k => fin'_aggAt hit src nm sn h hnm hsn hh n k) (fun k => hW k q))
      (hb q))
    fin'_zero

end Gcn.Math

end
-- ==== Proof.GcnLayers.lean ====
/-
  One graph layer computed either way.

  Let `AK` aggregate feature arrays of K columns and `AC` arrays of C columns, both reading entry (n, o) as
      Σ_e [e lands on n] · nm e · h (src e, o)  +  sn n · h (n, o)
  with the SAME edges, weights and sources (the aggregate does not look at the number of columns). For real features,
  weights and edge weights,
      (AK h) · W + b   =   AC (h · W) + b       entry by entry,
  since both are finite sums of products of reals and the two orders of summation agree; with the rectifier on both
  sides the result is again an array of reals, so the next layer may use the law again.
-/
import proofs.«103093_j44641890074931_1_alg».proof.Proof.GcnMath
import proofs.«103093_j44641890074931_1_alg».proof.Proof.LibDenseLayer
import proofs.«103093_j44641890074931_1_alg».proof.Proof.LibLogSoftmaxRows

noncomputable section

open scoped BigOperators

namespace Gcn.Layer

open Idealize.ShloMosaic Idealize.ShloMosaic.ValueIdx Cert.Lib.RealSums Cert.Lib.DenseLayer Cert.Lib.DotColsHost Gcn.Math

variable {N E K C : ℕ}

section

variable (AK : FVec Ideal ⟨2, ![N, K]⟩ .f32 → FVec Ideal ⟨2, ![N, K]⟩ .f32)
  (AC : FVec Ideal ⟨2, ![N, C]⟩ .f32 → FVec Ideal ⟨2, ![N, C]⟩ .f32)
  (hit : Fin E → Fin N → Prop) [∀ e n, Decidable (hit e n)] (src : Fin E → Fin N) (nm : Fin E → EReal) (sn : Fin N → EReal)
  (hAK : ∀ (h : FVec Ideal ⟨2, ![N, K]⟩ .f32) (n : Fin N) (o : Fin K),
    AK h (ix2 n o) = aggAt hit src nm sn (fun n' o' => h (ix2 n' o')) n o)
  (hAC : ∀ (h : FVec Ideal ⟨2, ![N, C]⟩ .f32) (n : Fin N) (o : Fin C),
    AC h (ix2 n o) = aggAt hit src nm sn (fun n' o' => h (ix2 n' o')) n o)
  (hnm : ∀ e, Fin' (nm e)) (hsn : ∀ n, Fin' (sn n))
  (D : DotDims ⟨2, ![N, K]⟩ ⟨2, ![K, C]⟩ ⟨2, ![N, C]⟩) (hD : D = DotDims.plain N K C)
  (hb1 : (⟨1, ![C]⟩ : Shape).BroadcastsInDim ⟨2, ![1, C]⟩ ![1])
  (hb2 : (⟨2, ![1, C]⟩ : Shape).BroadcastsInDim ⟨2, ![N, C]⟩ ![0, 1])
  (hb0 : (⟨0, ![]⟩ : Shape).BroadcastsInDim ⟨2, ![N, C]⟩ ![])
  (hsc : (⟨1, ![C]⟩ : Shape).ShapeCasts ⟨2, ![1, C]⟩)
  (h : FVec Ideal ⟨2, ![N, K]⟩ .f32) (W : FVec Ideal ⟨2, ![K, C]⟩ .f32) (b : FVec Ideal ⟨1, ![C]⟩ .f32)
  (hh : ∀ i, Fin' (h i)) (hW : ∀ i, Fin' (W i))

include hAC hD in
/-- The reference's aggregate of the product, at an entry. -/
theorem agg_dot_apply (n : Fin N) (q : Fin C) :
    AC (Host.dotGeneral D none h W) (ix2 n q)
      = aggAt hit src nm sn (fun n' q' => ∑ k : Fin K, h (ix2 n' k) * W (ix2 k q')) n q := by
  rw [hAC]
  exact congrArg (fun g => aggAt hit src nm sn g n q)
    (funext fun n' => funext fun q' => dotGeneral_cols_apply D hD none .single h W n' q')

include hAK hAC hnm hsn hD hh hW in
/-- Aggregate, multiply, add the bias: the same array as multiply, aggregate, add the bias. -/
theorem affine_eq :
    affine (AK h) W (shapeCast ⟨2, ![1, C]⟩ b hsc)
      = addf (AC (Host.dotGeneral D none h W))
          (broadcastInDim ⟨2, ![N, C]⟩ ![0, 1] hb2 (broadcastInDim ⟨2, ![1, C]⟩ ![1] hb1 b)) := by
  funext i
  obtain ⟨n, q, rfl⟩ : ∃ (n : Fin N) (q : Fin C), i = ix2 n q := ⟨i 0, i 1, eq_ix2 i⟩
  rw [affine_apply, addf_apply, Cert.Lib.DenseLayer.bias_rows_apply hb1 hb2 b n q, bias_cast_apply hsc b q,
    agg_dot_apply AC hit src nm sn hAC D hD h W n q]
  refine congrArg (· + b (ix1 q)) ?_
  rw [show (fun k : Fin K => AK h (ix2 n k) * W (ix2 k q))
      = fun k : Fin K => aggAt hit src nm sn (fun n' o' => h (ix2 n' o')) n k * W (ix2 k q) from
    funext fun k => by rw [hAK]]
  exact aggAt_dot hit src nm sn (fun n' o' => h (ix2 n' o')) (fun k q' => W (ix2 k q')) hnm hsn
    (fun n' k => hh _) (fun k q' => hW _) n q

include hAK hAC hnm hsn hD hh hW in
/-- The rectified layer computed either way. -/
theorem affineRelu_eq :
    affineRelu (AK h) W (shapeCast ⟨2, ![1, C]⟩ b hsc)
      = maximumf (addf (AC (Host.dotGeneral D none h W))
          (broadcastInDim ⟨2, ![N, C]⟩ ![0, 1] hb2 (broadcastInDim ⟨2, ![1, C]⟩ ![1] hb1 b)))
        (broadcastInDim ⟨2, ![N, C]⟩ ![] hb0 (constant (F := Ideal) ⟨0, ![]⟩ .f32 0x00000000#32)) := by
  rw [← affine_eq AK AC hit src nm sn hAK hAC hnm hsn D hD hb1 hb2 hsc h W b hh hW]
  funext i
  rw [maximumf_apply, broadcastInDim_apply ![] hb0 _ i ix0 (fun a => a.elim0)]
  rfl

include hAK hnm hsn hh hW in
/-- The rectified layer of real data is an array of reals. -/
theorem affineRelu_real (hb : ∀ i, Fin' (b i)) (i : (⟨2, ![N, C]⟩ : Shape).Idx) :
    Fin' (affineRelu (AK h) W (shapeCast ⟨2, ![1, C]⟩ b hsc) i) := by
  obtain ⟨n, q, rfl⟩ : ∃ (n : Fin N) (q : Fin C), i = ix2 n q := ⟨i 0, i 1, eq_ix2 i⟩
  rw [affineRelu_apply, bias_cast_apply hsc b q, Ideal.ofBits_zero_f32,
    show (fun k : Fin K => AK h (ix2 n k) * W (ix2 k q))
      = fun k : Fin K => aggAt hit src nm sn (fun n' o' => h (ix2 n' o')) n k * W (ix2 k q) from
    funext fun k => by rw [hAK]]
  exact fin'_layer hit src nm sn (fun n' o' => h (ix2 n' o')) (fun k q' => W (ix2 k q')) hnm hsn
    (fun n' k => hh _) (fun k q' => hW _) n q (fun q' => b (ix1 q')) (fun q' => hb _)

end

end Gcn.Layer

end
-- ==== Proof.Bridge.lean ====
/-
  The two networks are the same array.

  The kernel aggregates the features of a layer along the edges first and multiplies by the layer's matrix afterwards;
  the reference multiplies first and aggregates afterwards.  Both take the edge weights from the same edge list by the
  same computation: the inverse square root of every node's degree (one plus the number of edges landing on it), its
  product at an edge's two ends, its square at a node.

  Three things are shown here.
  * The edge arrays of the two programs are the same arrays (the two spellings differ only in the names of the same
    shapes and the same shape facts).
  * The weights are reals.  A degree is a count plus one, so a real that is at least one; its square root is a positive
    real; one divided by a nonzero real is a real.  (A quotient by zero would be an infinity, which is why the count is
    needed and not only the shape of the formula.)  A gathered array only repeats entries of its operand.
  * Layer by layer, on real features, matrices and biases: aggregate-then-multiply is multiply-then-aggregate, the
    rectified result is again real, and after the third layer both programs take the same logarithm of a row softmax.
    Hence the whole networks agree.

  Nothing is evaluated over the nodes or the edges: every step is about an arbitrary entry.
-/
import proofs.«103093_j44641890074931_1_alg».proof.Proof.KNet
import proofs.«103093_j44641890074931_1_alg».proof.Proof.RefValue
import proofs.«103093_j44641890074931_1_alg».proof.Proof.GcnLayers

set_option maxRecDepth 16384

noncomputable section

open scoped BigOperators

namespace Cert.Bridge

open Idealize.ShloMosaic Idealize.ShloMosaic.ValueIdx
open Cert.KernelIdeal (S50000x128 S2x800000 S128x128 S128 S128x40 S40 S50000 S800000 S50000x40)
open Cert.KernelIdeal.HostValue Cert.KernelIdeal.KValue Cert.ReferenceIdeal.RefValue
open Cert.Lib.RealSums Gcn.Math

/-! ## The edge arrays are the same arrays in the two spellings -/

/-- The wrapped source column is one array in the two spellings. -/
theorem rowc_eq (ei : IVec S2x800000 32) : wrapCol (rowK ei) = wrapColR (rowR ei) := rfl

/-- The wrapped target column is one array in the two spellings. -/
theorem colc_eq (ei : IVec S2x800000 32) : wrapCol (colK ei) = wrapColR (colR ei) := rfl

/-- The inverse square roots of the degrees are one array in the two spellings. -/
theorem dinv_eq (ei : IVec S2x800000 32) : dinvK ei = dinvR ei := rfl

/-- The edge weights are one array in the two spellings. -/
theorem norm_eq (ei : IVec S2x800000 32) : normK ei = normR ei := rfl

/-- The self weights are one array in the two spellings. -/
theorem self_eq (ei : IVec S2x800000 32) : selfK ei = selfR ei := rfl

/-! ## The weights are reals -/

/-- The word 0x3F800000 denotes the real number one. -/
theorem one_word : Ideal.ofBits .f32 0x3F800000#32 = (1 : EReal) := by
  rw [show (1 : EReal) = ((1 : ℝ) : EReal) by norm_cast]
  simp [Ideal.ofBits, Ideal.ieee, -EReal.coe_mul]; norm_num

/-- Ones scatter-added into zeros: every entry is a count, a real that is not negative. -/
theorem scatter_ones_entry {s si su : Shape} {w : ℕ} (d : ScatterDims s si su) (zeros : FVec Ideal s .f32)
    (idx : IVec si w) (ones : FVec Ideal su .f32) (hz : ∀ i, zeros i = 0) (h1 : ∀ j, ones j = 1) (i : s.Idx) :
    ∃ r : ℝ, 0 ≤ r ∧ Host.scatterAdd d zeros idx ones i = (r : EReal) := by
  have key : ∀ T : Finset su.Idx, ∃ r : ℝ, 0 ≤ r ∧ zeros i + ∑ j ∈ T, ones j = (r : EReal) := fun T =>
    ⟨∑ _j ∈ T, (1 : ℝ), Finset.sum_nonneg fun _ _ => zero_le_one, by
      rw [hz, zero_add, coe_sum]
      exact Finset.sum_congr rfl fun j _ => (h1 j).trans EReal.coe_one.symm⟩
  show ∃ r : ℝ, 0 ≤ r ∧ Ideal.hostScatterAdd d zeros idx ones i = (r : EReal)
  unfold Ideal.hostScatterAdd
  exact key _

/-- One over the square root of a count plus one is a real. -/
theorem fin'_div_sqrt_succ (r : ℝ) (hr : 0 ≤ r) : Fin' (Ideal.div 1 (Ideal.sqrt ((r : EReal) + 1))) := by
  have hpos : 0 < r + 1 := by linarith
  have e1 : ((r : EReal) + 1) = ((r + 1 : ℝ) : EReal) := by rw [EReal.coe_add, EReal.coe_one]
  have e2 : Ideal.sqrt ((r + 1 : ℝ) : EReal) = ((Real.sqrt (r + 1) : ℝ) : EReal) := by
    show (if r + 1 < 0 then (⊥ : EReal) else ((Real.sqrt (r + 1) : ℝ) : EReal)) = _
    rw [if_neg (not_lt.2 hpos.le)]
  rw [e1, e2, Ideal.div_coe (Real.sqrt_pos.2 hpos).ne']
  exact fin'_mul (by rw [← EReal.coe_one]; exact fin'_coe 1) (fin'_coe _)

/-- The inverse square root of the degree, entry by entry, for any shapes. -/
theorem fin'_inv_sqrt_degree {s si su : Shape} {w : ℕ} (d : ScatterDims s si su) (zeros ones : FVec Ideal s .f32)
    (idx : IVec si w) (onesU : FVec Ideal su .f32) (hz : ∀ i, zeros i = 0) (h1 : ∀ i, ones i = 1)
    (h1u : ∀ j, onesU j = 1) (i : s.Idx) :
    Fin' (Host.divf ones (Host.sqrt (addf (Host.scatterAdd d zeros idx onesU) ones)) i) := by
  obtain ⟨r, hr, e⟩ := scatter_ones_entry d zeros idx onesU hz h1u i
  show Fin' (Ideal.div (ones i) (Ideal.sqrt (Host.scatterAdd d zeros idx onesU i + ones i)))
  rw [e, h1]
  exact fin'_div_sqrt_succ r hr

/-- A gathered array of reals is an array of reals: every entry of the result is an entry of the operand. -/
theorem fin'_gather {s si t : Shape} {w : ℕ} (d : GatherDims s si t) (x : FVec Ideal s .f32) (idx : IVec si w)
    (hx : ∀ i, Fin' (x i)) (j : t.Idx) : Fin' (Host.gather d x idx j) := hx _

/-- The inverse square root of every node's degree is a real. -/
theorem dinv_real (ei : IVec S2x800000 32) (i : S50000.Idx) : Fin' (dinvK ei i) := by
  unfold dinvK
  exact fin'_inv_sqrt_degree _ _ _ _ _ (fun _ => Ideal.ofBits_zero_f32) (fun _ => one_word) (fun _ => one_word) i

/-- Every edge weight is a real. -/
theorem norm_real (ei : IVec S2x800000 32) (i : S800000.Idx) : Fin' (normK ei i) := by
  unfold normK
  rw [mulf_apply]
  exact fin'_mul (fin'_gather _ _ _ (dinv_real ei) i) (fin'_gather _ _ _ (dinv_real ei) i)

/-- Every self weight is a real. -/
theorem self_real (ei : IVec S2x800000 32) (i : S50000.Idx) : Fin' (selfK ei i) := by
  unfold selfK
  rw [mulf_apply]
  exact fin'_mul (dinv_real ei i) (dinv_real ei i)

/-! ## The aggregates at an entry, in one form -/

/-- Entry (n, o) of the kernel's aggregate: the edges landing on n weighted, plus the weighted self row. -/
theorem aggK_entry (ei : IVec S2x800000 32) (h : FVec Ideal S50000x128 .f32) (n : Fin 50000) (o : Fin 128) :
    aggOf ei h (ix2 n o)
      = aggAt (Gcn.Arr.hitOf (wrapCol (colK ei))) (Gcn.Arr.srcOf (by decide : 0 < 50000) (wrapCol (rowK ei)))
          (fun e => normK ei (ix1 e)) (fun n => selfK ei (ix1 n)) (fun n' o' => h (ix2 n' o')) n o :=
  Gcn.Arr.aggArr_apply (by decide : 0 < 50000) _ rfl rfl rfl rfl rfl rfl rfl _ rfl rfl rfl rfl _ _ _ _ _ _ _ _ _ _ n o

/-- Entry (n, o) of the reference's aggregate of 128 columns, with the same edges, sources and weights. -/
theorem aggR128_entry (ei : IVec S2x800000 32) (h : FVec Ideal S50000x128 .f32) (n : Fin 50000) (o : Fin 128) :
    agg128R ei h (ix2 n o)
      = aggAt (Gcn.Arr.hitOf (wrapCol (colK ei))) (Gcn.Arr.srcOf (by decide : 0 < 50000) (wrapCol (rowK ei)))
          (fun e => normK ei (ix1 e)) (fun n => selfK ei (ix1 n)) (fun n' o' => h (ix2 n' o')) n o := by
  rw [rowc_eq, colc_eq, norm_eq, self_eq]
  exact agg128R_apply ei h n o

/-- Entry (n, o) of the reference's aggregate of 40 columns, with the same edges, sources and weights. -/
theorem aggR40_entry (ei : IVec S2x800000 32) (h : FVec Ideal S50000x40 .f32) (n : Fin 50000) (o : Fin 40) :
    agg40R ei h (ix2 n o)
      = aggAt (Gcn.Arr.hitOf (wrapCol (colK ei))) (Gcn.Arr.srcOf (by decide : 0 < 50000) (wrapCol (rowK ei)))
          (fun e => normK ei (ix1 e)) (fun n => selfK ei (ix1 n)) (fun n' o' => h (ix2 n' o')) n o := by
  rw [rowc_eq, colc_eq, norm_eq, self_eq]
  exact agg40R_apply ei h n o

/-! ## Layer by layer -/

/-- The first layer: the two programs compute the same array. -/
theorem layer1_eq (x : FVec Ideal S50000x128 .f32) (ei : IVec S2x800000 32) (W1 : FVec Ideal S128x128 .f32)
    (b1 : FVec Ideal S128 .f32) (hx : ∀ i, Fin' (x i)) (hW1 : ∀ i, Fin' (W1 i)) :
    H1K x ei W1 b1 = H1R x ei W1 b1 := by
  unfold H1K H1R reluR bias128R
  exact Gcn.Layer.affineRelu_eq (aggOf ei) (agg128R ei) _ _ _ _ (aggK_entry ei) (aggR128_entry ei)
    (fun e => norm_real ei _) (fun n => self_real ei _)
    Cert.ReferenceIdeal.dot_S50000x128_S128x128_S50000x128_1_0_0_1_n_n rfl _ _ _ _ x W1 b1 hx hW1

/-- The first layer's output is an array of reals. -/
theorem layer1_real (x : FVec Ideal S50000x128 .f32) (ei : IVec S2x800000 32) (W1 : FVec Ideal S128x128 .f32)
    (b1 : FVec Ideal S128 .f32) (hx : ∀ i, Fin' (x i)) (hW1 : ∀ i, Fin' (W1 i)) (hb1 : ∀ i, Fin' (b1 i))
    (i : S50000x128.Idx) : Fin' (H1K x ei W1 b1 i) := by
  unfold H1K
  exact Gcn.Layer.affineRelu_real (aggOf ei) _ _ _ _ (aggK_entry ei) (fun e => norm_real ei _)
    (fun n => self_real ei _) _ x W1 b1 hx hW1 hb1 i

/-- The second layer: the two programs compute the same array. -/
theorem layer2_eq (x : FVec Ideal S50000x128 .f32) (ei : IVec S2x800000 32) (W1 : FVec Ideal S128x128 .f32)
    (b1 : FVec Ideal S128 .f32) (W2 : FVec Ideal S128x128 .f32) (b2 : FVec Ideal S128 .f32)
    (hx : ∀ i, Fin' (x i)) (hW1 : ∀ i, Fin' (W1 i)) (hb1 : ∀ i, Fin' (b1 i)) (hW2 : ∀ i, Fin' (W2 i)) :
    H2K x ei W1 b1 W2 b2 = H2R x ei W1 b1 W2 b2 := by
  unfold H2K H2R reluR bias128R
  rw [← layer1_eq x ei W1 b1 hx hW1]
  exact Gcn.Layer.affineRelu_eq (aggOf ei) (agg128R ei) _ _ _ _ (aggK_entry ei) (aggR128_entry ei)
    (fun e => norm_real ei _) (fun n => self_real ei _)
    Cert.ReferenceIdeal.dot_S50000x128_S128x128_S50000x128_1_0_0_1_n_n rfl _ _ _ _ (H1K x ei W1 b1) W2 b2
    (layer1_real x ei W1 b1 hx hW1 hb1) hW2

/-- The second layer's output is an array of reals. -/
theorem layer2_real (x : FVec Ideal S50000x128 .f32) (ei : IVec S2x800000 32) (W1 : FVec Ideal S128x128 .f32)
    (b1 : FVec Ideal S128 .f32) (W2 : FVec Ideal S128x128 .f32) (b2 : FVec Ideal S128 .f32)
    (hx : ∀ i, Fin' (x i)) (hW1 : ∀ i, Fin' (W1 i)) (hb1 : ∀ i, Fin' (b1 i)) (hW2 : ∀ i, Fin' (W2 i))
    (hb2 : ∀ i, Fin' (b2 i)) (i : S50000x128.Idx) : Fin' (H2K x ei W1 b1 W2 b2 i) := by
  unfold H2K
  exact Gcn.Layer.affineRelu_real (aggOf ei) _ _ _ _ (aggK_entry ei) (fun e => norm_real ei _)
    (fun n => self_real ei _) _ (H1K x ei W1 b1) W2 b2 (layer1_real x ei W1 b1 hx hW1 hb1) hW2 hb2 i

/-! ## The whole network -/

/-- THE BRIDGE. On real features, weight matrices and (first two) biases, the kernel's network and the reference's
    network are the same array. -/
theorem out_eq (x : FVec Ideal S50000x128 .f32) (ei : IVec S2x800000 32) (W1 : FVec Ideal S128x128 .f32)
    (b1 : FVec Ideal S128 .f32) (W2 : FVec Ideal S128x128 .f32) (b2 : FVec Ideal S128 .f32)
    (W3 : FVec Ideal S128x40 .f32) (b3 : FVec Ideal S40 .f32)
    (hx : ∀ i, Fin' (x i)) (hW1 : ∀ i, Fin' (W1 i)) (hb1 : ∀ i, Fin' (b1 i)) (hW2 : ∀ i, Fin' (W2 i))
    (hb2 : ∀ i, Fin' (b2 i)) (hW3 : ∀ i, Fin' (W3 i)) :
    outK x ei W1 b1 W2 b2 W3 b3 = outR x ei W1 b1 W2 b2 W3 b3 := by
  unfold outK outR
  rw [lsmR_eq, ← layer2_eq x ei W1 b1 W2 b2 hx hW1 hb1 hW2]
  unfold bias40R
  exact congrArg Gcn.Layers.logSoftmaxRows
    (Gcn.Layer.affine_eq (aggOf ei) (agg40R ei) _ _ _ _ (aggK_entry ei) (aggR40_entry ei)
      (fun e => norm_real ei _) (fun n => self_real ei _)
      Cert.ReferenceIdeal.dot_S50000x128_S128x40_S50000x40_1_0_0_1_n_n rfl _ _ _ (H2K x ei W1 b1 W2 b2) W3 b3
      (layer2_real x ei W1 b1 W2 b2 hx hW1 hb1 hW2 hb2) hW3)

end Cert.Bridge

end
-- ==== Proof.PreReal.lean ====
/-
  The precondition read back: every entry of every float argument is a real.

  The precondition computes, for each of the seven float arrays "x", the conjunction over all entries of "|x| < +∞" (the
  absolute value compared with the word of the positive infinity, the comparisons folded by "and" from the constant 1 over all
  axes), and takes the conjunction of the seven results; the hypothesis says that the final bit is 1.  A conjunction of bits
  is 1 only if both are, so each of the seven folds is 1; a fold by "and" that is 1 met only 1s, so the comparison is 1 at every
  entry.  On the extended reals the absolute value of "x" is the larger of "x" and "−x", the word 0x7F800000 is the top
  element, and "max x (−x) < ⊤" holds exactly when "x" is neither infinity: "x < ⊤" excludes the top, and "−x < ⊤"
  excludes the bottom, whose negation is the top.  The integer argument is not constrained and plays no part.

  Nothing is enumerated: the statement about all entries comes from the fold as a whole, and the element fact is stated
  once, for an arbitrary extended real.
-/
import proofs.«103093_j44641890074931_1_alg».proof.Pre_finite_inputs
import proofs.«103093_j44641890074931_1_alg».proof.Proof.LibRealSums
import Idealize.ShloMosaic.Lib.ReduceAll
import Idealize.ShloMosaic.Lib.ValueIdx
import Idealize.ShloMosaic.PureOps.Ideal

noncomputable section

namespace Cert.PreReal

open Idealize.ShloMosaic
open Cert.Lib.RealSums
open Cert.Pre_finite_inputs (S_)

/-- The shape with no axes has exactly one index. -/
instance subsingleton_scalar_idx : Subsingleton S_.Idx := ⟨fun a b => funext fun d => d.elim0⟩

/-- The word 0x7F800000 denotes the top element: sign clear, exponent all ones, significand zero. -/
theorem inf_word : Ideal.ofBits .f32 0x7F800000#32 = (⊤ : EReal) := by
  simp [Ideal.ofBits, Ideal.ieee]

/-- THE ELEMENT FACT. If "the larger of x and −x is below the word of +∞" came out 1, then "x" is a real: "x < ⊤" excludes the
    top element and "−x < ⊤" excludes the bottom one, whose negation is the top. -/
theorem fin'_of_abs_lt_inf (x : EReal)
    (h : Ideal.cmp .olt (max x (-x)) (Ideal.ofBits .f32 0x7F800000#32) = 1#1) : Fin' x := by
  rw [inf_word] at h
  have hlt : max x (-x) < ⊤ := by
    by_contra hn
    have h0 : Ideal.cmp .olt (max x (-x)) ⊤ = 0#1 := by
      unfold Ideal.cmp
      rw [decide_eq_false hn]
      rfl
    rw [h0] at h
    exact absurd h (by decide)
  obtain ⟨h1, h2⟩ := max_lt_iff.1 hlt
  refine ⟨ne_of_lt h1, fun hb => ?_⟩
  rw [hb, EReal.neg_bot] at h2
  exact lt_irrefl _ h2

/-- One entry of one array: the comparison of the absolute value with the broadcast word of +∞, read at an index, is the
    element comparison, whatever the shape. -/
theorem fin'_of_cmp {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) : Fin' (x i) :=
  fin'_of_abs_lt_inf (x i) h

/-- One array: if the fold by "and" of the comparisons over all axes is 1, every entry is a real. -/
theorem fin'_of_all {s : Shape} {axes : List (Fin s.rank)} (x : FVec Ideal s .f32)
    (hb : S_.BroadcastsInDim s (![] : Fin 0 → Fin s.rank)) (init : IVec S_ 1) (hr : s.ReducesTo axes S_)
    (hu : 0 < S_.numel) (j : S_.Idx)
    (e : Host.reduce IntOp.andi (cmpf .olt (Host.absf x) (broadcastInDim s ![] hb (constant S_ .f32 0x7F800000#32)))
          init hr hu j = 1#1) (i : s.Idx) : Fin' (x i) :=
  fin'_of_cmp x hb i (Host.reduce_andi_all _ init hr hu j e i)

/-- A conjunction of two bit arrays that is 1 at an index has both bits 1 there. -/
theorem andi_one {s : Shape} (x y : IVec s 1) (i : s.Idx) (h : andi x y i = 1#1) : x i = 1#1 ∧ y i = 1#1 :=
  IntOp.andi_eq_one.1 h

/-- THE PRECONDITION, READ BACK. If the precondition's bit is 1, every entry of each of the seven float arguments is a real. -/
theorem real_of_pre [Cert.Pre_finite_inputs.Facts] (a0 : FVec Ideal Cert.Pre_finite_inputs.S50000x128 .f32)
    (a1 : IVec Cert.Pre_finite_inputs.S2x800000 32) (a2 : FVec Ideal Cert.Pre_finite_inputs.S128x128 .f32)
    (a3 : FVec Ideal Cert.Pre_finite_inputs.S128 .f32) (a4 : FVec Ideal Cert.Pre_finite_inputs.S128x128 .f32)
    (a5 : FVec Ideal Cert.Pre_finite_inputs.S128 .f32) (a6 : FVec Ideal Cert.Pre_finite_inputs.S128x40 .f32)
    (a7 : FVec Ideal Cert.Pre_finite_inputs.S40 .f32)
    (h : Cert.Pre_finite_inputs.fn (F := Ideal) a0 a1 a2 a3 a4 a5 a6 a7 = fun _ => 1#1) :
    (∀ i, Fin' (a0 i)) ∧ (∀ i, Fin' (a2 i)) ∧ (∀ i, Fin' (a3 i)) ∧ (∀ i, Fin' (a4 i)) ∧ (∀ i, Fin' (a5 i))
      ∧ (∀ i, Fin' (a6 i)) ∧ (∀ i, Fin' (a7 i)) := by
  have h0 := congrFun h ValueIdx.ix0
  dsimp only [Cert.Pre_finite_inputs.fn, Cert.Pre_finite_inputs.fn_part1] at h0
  obtain ⟨h28, h32⟩ := andi_one _ _ _ h0
  obtain ⟨h23, h27⟩ := andi_one _ _ _ h28
  obtain ⟨h18, h22⟩ := andi_one _ _ _ h23
  obtain ⟨h13, h17⟩ := andi_one _ _ _ h18
  obtain ⟨h8, h12⟩ := andi_one _ _ _ h13
  obtain ⟨h3, h7⟩ := andi_one _ _ _ h8
  exact ⟨fin'_of_all a0 _ _ _ _ _ h3, fin'_of_all a2 _ _ _ _ _ h7, fin'_of_all a3 _ _ _ _ _ h12,
    fin'_of_all a4 _ _ _ _ _ h17, fin'_of_all a5 _ _ _ _ _ h22, fin'_of_all a6 _ _ _ _ _ h27,
    fin'_of_all a7 _ _ _ _ _ h32⟩

end Cert.PreReal

end
-- ==== Proof.lean ====
/-
  A three-layer graph convolutional network over 50000 nodes and 800000 edges, computed two ways.

  With A the normalised adjacency with self loops — entry (n, n') is the sum over the edges e from n' to n of
  1 / sqrt (deg n' · deg n), plus 1 / deg n on the diagonal, deg n being one plus the number of edges landing on n —
  each layer maps the features h to  act (A · h · W + b).  The reference multiplies first and aggregates after,
  act (A · (h · W) + b): gathers, a weighted scatter-add and the self term, all on the host. The kernel aggregates
  first on the host and leaves (A · h) · W + b and the activation to a kernel region that walks the rows in ten blocks
  of 5000. The activation is the rectifier after the first two layers and the logarithm of the row softmax after the
  third.

  On the extended reals a change of float format is the identity and sums may be taken in any order, so each region's
  output array is the dense layer of the whole array it stages, and the two programs differ only in the order of the
  two products. (A · h) · W = A · (h · W) is the exchange of two finite sums together with distributivity, which holds
  when every number involved is a real: the features, weights and biases by the precondition, the edge and self
  weights because one over anything is a real here, and each rectified layer's output because it is a maximum of finite
  sums of products of reals — so the law applies again at the next layer. The logarithm of the row softmax is the same
  function of equal arguments in both programs.

  The kernel's frames are the generated ones; its run with the result named reads the same chain of segments. The
  reference's run is read a layer at a time. Nothing was rewritten when the kernel was idealized, so that claim is
  trivial.
-/
import proofs.«103093_j44641890074931_1_alg».proof.Defs
import proofs.«103093_j44641890074931_1_alg».proof.Proof.Gen.Kernel
import proofs.«103093_j44641890074931_1_alg».proof.Proof.Gen.Kernel.Frame
import proofs.«103093_j44641890074931_1_alg».proof.Proof.Gen.KernelIdeal
import proofs.«103093_j44641890074931_1_alg».proof.Proof.Gen.KernelIdeal.Frame
import proofs.«103093_j44641890074931_1_alg».proof.Proof.Gen.ReferenceIdeal
import proofs.«103093_j44641890074931_1_alg».proof.Proof.Gen.Pre_finite_inputs
import proofs.«103093_j44641890074931_1_alg».proof.Proof.KRun
import proofs.«103093_j44641890074931_1_alg».proof.Proof.KValue
import proofs.«103093_j44641890074931_1_alg».proof.Proof.RefRun
import proofs.«103093_j44641890074931_1_alg».proof.Proof.Bridge
import proofs.«103093_j44641890074931_1_alg».proof.Proof.PreReal
import Idealize.ShloMosaic.Adequacy
import Idealize.ShloMosaic.Init

noncomputable section

namespace Cert.Proof

open Idealize.ShloMosaic Idealize.SL.Sem

/-- The word-level kernel runs and leaves its arguments as launched: the generated frame. -/
theorem frame_kernel : Cert.frame_Kernel := fun m ρ _ => Cert.Kernel.Gen.frame m ρ

/-- The idealized kernel runs and leaves its arguments as launched: the generated frame. -/
theorem frame_kernelIdeal : Cert.frame_KernelIdeal := fun m ρ _ => Cert.KernelIdeal.Gen.frame m ρ

/-- The idealized reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.RefRun.run m ρ)

/-- The idealization rewrote nothing. -/
theorem preserves : Cert.preserves_Kernel_KernelIdeal := trivial

/-- From memories agreeing on finite arguments both programs end with the same array: the kernel at its network of
    the arguments, the reference at its own, and the two networks are one function of real arguments. -/
theorem algebraic : Cert.algebraic_KernelIdeal_ReferenceIdeal := by
  intro m ρ m' ρ' hpre hagree
  refine ⟨fun c => Cert.KernelIdeal.KValue.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KValue.result_eq m ρ c), (h c).2⟩)
      (Cert.KernelIdeal.RunValue.run_main (F := Ideal) m ρ)
  · refine (θ_run Cert.ReferenceIdeal.defs _ _).mono (fun r h c => ⟨(h c).1.trans ?_, (h c).2⟩)
      (Cert.ReferenceIdeal.RefRun.run m' ρ')
    obtain ⟨h0, h1, h2, h3, h4, h5, h6, h7⟩ := hagree c
    rw [h0, h1, h2, h3, h4, h5, h6, h7]
    obtain ⟨r0, r2, r3, r4, r5, r6, _⟩ := Cert.PreReal.real_of_pre _ _ _ _ _ _ _ _ (hpre c)
    exact (Cert.Bridge.out_eq _ _ _ _ _ _ _ _ r0 r2 r3 r4 r5 r6).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
